-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v394) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64x64 : Shape := ⟨4, ![8, 512, 64, 64]⟩
abbrev S8x8x7x7x64x64 : Shape := ⟨6, ![8, 8, 7, 7, 64, 64]⟩
abbrev S_ : Shape := ⟨0, ![]⟩

class Facts : Prop where
  bcast_S_S8x512x64x64 : S_.BroadcastsInDim S8x512x64x64 (![] : Fin 0 → Fin S8x512x64x64.rank)
  reducesTo_S8x512x64x64_S_d0_1_2_3 : S8x512x64x64.ReducesTo [0, 1, 2, 3] S_
  h_S_ : 0 < S_.numel
  bcast_S_S8x8x7x7x64x64 : S_.BroadcastsInDim S8x8x7x7x64x64 (![] : Fin 0 → Fin S8x8x7x7x64x64.rank)
  reducesTo_S8x8x7x7x64x64_S_d0_1_2_3_4_5 : S8x8x7x7x64x64.ReducesTo [0, 1, 2, 3, 4, 5] S_

variable [Facts]

def fn {F : FTy → Type} [FloatOps F] (main_arg0 : FVec F S8x512x64x64 .f32) (main_arg1 : FVec F S8x8x7x7x64x64 .f32) : IVec S_ 1 :=
  let main_v0 : FVec F S8x512x64x64 .f32 := Host.absf main_arg0
  let main_cst : FVec F S_ .f32 := constant S_ .f32 0x7F800000#32
  let main_v1 : FVec F S8x512x64x64 .f32 := broadcastInDim S8x512x64x64 ![] bcast_S_S8x512x64x64 main_cst
  let main_v2 : IVec S8x512x64x64 1 := cmpf .olt main_v0 main_v1
  let main_c : IVec S_ 1 := constantI S_ 1 1#1
  let main_v3 : IVec S_ 1 := (fun x v => Host.reduce IntOp.andi x v reducesTo_S8x512x64x64_S_d0_1_2_3 h_S_) main_v2 main_c
  let main_v4 : FVec F S8x8x7x7x64x64 .f32 := Host.absf main_arg1
  let main_cst_0 : FVec F S_ .f32 := constant S_ .f32 0x7F800000#32
  let main_v5 : FVec F S8x8x7x7x64x64 .f32 := broadcastInDim S8x8x7x7x64x64 ![] bcast_S_S8x8x7x7x64x64 main_cst_0
  let main_v6 : IVec S8x8x7x7x64x64 1 := cmpf .olt main_v4 main_v5
  let main_c_1 : IVec S_ 1 := constantI S_ 1 1#1
  let main_v7 : IVec S_ 1 := (fun x v => Host.reduce IntOp.andi x v reducesTo_S8x8x7x7x64x64_S_d0_1_2_3_4_5 h_S_) main_v6 main_c_1
  let main_v8 : IVec S_ 1 := andi main_v3 main_v7
  main_v8
-- ==== Kernel.lean ====
abbrev S8x512x64x64 : Shape := ⟨4, ![8, 512, 64, 64]⟩
abbrev S8x8x7x7x64x64 : Shape := ⟨6, ![8, 8, 7, 7, 64, 64]⟩
abbrev S_ : Shape := ⟨0, ![]⟩
abbrev S8x512x70x70 : Shape := ⟨4, ![8, 512, 70, 70]⟩
abbrev S8x8x64x70x70 : Shape := ⟨5, ![8, 8, 64, 70, 70]⟩
abbrev S8x8x64x64x64 : Shape := ⟨5, ![8, 8, 64, 64, 64]⟩
abbrev S1x1x64x70x70 : Shape := ⟨5, ![1, 1, 64, 70, 70]⟩
abbrev S1x1x7x7x64x64 : Shape := ⟨6, ![1, 1, 7, 7, 64, 64]⟩
abbrev S1x1x64x64x64 : Shape := ⟨5, ![1, 1, 64, 64, 64]⟩
abbrev S64x64x64 : Shape := ⟨3, ![64, 64, 64]⟩
abbrev S1x1x1x1x64x64 : Shape := ⟨6, ![1, 1, 1, 1, 64, 64]⟩
abbrev S64x64 : Shape := ⟨2, ![64, 64]⟩
abbrev S1x64x64 : Shape := ⟨3, ![1, 64, 64]⟩

abbrev nBuf : Space → Nat
  | .hbm => 8
  | .vmem => 6
  | .smem => 0
  | _ => 0

abbrev bufTy : (tb : Table) → Fin (tcTables nBuf tb) → BufTy
  | .hbm, ⟨0, _⟩ => ⟨S8x512x64x64, .f32⟩
  | .hbm, ⟨1, _⟩ => ⟨S8x8x7x7x64x64, .f32⟩
  | .hbm, ⟨2, _⟩ => ⟨S_, .i32⟩
  | .hbm, ⟨3, _⟩ => ⟨S_, .f32⟩
  | .hbm, ⟨4, _⟩ => ⟨S8x512x70x70, .f32⟩
  | .hbm, ⟨5, _⟩ => ⟨S8x8x64x70x70, .f32⟩
  | .hbm, ⟨6, _⟩ => ⟨S8x8x64x64x64, .f32⟩
  | .hbm, ⟨7, _⟩ => ⟨S8x512x64x64, .f32⟩
  | .local _ .vmem, ⟨0, _⟩ => ⟨S1x1x64x70x70, .f32⟩
  | .local _ .vmem, ⟨1, _⟩ => ⟨S1x1x64x70x70, .f32⟩
  | .local _ .vmem, ⟨2, _⟩ => ⟨S1x1x7x7x64x64, .f32⟩
  | .local _ .vmem, ⟨3, _⟩ => ⟨S1x1x7x7x64x64, .f32⟩
  | .local _ .vmem, ⟨4, _⟩ => ⟨S1x1x64x64x64, .f32⟩
  | .local _ .vmem, ⟨5, _⟩ => ⟨S1x1x64x64x64, .f32⟩
  | _, _ => ⟨S8x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x1x64x70x70 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x7x7x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x512x64x64_S8x512x70x70_000_000_330_330 : S8x512x64x64.Pads (![0, 0, 3, 3] : Fin 4 → Nat) ![0, 0, 3, 3] ![0, 0, 0, 0] S8x512x70x70
  h_S_ : 0 < S_.numel
  shapeCasts_S8x512x70x70_S8x8x64x70x70 : S8x512x70x70.ShapeCasts S8x8x64x70x70
  inb_S1x1x64x70x70_S1x1x64x64x64_0_0_0_0_0 : ∀ a, (![0, 0, 0, 0, 0] : Fin 5 → Nat) a + S1x1x64x64x64.size a ≤ S1x1x64x70x70.size a
  h_S1x1x64x64x64 : 0 < S1x1x64x64x64.numel
  shapeCasts_S1x1x64x64x64_S64x64x64 : S1x1x64x64x64.ShapeCasts S64x64x64
  inb_S1x1x7x7x64x64_S1x1x1x1x64x64_0_0_0_0_0_0 : ∀ a, (![0, 0, 0, 0, 0, 0] : Fin 6 → Nat) a + S1x1x1x1x64x64.size a ≤ S1x1x7x7x64x64.size a
  h_S1x1x1x1x64x64 : 0 < S1x1x1x1x64x64.numel
  shapeCasts_S1x1x1x1x64x64_S64x64 : S1x1x1x1x64x64.ShapeCasts S64x64
  shapeCasts_S64x64_S1x64x64 : S64x64.ShapeCasts S1x64x64
  broadcasts_S1x64x64_S64x64x64 : S1x64x64.Broadcasts S64x64x64
  inb_S1x1x64x70x70_S1x1x64x64x64_0_0_0_0_1 : ∀ a, (![0, 0, 0, 0, 1] : Fin 5 → Nat) a + S1x1x64x64x64.size a ≤ S1x1x64x70x70.size a
  inb_S1x1x7x7x64x64_S1x1x1x1x64x64_0_0_0_1_0_0 : ∀ a, (![0, 0, 0, 1, 0, 0] : Fin 6 → Nat) a + S1x1x1x1x64x64.size a ≤ S1x1x7x7x64x64.size a
  inb_S1x1x64x70x70_S1x1x64x64x64_0_0_0_0_2 : ∀ a, (![0, 0, 0, 0, 2] : Fin 5 → Nat) a + S1x1x64x64x64.size a ≤ S1x1x64x70x70.size a
  inb_S1x1x7x7x64x64_S1x1x1x1x64x64_0_0_0_2_0_0 : ∀ a, (![0, 0, 0, 2, 0, 0] : Fin 6 → Nat) a + S1x1x1x1x64x64.size a ≤ S1x1x7x7x64x64.size a
  inb_S1x1x64x70x70_S1x1x64x64x64_0_0_0_0_3 : ∀ a, (![0, 0, 0, 0, 3] : Fin 5 → Nat) a + S1x1x64x64x64.size a ≤ S1x1x64x70x70.size a
  inb_S1x1x7x7x64x64_S1x1x1x1x64x64_0_0_0_3_0_0 : ∀ a, (![0, 0, 0, 3, 0, 0] : Fin 6 → Nat) a + S1x1x1x1x64x64.size a ≤ S1x1x7x7x64x64.size a
  inb_S1x1x64x70x70_S1x1x64x64x64_0_0_0_0_4 : ∀ a, (![0, 0, 0, 0, 4] : Fin 5 → Nat) a + S1x1x64x64x64.size a ≤ S1x1x64x70x70.size a
  inb_S1x1x7x7x64x64_S1x1x1x1x64x64_0_0_0_4_0_0 : ∀ a, (![0, 0, 0, 4, 0, 0] : Fin 6 → Nat) a + S1x1x1x1x64x64.size a ≤ S1x1x7x7x64x64.size a
  inb_S1x1x64x70x70_S1x1x64x64x64_0_0_0_0_5 : ∀ a, (![0, 0, 0, 0, 5] : Fin 5 → Nat) a + S1x1x64x64x64.size a ≤ S1x1x64x70x70.size a
  inb_S1x1x7x7x64x64_S1x1x1x1x64x64_0_0_0_5_0_0 : ∀ a, (![0, 0, 0, 5, 0, 0] : Fin 6 → Nat) a + S1x1x1x1x64x64.size a ≤ S1x1x7x7x64x64.size a
  inb_S1x1x64x70x70_S1x1x64x64x64_0_0_0_0_6 : ∀ a, (![0, 0, 0, 0, 6] : Fin 5 → Nat) a + S1x1x64x64x64.size a ≤ S1x1x64x70x70.size a
  inb_S1x1x7x7x64x64_S1x1x1x1x64x64_0_0_0_6_0_0 : ∀ a, (![0, 0, 0, 6, 0, 0] : Fin 6 → Nat) a + S1x1x1x1x64x64.size a ≤ S1x1x7x7x64x64.size a
  inb_S1x1x64x70x70_S1x1x64x64x64_0_0_0_1_0 : ∀ a, (![0, 0, 0, 1, 0] : Fin 5 → Nat) a + S1x1x64x64x64.size a ≤ S1x1x64x70x70.size a
  inb_S1x1x7x7x64x64_S1x1x1x1x64x64_0_0_1_0_0_0 : ∀ a, (![0, 0, 1, 0, 0, 0] : Fin 6 → Nat) a + S1x1x1x1x64x64.size a ≤ S1x1x7x7x64x64.size a
  inb_S1x1x64x70x70_S1x1x64x64x64_0_0_0_1_1 : ∀ a, (![0, 0, 0, 1, 1] : Fin 5 → Nat) a + S1x1x64x64x64.size a ≤ S1x1x64x70x70.size a
  inb_S1x1x7x7x64x64_S1x1x1x1x64x64_0_0_1_1_0_0 : ∀ a, (![0, 0, 1, 1, 0, 0] : Fin 6 → Nat) a + S1x1x1x1x64x64.size a ≤ S1x1x7x7x64x64.size a
  inb_S1x1x64x70x70_S1x1x64x64x64_0_0_0_1_2 : ∀ a, (![0, 0, 0, 1, 2] : Fin 5 → Nat) a + S1x1x64x64x64.size a ≤ S1x1x64x70x70.size a
  inb_S1x1x7x7x64x64_S1x1x1x1x64x64_0_0_1_2_0_0 : ∀ a, (![0, 0, 1, 2, 0, 0] : Fin 6 → Nat) a + S1x1x1x1x64x64.size a ≤ S1x1x7x7x64x64.size a
  inb_S1x1x64x70x70_S1x1x64x64x64_0_0_0_1_3 : ∀ a, (![0, 0, 0, 1, 3] : Fin 5 → Nat) a + S1x1x64x64x64.size a ≤ S1x1x64x70x70.size a
  inb_S1x1x7x7x64x64_S1x1x1x1x64x64_0_0_1_3_0_0 : ∀ a, (![0, 0, 1, 3, 0, 0] : Fin 6 → Nat) a + S1x1x1x1x64x64.size a ≤ S1x1x7x7x64x64.size a
  inb_S1x1x64x70x70_S1x1x64x64x64_0_0_0_1_4 : ∀ a, (![0, 0, 0, 1, 4] : Fin 5 → Nat) a + S1x1x64x64x64.size a ≤ S1x1x64x70x70.size a
  inb_S1x1x7x7x64x64_S1x1x1x1x64x64_0_0_1_4_0_0 : ∀ a, (![0, 0, 1, 4, 0, 0] : Fin 6 → Nat) a + S1x1x1x1x64x64.size a ≤ S1x1x7x7x64x64.size a
  inb_S1x1x64x70x70_S1x1x64x64x64_0_0_0_1_5 : ∀ a, (![0, 0, 0, 1, 5] : Fin 5 → Nat) a + S1x1x64x64x64.size a ≤ S1x1x64x70x70.size a
  inb_S1x1x7x7x64x64_S1x1x1x1x64x64_0_0_1_5_0_0 : ∀ a, (![0, 0, 1, 5, 0, 0] : Fin 6 → Nat) a + S1x1x1x1x64x64.size a ≤ S1x1x7x7x64x64.size a
  inb_S1x1x64x70x70_S1x1x64x64x64_0_0_0_1_6 : ∀ a, (![0, 0, 0, 1, 6] : Fin 5 → Nat) a + S1x1x64x64x64.size a ≤ S1x1x64x70x70.size a
  inb_S1x1x7x7x64x64_S1x1x1x1x64x64_0_0_1_6_0_0 : ∀ a, (![0, 0, 1, 6, 0, 0] : Fin 6 → Nat) a + S1x1x1x1x64x64.size a ≤ S1x1x7x7x64x64.size a
  inb_S1x1x64x70x70_S1x1x64x64x64_0_0_0_2_0 : ∀ a, (![0, 0, 0, 2, 0] : Fin 5 → Nat) a + S1x1x64x64x64.size a ≤ S1x1x64x70x70.size a
  inb_S1x1x7x7x64x64_S1x1x1x1x64x64_0_0_2_0_0_0 : ∀ a, (![0, 0, 2, 0, 0, 0] : Fin 6 → Nat) a + S1x1x1x1x64x64.size a ≤ S1x1x7x7x64x64.size a
  inb_S1x1x64x70x70_S1x1x64x64x64_0_0_0_2_1 : ∀ a, (![0, 0, 0, 2, 1] : Fin 5 → Nat) a + S1x1x64x64x64.size a ≤ S1x1x64x70x70.size a
  inb_S1x1x7x7x64x64_S1x1x1x1x64x64_0_0_2_1_0_0 : ∀ a, (![0, 0, 2, 1, 0, 0] : Fin 6 → Nat) a + S1x1x1x1x64x64.size a ≤ S1x1x7x7x64x64.size a
  inb_S1x1x64x70x70_S1x1x64x64x64_0_0_0_2_2 : ∀ a, (![0, 0, 0, 2, 2] : Fin 5 → Nat) a + S1x1x64x64x64.size a ≤ S1x1x64x70x70.size a
  inb_S1x1x7x7x64x64_S1x1x1x1x64x64_0_0_2_2_0_0 : ∀ a, (![0, 0, 2, 2, 0, 0] : Fin 6 → Nat) a + S1x1x1x1x64x64.size a ≤ S1x1x7x7x64x64.size a
  inb_S1x1x64x70x70_S1x1x64x64x64_0_0_0_2_3 : ∀ a, (![0, 0, 0, 2, 3] : Fin 5 → Nat) a + S1x1x64x64x64.size a ≤ S1x1x64x70x70.size a
  inb_S1x1x7x7x64x64_S1x1x1x1x64x64_0_0_2_3_0_0 : ∀ a, (![0, 0, 2, 3, 0, 0] : Fin 6 → Nat) a + S1x1x1x1x64x64.size a ≤ S1x1x7x7x64x64.size a
  inb_S1x1x64x70x70_S1x1x64x64x64_0_0_0_2_4 : ∀ a, (![0, 0, 0, 2, 4] : Fin 5 → Nat) a + S1x1x64x64x64.size a ≤ S1x1x64x70x70.size a
  inb_S1x1x7x7x64x64_S1x1x1x1x64x64_0_0_2_4_0_0 : ∀ a, (![0, 0, 2, 4, 0, 0] : Fin 6 → Nat) a + S1x1x1x1x64x64.size a ≤ S1x1x7x7x64x64.size a
  inb_S1x1x64x70x70_S1x1x64x64x64_0_0_0_2_5 : ∀ a, (![0, 0, 0, 2, 5] : Fin 5 → Nat) a + S1x1x64x64x64.size a ≤ S1x1x64x70x70.size a
  inb_S1x1x7x7x64x64_S1x1x1x1x64x64_0_0_2_5_0_0 : ∀ a, (![0, 0, 2, 5, 0, 0] : Fin 6 → Nat) a + S1x1x1x1x64x64.size a ≤ S1x1x7x7x64x64.size a
  inb_S1x1x64x70x70_S1x1x64x64x64_0_0_0_2_6 : ∀ a, (![0, 0, 0, 2, 6] : Fin 5 → Nat) a + S1x1x64x64x64.size a ≤ S1x1x64x70x70.size a
  inb_S1x1x7x7x64x64_S1x1x1x1x64x64_0_0_2_6_0_0 : ∀ a, (![0, 0, 2, 6, 0, 0] : Fin 6 → Nat) a + S1x1x1x1x64x64.size a ≤ S1x1x7x7x64x64.size a
  inb_S1x1x64x70x70_S1x1x64x64x64_0_0_0_3_0 : ∀ a, (![0, 0, 0, 3, 0] : Fin 5 → Nat) a + S1x1x64x64x64.size a ≤ S1x1x64x70x70.size a
  inb_S1x1x7x7x64x64_S1x1x1x1x64x64_0_0_3_0_0_0 : ∀ a, (![0, 0, 3, 0, 0, 0] : Fin 6 → Nat) a + S1x1x1x1x64x64.size a ≤ S1x1x7x7x64x64.size a
  inb_S1x1x64x70x70_S1x1x64x64x64_0_0_0_3_1 : ∀ a, (![0, 0, 0, 3, 1] : Fin 5 → Nat) a + S1x1x64x64x64.size a ≤ S1x1x64x70x70.size a
  inb_S1x1x7x7x64x64_S1x1x1x1x64x64_0_0_3_1_0_0 : ∀ a, (![0, 0, 3, 1, 0, 0] : Fin 6 → Nat) a + S1x1x1x1x64x64.size a ≤ S1x1x7x7x64x64.size a
  inb_S1x1x64x70x70_S1x1x64x64x64_0_0_0_3_2 : ∀ a, (![0, 0, 0, 3, 2] : Fin 5 → Nat) a + S1x1x64x64x64.size a ≤ S1x1x64x70x70.size a
  inb_S1x1x7x7x64x64_S1x1x1x1x64x64_0_0_3_2_0_0 : ∀ a, (![0, 0, 3, 2, 0, 0] : Fin 6 → Nat) a + S1x1x1x1x64x64.size a ≤ S1x1x7x7x64x64.size a
  inb_S1x1x64x70x70_S1x1x64x64x64_0_0_0_3_3 : ∀ a, (![0, 0, 0, 3, 3] : Fin 5 → Nat) a + S1x1x64x64x64.size a ≤ S1x1x64x70x70.size a
  inb_S1x1x7x7x64x64_S1x1x1x1x64x64_0_0_3_3_0_0 : ∀ a, (![0, 0, 3, 3, 0, 0] : Fin 6 → Nat) a + S1x1x1x1x64x64.size a ≤ S1x1x7x7x64x64.size a
  inb_S1x1x64x70x70_S1x1x64x64x64_0_0_0_3_4 : ∀ a, (![0, 0, 0, 3, 4] : Fin 5 → Nat) a + S1x1x64x64x64.size a ≤ S1x1x64x70x70.size a
  inb_S1x1x7x7x64x64_S1x1x1x1x64x64_0_0_3_4_0_0 : ∀ a, (![0, 0, 3, 4, 0, 0] : Fin 6 → Nat) a + S1x1x1x1x64x64.size a ≤ S1x1x7x7x64x64.size a
  inb_S1x1x64x70x70_S1x1x64x64x64_0_0_0_3_5 : ∀ a, (![0, 0, 0, 3, 5] : Fin 5 → Nat) a + S1x1x64x64x64.size a ≤ S1x1x64x70x70.size a
  inb_S1x1x7x7x64x64_S1x1x1x1x64x64_0_0_3_5_0_0 : ∀ a, (![0, 0, 3, 5, 0, 0] : Fin 6 → Nat) a + S1x1x1x1x64x64.size a ≤ S1x1x7x7x64x64.size a
  inb_S1x1x64x70x70_S1x1x64x64x64_0_0_0_3_6 : ∀ a, (![0, 0, 0, 3, 6] : Fin 5 → Nat) a + S1x1x64x64x64.size a ≤ S1x1x64x70x70.size a
  inb_S1x1x7x7x64x64_S1x1x1x1x64x64_0_0_3_6_0_0 : ∀ a, (![0, 0, 3, 6, 0, 0] : Fin 6 → Nat) a + S1x1x1x1x64x64.size a ≤ S1x1x7x7x64x64.size a
  inb_S1x1x64x70x70_S1x1x64x64x64_0_0_0_4_0 : ∀ a, (![0, 0, 0, 4, 0] : Fin 5 → Nat) a + S1x1x64x64x64.size a ≤ S1x1x64x70x70.size a
  inb_S1x1x7x7x64x64_S1x1x1x1x64x64_0_0_4_0_0_0 : ∀ a, (![0, 0, 4, 0, 0, 0] : Fin 6 → Nat) a + S1x1x1x1x64x64.size a ≤ S1x1x7x7x64x64.size a
  inb_S1x1x64x70x70_S1x1x64x64x64_0_0_0_4_1 : ∀ a, (![0, 0, 0, 4, 1] : Fin 5 → Nat) a + S1x1x64x64x64.size a ≤ S1x1x64x70x70.size a
  inb_S1x1x7x7x64x64_S1x1x1x1x64x64_0_0_4_1_0_0 : ∀ a, (![0, 0, 4, 1, 0, 0] : Fin 6 → Nat) a + S1x1x1x1x64x64.size a ≤ S1x1x7x7x64x64.size a
  inb_S1x1x64x70x70_S1x1x64x64x64_0_0_0_4_2 : ∀ a, (![0, 0, 0, 4, 2] : Fin 5 → Nat) a + S1x1x64x64x64.size a ≤ S1x1x64x70x70.size a
  inb_S1x1x7x7x64x64_S1x1x1x1x64x64_0_0_4_2_0_0 : ∀ a, (![0, 0, 4, 2, 0, 0] : Fin 6 → Nat) a + S1x1x1x1x64x64.size a ≤ S1x1x7x7x64x64.size a
  inb_S1x1x64x70x70_S1x1x64x64x64_0_0_0_4_3 : ∀ a, (![0, 0, 0, 4, 3] : Fin 5 → Nat) a + S1x1x64x64x64.size a ≤ S1x1x64x70x70.size a
  inb_S1x1x7x7x64x64_S1x1x1x1x64x64_0_0_4_3_0_0 : ∀ a, (![0, 0, 4, 3, 0, 0] : Fin 6 → Nat) a + S1x1x1x1x64x64.size a ≤ S1x1x7x7x64x64.size a
  inb_S1x1x64x70x70_S1x1x64x64x64_0_0_0_4_4 : ∀ a, (![0, 0, 0, 4, 4] : Fin 5 → Nat) a + S1x1x64x64x64.size a ≤ S1x1x64x70x70.size a
  inb_S1x1x7x7x64x64_S1x1x1x1x64x64_0_0_4_4_0_0 : ∀ a, (![0, 0, 4, 4, 0, 0] : Fin 6 → Nat) a + S1x1x1x1x64x64.size a ≤ S1x1x7x7x64x64.size a
  inb_S1x1x64x70x70_S1x1x64x64x64_0_0_0_4_5 : ∀ a, (![0, 0, 0, 4, 5] : Fin 5 → Nat) a + S1x1x64x64x64.size a ≤ S1x1x64x70x70.size a
  inb_S1x1x7x7x64x64_S1x1x1x1x64x64_0_0_4_5_0_0 : ∀ a, (![0, 0, 4, 5, 0, 0] : Fin 6 → Nat) a + S1x1x1x1x64x64.size a ≤ S1x1x7x7x64x64.size a
  inb_S1x1x64x70x70_S1x1x64x64x64_0_0_0_4_6 : ∀ a, (![0, 0, 0, 4, 6] : Fin 5 → Nat) a + S1x1x64x64x64.size a ≤ S1x1x64x70x70.size a
  inb_S1x1x7x7x64x64_S1x1x1x1x64x64_0_0_4_6_0_0 : ∀ a, (![0, 0, 4, 6, 0, 0] : Fin 6 → Nat) a + S1x1x1x1x64x64.size a ≤ S1x1x7x7x64x64.size a
  inb_S1x1x64x70x70_S1x1x64x64x64_0_0_0_5_0 : ∀ a, (![0, 0, 0, 5, 0] : Fin 5 → Nat) a + S1x1x64x64x64.size a ≤ S1x1x64x70x70.size a
  inb_S1x1x7x7x64x64_S1x1x1x1x64x64_0_0_5_0_0_0 : ∀ a, (![0, 0, 5, 0, 0, 0] : Fin 6 → Nat) a + S1x1x1x1x64x64.size a ≤ S1x1x7x7x64x64.size a
  inb_S1x1x64x70x70_S1x1x64x64x64_0_0_0_5_1 : ∀ a, (![0, 0, 0, 5, 1] : Fin 5 → Nat) a + S1x1x64x64x64.size a ≤ S1x1x64x70x70.size a
  inb_S1x1x7x7x64x64_S1x1x1x1x64x64_0_0_5_1_0_0 : ∀ a, (![0, 0, 5, 1, 0, 0] : Fin 6 → Nat) a + S1x1x1x1x64x64.size a ≤ S1x1x7x7x64x64.size a
  inb_S1x1x64x70x70_S1x1x64x64x64_0_0_0_5_2 : ∀ a, (![0, 0, 0, 5, 2] : Fin 5 → Nat) a + S1x1x64x64x64.size a ≤ S1x1x64x70x70.size a
  inb_S1x1x7x7x64x64_S1x1x1x1x64x64_0_0_5_2_0_0 : ∀ a, (![0, 0, 5, 2, 0, 0] : Fin 6 → Nat) a + S1x1x1x1x64x64.size a ≤ S1x1x7x7x64x64.size a
  inb_S1x1x64x70x70_S1x1x64x64x64_0_0_0_5_3 : ∀ a, (![0, 0, 0, 5, 3] : Fin 5 → Nat) a + S1x1x64x64x64.size a ≤ S1x1x64x70x70.size a
  inb_S1x1x7x7x64x64_S1x1x1x1x64x64_0_0_5_3_0_0 : ∀ a, (![0, 0, 5, 3, 0, 0] : Fin 6 → Nat) a + S1x1x1x1x64x64.size a ≤ S1x1x7x7x64x64.size a
  inb_S1x1x64x70x70_S1x1x64x64x64_0_0_0_5_4 : ∀ a, (![0, 0, 0, 5, 4] : Fin 5 → Nat) a + S1x1x64x64x64.size a ≤ S1x1x64x70x70.size a
  inb_S1x1x7x7x64x64_S1x1x1x1x64x64_0_0_5_4_0_0 : ∀ a, (![0, 0, 5, 4, 0, 0] : Fin 6 → Nat) a + S1x1x1x1x64x64.size a ≤ S1x1x7x7x64x64.size a
  inb_S1x1x64x70x70_S1x1x64x64x64_0_0_0_5_5 : ∀ a, (![0, 0, 0, 5, 5] : Fin 5 → Nat) a + S1x1x64x64x64.size a ≤ S1x1x64x70x70.size a
  inb_S1x1x7x7x64x64_S1x1x1x1x64x64_0_0_5_5_0_0 : ∀ a, (![0, 0, 5, 5, 0, 0] : Fin 6 → Nat) a + S1x1x1x1x64x64.size a ≤ S1x1x7x7x64x64.size a
  inb_S1x1x64x70x70_S1x1x64x64x64_0_0_0_5_6 : ∀ a, (![0, 0, 0, 5, 6] : Fin 5 → Nat) a + S1x1x64x64x64.size a ≤ S1x1x64x70x70.size a
  inb_S1x1x7x7x64x64_S1x1x1x1x64x64_0_0_5_6_0_0 : ∀ a, (![0, 0, 5, 6, 0, 0] : Fin 6 → Nat) a + S1x1x1x1x64x64.size a ≤ S1x1x7x7x64x64.size a
  inb_S1x1x64x70x70_S1x1x64x64x64_0_0_0_6_0 : ∀ a, (![0, 0, 0, 6, 0] : Fin 5 → Nat) a + S1x1x64x64x64.size a ≤ S1x1x64x70x70.size a
  inb_S1x1x7x7x64x64_S1x1x1x1x64x64_0_0_6_0_0_0 : ∀ a, (![0, 0, 6, 0, 0, 0] : Fin 6 → Nat) a + S1x1x1x1x64x64.size a ≤ S1x1x7x7x64x64.size a
  inb_S1x1x64x70x70_S1x1x64x64x64_0_0_0_6_1 : ∀ a, (![0, 0, 0, 6, 1] : Fin 5 → Nat) a + S1x1x64x64x64.size a ≤ S1x1x64x70x70.size a
  inb_S1x1x7x7x64x64_S1x1x1x1x64x64_0_0_6_1_0_0 : ∀ a, (![0, 0, 6, 1, 0, 0] : Fin 6 → Nat) a + S1x1x1x1x64x64.size a ≤ S1x1x7x7x64x64.size a
  inb_S1x1x64x70x70_S1x1x64x64x64_0_0_0_6_2 : ∀ a, (![0, 0, 0, 6, 2] : Fin 5 → Nat) a + S1x1x64x64x64.size a ≤ S1x1x64x70x70.size a
  inb_S1x1x7x7x64x64_S1x1x1x1x64x64_0_0_6_2_0_0 : ∀ a, (![0, 0, 6, 2, 0, 0] : Fin 6 → Nat) a + S1x1x1x1x64x64.size a ≤ S1x1x7x7x64x64.size a
  inb_S1x1x64x70x70_S1x1x64x64x64_0_0_0_6_3 : ∀ a, (![0, 0, 0, 6, 3] : Fin 5 → Nat) a + S1x1x64x64x64.size a ≤ S1x1x64x70x70.size a
  inb_S1x1x7x7x64x64_S1x1x1x1x64x64_0_0_6_3_0_0 : ∀ a, (![0, 0, 6, 3, 0, 0] : Fin 6 → Nat) a + S1x1x1x1x64x64.size a ≤ S1x1x7x7x64x64.size a
  inb_S1x1x64x70x70_S1x1x64x64x64_0_0_0_6_4 : ∀ a, (![0, 0, 0, 6, 4] : Fin 5 → Nat) a + S1x1x64x64x64.size a ≤ S1x1x64x70x70.size a
  inb_S1x1x7x7x64x64_S1x1x1x1x64x64_0_0_6_4_0_0 : ∀ a, (![0, 0, 6, 4, 0, 0] : Fin 6 → Nat) a + S1x1x1x1x64x64.size a ≤ S1x1x7x7x64x64.size a
  inb_S1x1x64x70x70_S1x1x64x64x64_0_0_0_6_5 : ∀ a, (![0, 0, 0, 6, 5] : Fin 5 → Nat) a + S1x1x64x64x64.size a ≤ S1x1x64x70x70.size a
  inb_S1x1x7x7x64x64_S1x1x1x1x64x64_0_0_6_5_0_0 : ∀ a, (![0, 0, 6, 5, 0, 0] : Fin 6 → Nat) a + S1x1x1x1x64x64.size a ≤ S1x1x7x7x64x64.size a
  inb_S1x1x64x70x70_S1x1x64x64x64_0_0_0_6_6 : ∀ a, (![0, 0, 0, 6, 6] : Fin 5 → Nat) a + S1x1x64x64x64.size a ≤ S1x1x64x70x70.size a
  inb_S1x1x7x7x64x64_S1x1x1x1x64x64_0_0_6_6_0_0 : ∀ a, (![0, 0, 6, 6, 0, 0] : Fin 6 → Nat) a + S1x1x1x1x64x64.size a ≤ S1x1x7x7x64x64.size a
  inb_S1x1x64x64x64_S1x1x64x64x64_0_0_0_0_0 : ∀ a, (![0, 0, 0, 0, 0] : Fin 5 → Nat) a + S1x1x64x64x64.size a ≤ S1x1x64x64x64.size a
  shapeCasts_S64x64x64_S1x1x64x64x64 : S64x64x64.ShapeCasts S1x1x64x64x64
  shapeCasts_S8x8x64x64x64_S8x512x64x64 : S8x8x64x64x64.ShapeCasts S8x512x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x70x70.size a ≤ S8x8x64x70x70.size a
  hwx0_0 : ∀ i : grid0.Coords, EltTy.bits .f32 = 32 ∨ (Rect.block (s := S8x8x64x70x70) S1x1x64x70x70.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x7x7x64x64.size a ≤ S8x8x7x7x64x64.size a
  hwx0_1 : ∀ i : grid0.Coords, EltTy.bits .f32 = 32 ∨ (Rect.block (s := S8x8x7x7x64x64) S1x1x7x7x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x64x64.size a ≤ S8x8x64x64x64.size a
  hwx0_2 : ∀ i : grid0.Coords, EltTy.bits .f32 = 32 ∨ (Rect.block (s := S8x8x64x64x64) S1x1x64x64x64.size (cc0_transform_2 i) (hinb0_2 i)).WholeWords (EltTy.packing .f32)

variable [Facts₀]

abbrev win0_0 : Pipeline.Window sig grid0 :=
  Pipeline.Window.ofSpec (Memref.whole main_v1) S1x1x64x70x70.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x7x7x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x64x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x64x64 : Shape := ⟨4, ![8, 512, 64, 64]⟩
abbrev S8x8x7x7x64x64 : Shape := ⟨6, ![8, 8, 7, 7, 64, 64]⟩
abbrev S_ : Shape := ⟨0, ![]⟩
abbrev S8x512x70x70 : Shape := ⟨4, ![8, 512, 70, 70]⟩
abbrev S8x8x64x64x64 : Shape := ⟨5, ![8, 8, 64, 64, 64]⟩
abbrev S8x8x1x1x64x64 : Shape := ⟨6, ![8, 8, 1, 1, 64, 64]⟩
abbrev S8x8x64x64 : Shape := ⟨4, ![8, 8, 64, 64]⟩
abbrev S8x8x1x64x64 : Shape := ⟨5, ![8, 8, 1, 64, 64]⟩

abbrev nBuf : Space → Nat
  | .hbm => 400
  | .vmem => 0
  | .smem => 0
  | _ => 0

abbrev hbmTy0_0 (i : Nat) : BufTy := match i % 128 with
  | 0 => ⟨S8x512x64x64, .f32⟩
  | 1 => ⟨S8x8x7x7x64x64, .f32⟩
  | 2 => ⟨S_, .i32⟩
  | 3 => ⟨S_, .f32⟩
  | 4 => ⟨S8x512x70x70, .f32⟩
  | 5 => ⟨S_, .f32⟩
  | 6 => ⟨S8x8x64x64x64, .f32⟩
  | 7 => ⟨S8x512x64x64, .f32⟩
  | 8 => ⟨S8x8x1x1x64x64, .f32⟩
  | 9 => ⟨S8x8x64x64, .f32⟩
  | 10 => ⟨S8x8x64x64x64, .f32⟩
  | 11 => ⟨S8x8x1x64x64, .f32⟩
  | 12 => ⟨S8x8x64x64x64, .f32⟩
  | 13 => ⟨S8x8x64x64x64, .f32⟩
  | 14 => ⟨S8x8x64x64x64, .f32⟩
  | 15 => ⟨S8x512x64x64, .f32⟩
  | 16 => ⟨S8x8x1x1x64x64, .f32⟩
  | 17 => ⟨S8x8x64x64, .f32⟩
  | 18 => ⟨S8x8x64x64x64, .f32⟩
  | 19 => ⟨S8x8x1x64x64, .f32⟩
  | 20 => ⟨S8x8x64x64x64, .f32⟩
  | 21 => ⟨S8x8x64x64x64, .f32⟩
  | 22 => ⟨S8x8x64x64x64, .f32⟩
  | 23 => ⟨S8x512x64x64, .f32⟩
  | 24 => ⟨S8x8x1x1x64x64, .f32⟩
  | 25 => ⟨S8x8x64x64, .f32⟩
  | 26 => ⟨S8x8x64x64x64, .f32⟩
  | 27 => ⟨S8x8x1x64x64, .f32⟩
  | 28 => ⟨S8x8x64x64x64, .f32⟩
  | 29 => ⟨S8x8x64x64x64, .f32⟩
  | 30 => ⟨S8x8x64x64x64, .f32⟩
  | 31 => ⟨S8x512x64x64, .f32⟩
  | 32 => ⟨S8x8x1x1x64x64, .f32⟩
  | 33 => ⟨S8x8x64x64, .f32⟩
  | 34 => ⟨S8x8x64x64x64, .f32⟩
  | 35 => ⟨S8x8x1x64x64, .f32⟩
  | 36 => ⟨S8x8x64x64x64, .f32⟩
  | 37 => ⟨S8x8x64x64x64, .f32⟩
  | 38 => ⟨S8x8x64x64x64, .f32⟩
  | 39 => ⟨S8x512x64x64, .f32⟩
  | 40 => ⟨S8x8x1x1x64x64, .f32⟩
  | 41 => ⟨S8x8x64x64, .f32⟩
  | 42 => ⟨S8x8x64x64x64, .f32⟩
  | 43 => ⟨S8x8x1x64x64, .f32⟩
  | 44 => ⟨S8x8x64x64x64, .f32⟩
  | 45 => ⟨S8x8x64x64x64, .f32⟩
  | 46 => ⟨S8x8x64x64x64, .f32⟩
  | 47 => ⟨S8x512x64x64, .f32⟩
  | 48 => ⟨S8x8x1x1x64x64, .f32⟩
  | 49 => ⟨S8x8x64x64, .f32⟩
  | 50 => ⟨S8x8x64x64x64, .f32⟩
  | 51 => ⟨S8x8x1x64x64, .f32⟩
  | 52 => ⟨S8x8x64x64x64, .f32⟩
  | 53 => ⟨S8x8x64x64x64, .f32⟩
  | 54 => ⟨S8x8x64x64x64, .f32⟩
  | 55 => ⟨S8x512x64x64, .f32⟩
  | 56 => ⟨S8x8x1x1x64x64, .f32⟩
  | 57 => ⟨S8x8x64x64, .f32⟩
  | 58 => ⟨S8x8x64x64x64, .f32⟩
  | 59 => ⟨S8x8x1x64x64, .f32⟩
  | 60 => ⟨S8x8x64x64x64, .f32⟩
  | 61 => ⟨S8x8x64x64x64, .f32⟩
  | 62 => ⟨S8x8x64x64x64, .f32⟩
  | 63 => ⟨S8x512x64x64, .f32⟩
  | 64 => ⟨S8x8x1x1x64x64, .f32⟩
  | 65 => ⟨S8x8x64x64, .f32⟩
  | 66 => ⟨S8x8x64x64x64, .f32⟩
  | 67 => ⟨S8x8x1x64x64, .f32⟩
  | 68 => ⟨S8x8x64x64x64, .f32⟩
  | 69 => ⟨S8x8x64x64x64, .f32⟩
  | 70 => ⟨S8x8x64x64x64, .f32⟩
  | 71 => ⟨S8x512x64x64, .f32⟩
  | 72 => ⟨S8x8x1x1x64x64, .f32⟩
  | 73 => ⟨S8x8x64x64, .f32⟩
  | 74 => ⟨S8x8x64x64x64, .f32⟩
  | 75 => ⟨S8x8x1x64x64, .f32⟩
  | 76 => ⟨S8x8x64x64x64, .f32⟩
  | 77 => ⟨S8x8x64x64x64, .f32⟩
  | 78 => ⟨S8x8x64x64x64, .f32⟩
  | 79 => ⟨S8x512x64x64, .f32⟩
  | 80 => ⟨S8x8x1x1x64x64, .f32⟩
  | 81 => ⟨S8x8x64x64, .f32⟩
  | 82 => ⟨S8x8x64x64x64, .f32⟩
  | 83 => ⟨S8x8x1x64x64, .f32⟩
  | 84 => ⟨S8x8x64x64x64, .f32⟩
  | 85 => ⟨S8x8x64x64x64, .f32⟩
  | 86 => ⟨S8x8x64x64x64, .f32⟩
  | 87 => ⟨S8x512x64x64, .f32⟩
  | 88 => ⟨S8x8x1x1x64x64, .f32⟩
  | 89 => ⟨S8x8x64x64, .f32⟩
  | 90 => ⟨S8x8x64x64x64, .f32⟩
  | 91 => ⟨S8x8x1x64x64, .f32⟩
  | 92 => ⟨S8x8x64x64x64, .f32⟩
  | 93 => ⟨S8x8x64x64x64, .f32⟩
  | 94 => ⟨S8x8x64x64x64, .f32⟩
  | 95 => ⟨S8x512x64x64, .f32⟩
  | 96 => ⟨S8x8x1x1x64x64, .f32⟩
  | 97 => ⟨S8x8x64x64, .f32⟩
  | 98 => ⟨S8x8x64x64x64, .f32⟩
  | 99 => ⟨S8x8x1x64x64, .f32⟩
  | 100 => ⟨S8x8x64x64x64, .f32⟩
  | 101 => ⟨S8x8x64x64x64, .f32⟩
  | 102 => ⟨S8x8x64x64x64, .f32⟩
  | 103 => ⟨S8x512x64x64, .f32⟩
  | 104 => ⟨S8x8x1x1x64x64, .f32⟩
  | 105 => ⟨S8x8x64x64, .f32⟩
  | 106 => ⟨S8x8x64x64x64, .f32⟩
  | 107 => ⟨S8x8x1x64x64, .f32⟩
  | 108 => ⟨S8x8x64x64x64, .f32⟩
  | 109 => ⟨S8x8x64x64x64, .f32⟩
  | 110 => ⟨S8x8x64x64x64, .f32⟩
  | 111 => ⟨S8x512x64x64, .f32⟩
  | 112 => ⟨S8x8x1x1x64x64, .f32⟩
  | 113 => ⟨S8x8x64x64, .f32⟩
  | 114 => ⟨S8x8x64x64x64, .f32⟩
  | 115 => ⟨S8x8x1x64x64, .f32⟩
  | 116 => ⟨S8x8x64x64x64, .f32⟩
  | 117 => ⟨S8x8x64x64x64, .f32⟩
  | 118 => ⟨S8x8x64x64x64, .f32⟩
  | 119 => ⟨S8x512x64x64, .f32⟩
  | 120 => ⟨S8x8x1x1x64x64, .f32⟩
  | 121 => ⟨S8x8x64x64, .f32⟩
  | 122 => ⟨S8x8x64x64x64, .f32⟩
  | 123 => ⟨S8x8x1x64x64, .f32⟩
  | 124 => ⟨S8x8x64x64x64, .f32⟩
  | 125 => ⟨S8x8x64x64x64, .f32⟩
  | 126 => ⟨S8x8x64x64x64, .f32⟩
  | 127 => ⟨S8x512x64x64, .f32⟩
  | _ => ⟨S8x512x64x64, .f32⟩

abbrev hbmTy0_1 (i : Nat) : BufTy := match i % 128 with
  | 0 => ⟨S8x8x1x1x64x64, .f32⟩
  | 1 => ⟨S8x8x64x64, .f32⟩
  | 2 => ⟨S8x8x64x64x64, .f32⟩
  | 3 => ⟨S8x8x1x64x64, .f32⟩
  | 4 => ⟨S8x8x64x64x64, .f32⟩
  | 5 => ⟨S8x8x64x64x64, .f32⟩
  | 6 => ⟨S8x8x64x64x64, .f32⟩
  | 7 => ⟨S8x512x64x64, .f32⟩
  | 8 => ⟨S8x8x1x1x64x64, .f32⟩
  | 9 => ⟨S8x8x64x64, .f32⟩
  | 10 => ⟨S8x8x64x64x64, .f32⟩
  | 11 => ⟨S8x8x1x64x64, .f32⟩
  | 12 => ⟨S8x8x64x64x64, .f32⟩
  | 13 => ⟨S8x8x64x64x64, .f32⟩
  | 14 => ⟨S8x8x64x64x64, .f32⟩
  | 15 => ⟨S8x512x64x64, .f32⟩
  | 16 => ⟨S8x8x1x1x64x64, .f32⟩
  | 17 => ⟨S8x8x64x64, .f32⟩
  | 18 => ⟨S8x8x64x64x64, .f32⟩
  | 19 => ⟨S8x8x1x64x64, .f32⟩
  | 20 => ⟨S8x8x64x64x64, .f32⟩
  | 21 => ⟨S8x8x64x64x64, .f32⟩
  | 22 => ⟨S8x8x64x64x64, .f32⟩
  | 23 => ⟨S8x512x64x64, .f32⟩
  | 24 => ⟨S8x8x1x1x64x64, .f32⟩
  | 25 => ⟨S8x8x64x64, .f32⟩
  | 26 => ⟨S8x8x64x64x64, .f32⟩
  | 27 => ⟨S8x8x1x64x64, .f32⟩
  | 28 => ⟨S8x8x64x64x64, .f32⟩
  | 29 => ⟨S8x8x64x64x64, .f32⟩
  | 30 => ⟨S8x8x64x64x64, .f32⟩
  | 31 => ⟨S8x512x64x64, .f32⟩
  | 32 => ⟨S8x8x1x1x64x64, .f32⟩
  | 33 => ⟨S8x8x64x64, .f32⟩
  | 34 => ⟨S8x8x64x64x64, .f32⟩
  | 35 => ⟨S8x8x1x64x64, .f32⟩
  | 36 => ⟨S8x8x64x64x64, .f32⟩
  | 37 => ⟨S8x8x64x64x64, .f32⟩
  | 38 => ⟨S8x8x64x64x64, .f32⟩
  | 39 => ⟨S8x512x64x64, .f32⟩
  | 40 => ⟨S8x8x1x1x64x64, .f32⟩
  | 41 => ⟨S8x8x64x64, .f32⟩
  | 42 => ⟨S8x8x64x64x64, .f32⟩
  | 43 => ⟨S8x8x1x64x64, .f32⟩
  | 44 => ⟨S8x8x64x64x64, .f32⟩
  | 45 => ⟨S8x8x64x64x64, .f32⟩
  | 46 => ⟨S8x8x64x64x64, .f32⟩
  | 47 => ⟨S8x512x64x64, .f32⟩
  | 48 => ⟨S8x8x1x1x64x64, .f32⟩
  | 49 => ⟨S8x8x64x64, .f32⟩
  | 50 => ⟨S8x8x64x64x64, .f32⟩
  | 51 => ⟨S8x8x1x64x64, .f32⟩
  | 52 => ⟨S8x8x64x64x64, .f32⟩
  | 53 => ⟨S8x8x64x64x64, .f32⟩
  | 54 => ⟨S8x8x64x64x64, .f32⟩
  | 55 => ⟨S8x512x64x64, .f32⟩
  | 56 => ⟨S8x8x1x1x64x64, .f32⟩
  | 57 => ⟨S8x8x64x64, .f32⟩
  | 58 => ⟨S8x8x64x64x64, .f32⟩
  | 59 => ⟨S8x8x1x64x64, .f32⟩
  | 60 => ⟨S8x8x64x64x64, .f32⟩
  | 61 => ⟨S8x8x64x64x64, .f32⟩
  | 62 => ⟨S8x8x64x64x64, .f32⟩
  | 63 => ⟨S8x512x64x64, .f32⟩
  | 64 => ⟨S8x8x1x1x64x64, .f32⟩
  | 65 => ⟨S8x8x64x64, .f32⟩
  | 66 => ⟨S8x8x64x64x64, .f32⟩
  | 67 => ⟨S8x8x1x64x64, .f32⟩
  | 68 => ⟨S8x8x64x64x64, .f32⟩
  | 69 => ⟨S8x8x64x64x64, .f32⟩
  | 70 => ⟨S8x8x64x64x64, .f32⟩
  | 71 => ⟨S8x512x64x64, .f32⟩
  | 72 => ⟨S8x8x1x1x64x64, .f32⟩
  | 73 => ⟨S8x8x64x64, .f32⟩
  | 74 => ⟨S8x8x64x64x64, .f32⟩
  | 75 => ⟨S8x8x1x64x64, .f32⟩
  | 76 => ⟨S8x8x64x64x64, .f32⟩
  | 77 => ⟨S8x8x64x64x64, .f32⟩
  | 78 => ⟨S8x8x64x64x64, .f32⟩
  | 79 => ⟨S8x512x64x64, .f32⟩
  | 80 => ⟨S8x8x1x1x64x64, .f32⟩
  | 81 => ⟨S8x8x64x64, .f32⟩
  | 82 => ⟨S8x8x64x64x64, .f32⟩
  | 83 => ⟨S8x8x1x64x64, .f32⟩
  | 84 => ⟨S8x8x64x64x64, .f32⟩
  | 85 => ⟨S8x8x64x64x64, .f32⟩
  | 86 => ⟨S8x8x64x64x64, .f32⟩
  | 87 => ⟨S8x512x64x64, .f32⟩
  | 88 => ⟨S8x8x1x1x64x64, .f32⟩
  | 89 => ⟨S8x8x64x64, .f32⟩
  | 90 => ⟨S8x8x64x64x64, .f32⟩
  | 91 => ⟨S8x8x1x64x64, .f32⟩
  | 92 => ⟨S8x8x64x64x64, .f32⟩
  | 93 => ⟨S8x8x64x64x64, .f32⟩
  | 94 => ⟨S8x8x64x64x64, .f32⟩
  | 95 => ⟨S8x512x64x64, .f32⟩
  | 96 => ⟨S8x8x1x1x64x64, .f32⟩
  | 97 => ⟨S8x8x64x64, .f32⟩
  | 98 => ⟨S8x8x64x64x64, .f32⟩
  | 99 => ⟨S8x8x1x64x64, .f32⟩
  | 100 => ⟨S8x8x64x64x64, .f32⟩
  | 101 => ⟨S8x8x64x64x64, .f32⟩
  | 102 => ⟨S8x8x64x64x64, .f32⟩
  | 103 => ⟨S8x512x64x64, .f32⟩
  | 104 => ⟨S8x8x1x1x64x64, .f32⟩
  | 105 => ⟨S8x8x64x64, .f32⟩
  | 106 => ⟨S8x8x64x64x64, .f32⟩
  | 107 => ⟨S8x8x1x64x64, .f32⟩
  | 108 => ⟨S8x8x64x64x64, .f32⟩
  | 109 => ⟨S8x8x64x64x64, .f32⟩
  | 110 => ⟨S8x8x64x64x64, .f32⟩
  | 111 => ⟨S8x512x64x64, .f32⟩
  | 112 => ⟨S8x8x1x1x64x64, .f32⟩
  | 113 => ⟨S8x8x64x64, .f32⟩
  | 114 => ⟨S8x8x64x64x64, .f32⟩
  | 115 => ⟨S8x8x1x64x64, .f32⟩
  | 116 => ⟨S8x8x64x64x64, .f32⟩
  | 117 => ⟨S8x8x64x64x64, .f32⟩
  | 118 => ⟨S8x8x64x64x64, .f32⟩
  | 119 => ⟨S8x512x64x64, .f32⟩
  | 120 => ⟨S8x8x1x1x64x64, .f32⟩
  | 121 => ⟨S8x8x64x64, .f32⟩
  | 122 => ⟨S8x8x64x64x64, .f32⟩
  | 123 => ⟨S8x8x1x64x64, .f32⟩
  | 124 => ⟨S8x8x64x64x64, .f32⟩
  | 125 => ⟨S8x8x64x64x64, .f32⟩
  | 126 => ⟨S8x8x64x64x64, .f32⟩
  | 127 => ⟨S8x512x64x64, .f32⟩
  | _ => ⟨S8x512x64x64, .f32⟩

abbrev hbmTy0_2 (i : Nat) : BufTy := match i % 128 with
  | 0 => ⟨S8x8x1x1x64x64, .f32⟩
  | 1 => ⟨S8x8x64x64, .f32⟩
  | 2 => ⟨S8x8x64x64x64, .f32⟩
  | 3 => ⟨S8x8x1x64x64, .f32⟩
  | 4 => ⟨S8x8x64x64x64, .f32⟩
  | 5 => ⟨S8x8x64x64x64, .f32⟩
  | 6 => ⟨S8x8x64x64x64, .f32⟩
  | 7 => ⟨S8x512x64x64, .f32⟩
  | 8 => ⟨S8x8x1x1x64x64, .f32⟩
  | 9 => ⟨S8x8x64x64, .f32⟩
  | 10 => ⟨S8x8x64x64x64, .f32⟩
  | 11 => ⟨S8x8x1x64x64, .f32⟩
  | 12 => ⟨S8x8x64x64x64, .f32⟩
  | 13 => ⟨S8x8x64x64x64, .f32⟩
  | 14 => ⟨S8x8x64x64x64, .f32⟩
  | 15 => ⟨S8x512x64x64, .f32⟩
  | 16 => ⟨S8x8x1x1x64x64, .f32⟩
  | 17 => ⟨S8x8x64x64, .f32⟩
  | 18 => ⟨S8x8x64x64x64, .f32⟩
  | 19 => ⟨S8x8x1x64x64, .f32⟩
  | 20 => ⟨S8x8x64x64x64, .f32⟩
  | 21 => ⟨S8x8x64x64x64, .f32⟩
  | 22 => ⟨S8x8x64x64x64, .f32⟩
  | 23 => ⟨S8x512x64x64, .f32⟩
  | 24 => ⟨S8x8x1x1x64x64, .f32⟩
  | 25 => ⟨S8x8x64x64, .f32⟩
  | 26 => ⟨S8x8x64x64x64, .f32⟩
  | 27 => ⟨S8x8x1x64x64, .f32⟩
  | 28 => ⟨S8x8x64x64x64, .f32⟩
  | 29 => ⟨S8x8x64x64x64, .f32⟩
  | 30 => ⟨S8x8x64x64x64, .f32⟩
  | 31 => ⟨S8x512x64x64, .f32⟩
  | 32 => ⟨S8x8x1x1x64x64, .f32⟩
  | 33 => ⟨S8x8x64x64, .f32⟩
  | 34 => ⟨S8x8x64x64x64, .f32⟩
  | 35 => ⟨S8x8x1x64x64, .f32⟩
  | 36 => ⟨S8x8x64x64x64, .f32⟩
  | 37 => ⟨S8x8x64x64x64, .f32⟩
  | 38 => ⟨S8x8x64x64x64, .f32⟩
  | 39 => ⟨S8x512x64x64, .f32⟩
  | 40 => ⟨S8x8x1x1x64x64, .f32⟩
  | 41 => ⟨S8x8x64x64, .f32⟩
  | 42 => ⟨S8x8x64x64x64, .f32⟩
  | 43 => ⟨S8x8x1x64x64, .f32⟩
  | 44 => ⟨S8x8x64x64x64, .f32⟩
  | 45 => ⟨S8x8x64x64x64, .f32⟩
  | 46 => ⟨S8x8x64x64x64, .f32⟩
  | 47 => ⟨S8x512x64x64, .f32⟩
  | 48 => ⟨S8x8x1x1x64x64, .f32⟩
  | 49 => ⟨S8x8x64x64, .f32⟩
  | 50 => ⟨S8x8x64x64x64, .f32⟩
  | 51 => ⟨S8x8x1x64x64, .f32⟩
  | 52 => ⟨S8x8x64x64x64, .f32⟩
  | 53 => ⟨S8x8x64x64x64, .f32⟩
  | 54 => ⟨S8x8x64x64x64, .f32⟩
  | 55 => ⟨S8x512x64x64, .f32⟩
  | 56 => ⟨S8x8x1x1x64x64, .f32⟩
  | 57 => ⟨S8x8x64x64, .f32⟩
  | 58 => ⟨S8x8x64x64x64, .f32⟩
  | 59 => ⟨S8x8x1x64x64, .f32⟩
  | 60 => ⟨S8x8x64x64x64, .f32⟩
  | 61 => ⟨S8x8x64x64x64, .f32⟩
  | 62 => ⟨S8x8x64x64x64, .f32⟩
  | 63 => ⟨S8x512x64x64, .f32⟩
  | 64 => ⟨S8x8x1x1x64x64, .f32⟩
  | 65 => ⟨S8x8x64x64, .f32⟩
  | 66 => ⟨S8x8x64x64x64, .f32⟩
  | 67 => ⟨S8x8x1x64x64, .f32⟩
  | 68 => ⟨S8x8x64x64x64, .f32⟩
  | 69 => ⟨S8x8x64x64x64, .f32⟩
  | 70 => ⟨S8x8x64x64x64, .f32⟩
  | 71 => ⟨S8x512x64x64, .f32⟩
  | 72 => ⟨S8x8x1x1x64x64, .f32⟩
  | 73 => ⟨S8x8x64x64, .f32⟩
  | 74 => ⟨S8x8x64x64x64, .f32⟩
  | 75 => ⟨S8x8x1x64x64, .f32⟩
  | 76 => ⟨S8x8x64x64x64, .f32⟩
  | 77 => ⟨S8x8x64x64x64, .f32⟩
  | 78 => ⟨S8x8x64x64x64, .f32⟩
  | 79 => ⟨S8x512x64x64, .f32⟩
  | 80 => ⟨S8x8x1x1x64x64, .f32⟩
  | 81 => ⟨S8x8x64x64, .f32⟩
  | 82 => ⟨S8x8x64x64x64, .f32⟩
  | 83 => ⟨S8x8x1x64x64, .f32⟩
  | 84 => ⟨S8x8x64x64x64, .f32⟩
  | 85 => ⟨S8x8x64x64x64, .f32⟩
  | 86 => ⟨S8x8x64x64x64, .f32⟩
  | 87 => ⟨S8x512x64x64, .f32⟩
  | 88 => ⟨S8x8x1x1x64x64, .f32⟩
  | 89 => ⟨S8x8x64x64, .f32⟩
  | 90 => ⟨S8x8x64x64x64, .f32⟩
  | 91 => ⟨S8x8x1x64x64, .f32⟩
  | 92 => ⟨S8x8x64x64x64, .f32⟩
  | 93 => ⟨S8x8x64x64x64, .f32⟩
  | 94 => ⟨S8x8x64x64x64, .f32⟩
  | 95 => ⟨S8x512x64x64, .f32⟩
  | 96 => ⟨S8x8x1x1x64x64, .f32⟩
  | 97 => ⟨S8x8x64x64, .f32⟩
  | 98 => ⟨S8x8x64x64x64, .f32⟩
  | 99 => ⟨S8x8x1x64x64, .f32⟩
  | 100 => ⟨S8x8x64x64x64, .f32⟩
  | 101 => ⟨S8x8x64x64x64, .f32⟩
  | 102 => ⟨S8x8x64x64x64, .f32⟩
  | 103 => ⟨S8x512x64x64, .f32⟩
  | 104 => ⟨S8x8x1x1x64x64, .f32⟩
  | 105 => ⟨S8x8x64x64, .f32⟩
  | 106 => ⟨S8x8x64x64x64, .f32⟩
  | 107 => ⟨S8x8x1x64x64, .f32⟩
  | 108 => ⟨S8x8x64x64x64, .f32⟩
  | 109 => ⟨S8x8x64x64x64, .f32⟩
  | 110 => ⟨S8x8x64x64x64, .f32⟩
  | 111 => ⟨S8x512x64x64, .f32⟩
  | 112 => ⟨S8x8x1x1x64x64, .f32⟩
  | 113 => ⟨S8x8x64x64, .f32⟩
  | 114 => ⟨S8x8x64x64x64, .f32⟩
  | 115 => ⟨S8x8x1x64x64, .f32⟩
  | 116 => ⟨S8x8x64x64x64, .f32⟩
  | 117 => ⟨S8x8x64x64x64, .f32⟩
  | 118 => ⟨S8x8x64x64x64, .f32⟩
  | 119 => ⟨S8x512x64x64, .f32⟩
  | 120 => ⟨S8x8x1x1x64x64, .f32⟩
  | 121 => ⟨S8x8x64x64, .f32⟩
  | 122 => ⟨S8x8x64x64x64, .f32⟩
  | 123 => ⟨S8x8x1x64x64, .f32⟩
  | 124 => ⟨S8x8x64x64x64, .f32⟩
  | 125 => ⟨S8x8x64x64x64, .f32⟩
  | 126 => ⟨S8x8x64x64x64, .f32⟩
  | 127 => ⟨S8x512x64x64, .f32⟩
  | _ => ⟨S8x512x64x64, .f32⟩

abbrev hbmTy0_3 (i : Nat) : BufTy := match i % 128 with
  | 0 => ⟨S8x8x1x1x64x64, .f32⟩
  | 1 => ⟨S8x8x64x64, .f32⟩
  | 2 => ⟨S8x8x64x64x64, .f32⟩
  | 3 => ⟨S8x8x1x64x64, .f32⟩
  | 4 => ⟨S8x8x64x64x64, .f32⟩
  | 5 => ⟨S8x8x64x64x64, .f32⟩
  | 6 => ⟨S8x8x64x64x64, .f32⟩
  | 7 => ⟨S8x512x64x64, .f32⟩
  | 8 => ⟨S8x8x1x1x64x64, .f32⟩
  | 9 => ⟨S8x8x64x64, .f32⟩
  | 10 => ⟨S8x8x64x64x64, .f32⟩
  | 11 => ⟨S8x8x1x64x64, .f32⟩
  | 12 => ⟨S8x8x64x64x64, .f32⟩
  | 13 => ⟨S8x8x64x64x64, .f32⟩
  | 14 => ⟨S8x8x64x64x64, .f32⟩
  | 15 => ⟨S8x512x64x64, .f32⟩
  | _ => ⟨S8x512x64x64, .f32⟩

abbrev hbmTy (i : Nat) : BufTy := match i / 128 with
  | 0 => hbmTy0_0 i
  | 1 => hbmTy0_1 i
  | 2 => hbmTy0_2 i
  | 3 => hbmTy0_3 i
  | _ => ⟨S8x512x64x64, .f32⟩

abbrev bufTy : (tb : Table) → Fin (tcTables nBuf tb) → BufTy
  | .hbm, ⟨i, _⟩ => hbmTy i
  | _, _ => ⟨S8x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_v123 : Ref sig .tc := ⟨.hbm, 128, rfl⟩
abbrev main_v124 : Ref sig .tc := ⟨.hbm, 129, rfl⟩
abbrev main_v125 : Ref sig .tc := ⟨.hbm, 130, rfl⟩
abbrev main_v126 : Ref sig .tc := ⟨.hbm, 131, rfl⟩
abbrev main_v127 : Ref sig .tc := ⟨.hbm, 132, rfl⟩
abbrev main_v128 : Ref sig .tc := ⟨.hbm, 133, rfl⟩
abbrev main_v129 : Ref sig .tc := ⟨.hbm, 134, rfl⟩
abbrev main_v130 : Ref sig .tc := ⟨.hbm, 135, rfl⟩
abbrev main_v131 : Ref sig .tc := ⟨.hbm, 136, rfl⟩
abbrev main_v132 : Ref sig .tc := ⟨.hbm, 137, rfl⟩
abbrev main_v133 : Ref sig .tc := ⟨.hbm, 138, rfl⟩
abbrev main_v134 : Ref sig .tc := ⟨.hbm, 139, rfl⟩
abbrev main_v135 : Ref sig .tc := ⟨.hbm, 140, rfl⟩
abbrev main_v136 : Ref sig .tc := ⟨.hbm, 141, rfl⟩
abbrev main_v137 : Ref sig .tc := ⟨.hbm, 142, rfl⟩
abbrev main_v138 : Ref sig .tc := ⟨.hbm, 143, rfl⟩
abbrev main_v139 : Ref sig .tc := ⟨.hbm, 144, rfl⟩
abbrev main_v140 : Ref sig .tc := ⟨.hbm, 145, rfl⟩
abbrev main_v141 : Ref sig .tc := ⟨.hbm, 146, rfl⟩
abbrev main_v142 : Ref sig .tc := ⟨.hbm, 147, rfl⟩
abbrev main_v143 : Ref sig .tc := ⟨.hbm, 148, rfl⟩
abbrev main_v144 : Ref sig .tc := ⟨.hbm, 149, rfl⟩
abbrev main_v145 : Ref sig .tc := ⟨.hbm, 150, rfl⟩
abbrev main_v146 : Ref sig .tc := ⟨.hbm, 151, rfl⟩
abbrev main_v147 : Ref sig .tc := ⟨.hbm, 152, rfl⟩
abbrev main_v148 : Ref sig .tc := ⟨.hbm, 153, rfl⟩
abbrev main_v149 : Ref sig .tc := ⟨.hbm, 154, rfl⟩
abbrev main_v150 : Ref sig .tc := ⟨.hbm, 155, rfl⟩
abbrev main_v151 : Ref sig .tc := ⟨.hbm, 156, rfl⟩
abbrev main_v152 : Ref sig .tc := ⟨.hbm, 157, rfl⟩
abbrev main_v153 : Ref sig .tc := ⟨.hbm, 158, rfl⟩
abbrev main_v154 : Ref sig .tc := ⟨.hbm, 159, rfl⟩
abbrev main_v155 : Ref sig .tc := ⟨.hbm, 160, rfl⟩
abbrev main_v156 : Ref sig .tc := ⟨.hbm, 161, rfl⟩
abbrev main_v157 : Ref sig .tc := ⟨.hbm, 162, rfl⟩
abbrev main_v158 : Ref sig .tc := ⟨.hbm, 163, rfl⟩
abbrev main_v159 : Ref sig .tc := ⟨.hbm, 164, rfl⟩
abbrev main_v160 : Ref sig .tc := ⟨.hbm, 165, rfl⟩
abbrev main_v161 : Ref sig .tc := ⟨.hbm, 166, rfl⟩
abbrev main_v162 : Ref sig .tc := ⟨.hbm, 167, rfl⟩
abbrev main_v163 : Ref sig .tc := ⟨.hbm, 168, rfl⟩
abbrev main_v164 : Ref sig .tc := ⟨.hbm, 169, rfl⟩
abbrev main_v165 : Ref sig .tc := ⟨.hbm, 170, rfl⟩
abbrev main_v166 : Ref sig .tc := ⟨.hbm, 171, rfl⟩
abbrev main_v167 : Ref sig .tc := ⟨.hbm, 172, rfl⟩
abbrev main_v168 : Ref sig .tc := ⟨.hbm, 173, rfl⟩
abbrev main_v169 : Ref sig .tc := ⟨.hbm, 174, rfl⟩
abbrev main_v170 : Ref sig .tc := ⟨.hbm, 175, rfl⟩
abbrev main_v171 : Ref sig .tc := ⟨.hbm, 176, rfl⟩
abbrev main_v172 : Ref sig .tc := ⟨.hbm, 177, rfl⟩
abbrev main_v173 : Ref sig .tc := ⟨.hbm, 178, rfl⟩
abbrev main_v174 : Ref sig .tc := ⟨.hbm, 179, rfl⟩
abbrev main_v175 : Ref sig .tc := ⟨.hbm, 180, rfl⟩
abbrev main_v176 : Ref sig .tc := ⟨.hbm, 181, rfl⟩
abbrev main_v177 : Ref sig .tc := ⟨.hbm, 182, rfl⟩
abbrev main_v178 : Ref sig .tc := ⟨.hbm, 183, rfl⟩
abbrev main_v179 : Ref sig .tc := ⟨.hbm, 184, rfl⟩
abbrev main_v180 : Ref sig .tc := ⟨.hbm, 185, rfl⟩
abbrev main_v181 : Ref sig .tc := ⟨.hbm, 186, rfl⟩
abbrev main_v182 : Ref sig .tc := ⟨.hbm, 187, rfl⟩
abbrev main_v183 : Ref sig .tc := ⟨.hbm, 188, rfl⟩
abbrev main_v184 : Ref sig .tc := ⟨.hbm, 189, rfl⟩
abbrev main_v185 : Ref sig .tc := ⟨.hbm, 190, rfl⟩
abbrev main_v186 : Ref sig .tc := ⟨.hbm, 191, rfl⟩
abbrev main_v187 : Ref sig .tc := ⟨.hbm, 192, rfl⟩
abbrev main_v188 : Ref sig .tc := ⟨.hbm, 193, rfl⟩
abbrev main_v189 : Ref sig .tc := ⟨.hbm, 194, rfl⟩
abbrev main_v190 : Ref sig .tc := ⟨.hbm, 195, rfl⟩
abbrev main_v191 : Ref sig .tc := ⟨.hbm, 196, rfl⟩
abbrev main_v192 : Ref sig .tc := ⟨.hbm, 197, rfl⟩
abbrev main_v193 : Ref sig .tc := ⟨.hbm, 198, rfl⟩
abbrev main_v194 : Ref sig .tc := ⟨.hbm, 199, rfl⟩
abbrev main_v195 : Ref sig .tc := ⟨.hbm, 200, rfl⟩
abbrev main_v196 : Ref sig .tc := ⟨.hbm, 201, rfl⟩
abbrev main_v197 : Ref sig .tc := ⟨.hbm, 202, rfl⟩
abbrev main_v198 : Ref sig .tc := ⟨.hbm, 203, rfl⟩
abbrev main_v199 : Ref sig .tc := ⟨.hbm, 204, rfl⟩
abbrev main_v200 : Ref sig .tc := ⟨.hbm, 205, rfl⟩
abbrev main_v201 : Ref sig .tc := ⟨.hbm, 206, rfl⟩
abbrev main_v202 : Ref sig .tc := ⟨.hbm, 207, rfl⟩
abbrev main_v203 : Ref sig .tc := ⟨.hbm, 208, rfl⟩
abbrev main_v204 : Ref sig .tc := ⟨.hbm, 209, rfl⟩
abbrev main_v205 : Ref sig .tc := ⟨.hbm, 210, rfl⟩
abbrev main_v206 : Ref sig .tc := ⟨.hbm, 211, rfl⟩
abbrev main_v207 : Ref sig .tc := ⟨.hbm, 212, rfl⟩
abbrev main_v208 : Ref sig .tc := ⟨.hbm, 213, rfl⟩
abbrev main_v209 : Ref sig .tc := ⟨.hbm, 214, rfl⟩
abbrev main_v210 : Ref sig .tc := ⟨.hbm, 215, rfl⟩
abbrev main_v211 : Ref sig .tc := ⟨.hbm, 216, rfl⟩
abbrev main_v212 : Ref sig .tc := ⟨.hbm, 217, rfl⟩
abbrev main_v213 : Ref sig .tc := ⟨.hbm, 218, rfl⟩
abbrev main_v214 : Ref sig .tc := ⟨.hbm, 219, rfl⟩
abbrev main_v215 : Ref sig .tc := ⟨.hbm, 220, rfl⟩
abbrev main_v216 : Ref sig .tc := ⟨.hbm, 221, rfl⟩
abbrev main_v217 : Ref sig .tc := ⟨.hbm, 222, rfl⟩
abbrev main_v218 : Ref sig .tc := ⟨.hbm, 223, rfl⟩
abbrev main_v219 : Ref sig .tc := ⟨.hbm, 224, rfl⟩
abbrev main_v220 : Ref sig .tc := ⟨.hbm, 225, rfl⟩
abbrev main_v221 : Ref sig .tc := ⟨.hbm, 226, rfl⟩
abbrev main_v222 : Ref sig .tc := ⟨.hbm, 227, rfl⟩
abbrev main_v223 : Ref sig .tc := ⟨.hbm, 228, rfl⟩
abbrev main_v224 : Ref sig .tc := ⟨.hbm, 229, rfl⟩
abbrev main_v225 : Ref sig .tc := ⟨.hbm, 230, rfl⟩
abbrev main_v226 : Ref sig .tc := ⟨.hbm, 231, rfl⟩
abbrev main_v227 : Ref sig .tc := ⟨.hbm, 232, rfl⟩
abbrev main_v228 : Ref sig .tc := ⟨.hbm, 233, rfl⟩
abbrev main_v229 : Ref sig .tc := ⟨.hbm, 234, rfl⟩
abbrev main_v230 : Ref sig .tc := ⟨.hbm, 235, rfl⟩
abbrev main_v231 : Ref sig .tc := ⟨.hbm, 236, rfl⟩
abbrev main_v232 : Ref sig .tc := ⟨.hbm, 237, rfl⟩
abbrev main_v233 : Ref sig .tc := ⟨.hbm, 238, rfl⟩
abbrev main_v234 : Ref sig .tc := ⟨.hbm, 239, rfl⟩
abbrev main_v235 : Ref sig .tc := ⟨.hbm, 240, rfl⟩
abbrev main_v236 : Ref sig .tc := ⟨.hbm, 241, rfl⟩
abbrev main_v237 : Ref sig .tc := ⟨.hbm, 242, rfl⟩
abbrev main_v238 : Ref sig .tc := ⟨.hbm, 243, rfl⟩
abbrev main_v239 : Ref sig .tc := ⟨.hbm, 244, rfl⟩
abbrev main_v240 : Ref sig .tc := ⟨.hbm, 245, rfl⟩
abbrev main_v241 : Ref sig .tc := ⟨.hbm, 246, rfl⟩
abbrev main_v242 : Ref sig .tc := ⟨.hbm, 247, rfl⟩
abbrev main_v243 : Ref sig .tc := ⟨.hbm, 248, rfl⟩
abbrev main_v244 : Ref sig .tc := ⟨.hbm, 249, rfl⟩
abbrev main_v245 : Ref sig .tc := ⟨.hbm, 250, rfl⟩
abbrev main_v246 : Ref sig .tc := ⟨.hbm, 251, rfl⟩
abbrev main_v247 : Ref sig .tc := ⟨.hbm, 252, rfl⟩
abbrev main_v248 : Ref sig .tc := ⟨.hbm, 253, rfl⟩
abbrev main_v249 : Ref sig .tc := ⟨.hbm, 254, rfl⟩
abbrev main_v250 : Ref sig .tc := ⟨.hbm, 255, rfl⟩
abbrev main_v251 : Ref sig .tc := ⟨.hbm, 256, rfl⟩
abbrev main_v252 : Ref sig .tc := ⟨.hbm, 257, rfl⟩
abbrev main_v253 : Ref sig .tc := ⟨.hbm, 258, rfl⟩
abbrev main_v254 : Ref sig .tc := ⟨.hbm, 259, rfl⟩
abbrev main_v255 : Ref sig .tc := ⟨.hbm, 260, rfl⟩
abbrev main_v256 : Ref sig .tc := ⟨.hbm, 261, rfl⟩
abbrev main_v257 : Ref sig .tc := ⟨.hbm, 262, rfl⟩
abbrev main_v258 : Ref sig .tc := ⟨.hbm, 263, rfl⟩
abbrev main_v259 : Ref sig .tc := ⟨.hbm, 264, rfl⟩
abbrev main_v260 : Ref sig .tc := ⟨.hbm, 265, rfl⟩
abbrev main_v261 : Ref sig .tc := ⟨.hbm, 266, rfl⟩
abbrev main_v262 : Ref sig .tc := ⟨.hbm, 267, rfl⟩
abbrev main_v263 : Ref sig .tc := ⟨.hbm, 268, rfl⟩
abbrev main_v264 : Ref sig .tc := ⟨.hbm, 269, rfl⟩
abbrev main_v265 : Ref sig .tc := ⟨.hbm, 270, rfl⟩
abbrev main_v266 : Ref sig .tc := ⟨.hbm, 271, rfl⟩
abbrev main_v267 : Ref sig .tc := ⟨.hbm, 272, rfl⟩
abbrev main_v268 : Ref sig .tc := ⟨.hbm, 273, rfl⟩
abbrev main_v269 : Ref sig .tc := ⟨.hbm, 274, rfl⟩
abbrev main_v270 : Ref sig .tc := ⟨.hbm, 275, rfl⟩
abbrev main_v271 : Ref sig .tc := ⟨.hbm, 276, rfl⟩
abbrev main_v272 : Ref sig .tc := ⟨.hbm, 277, rfl⟩
abbrev main_v273 : Ref sig .tc := ⟨.hbm, 278, rfl⟩
abbrev main_v274 : Ref sig .tc := ⟨.hbm, 279, rfl⟩
abbrev main_v275 : Ref sig .tc := ⟨.hbm, 280, rfl⟩
abbrev main_v276 : Ref sig .tc := ⟨.hbm, 281, rfl⟩
abbrev main_v277 : Ref sig .tc := ⟨.hbm, 282, rfl⟩
abbrev main_v278 : Ref sig .tc := ⟨.hbm, 283, rfl⟩
abbrev main_v279 : Ref sig .tc := ⟨.hbm, 284, rfl⟩
abbrev main_v280 : Ref sig .tc := ⟨.hbm, 285, rfl⟩
abbrev main_v281 : Ref sig .tc := ⟨.hbm, 286, rfl⟩
abbrev main_v282 : Ref sig .tc := ⟨.hbm, 287, rfl⟩
abbrev main_v283 : Ref sig .tc := ⟨.hbm, 288, rfl⟩
abbrev main_v284 : Ref sig .tc := ⟨.hbm, 289, rfl⟩
abbrev main_v285 : Ref sig .tc := ⟨.hbm, 290, rfl⟩
abbrev main_v286 : Ref sig .tc := ⟨.hbm, 291, rfl⟩
abbrev main_v287 : Ref sig .tc := ⟨.hbm, 292, rfl⟩
abbrev main_v288 : Ref sig .tc := ⟨.hbm, 293, rfl⟩
abbrev main_v289 : Ref sig .tc := ⟨.hbm, 294, rfl⟩
abbrev main_v290 : Ref sig .tc := ⟨.hbm, 295, rfl⟩
abbrev main_v291 : Ref sig .tc := ⟨.hbm, 296, rfl⟩
abbrev main_v292 : Ref sig .tc := ⟨.hbm, 297, rfl⟩
abbrev main_v293 : Ref sig .tc := ⟨.hbm, 298, rfl⟩
abbrev main_v294 : Ref sig .tc := ⟨.hbm, 299, rfl⟩
abbrev main_v295 : Ref sig .tc := ⟨.hbm, 300, rfl⟩
abbrev main_v296 : Ref sig .tc := ⟨.hbm, 301, rfl⟩
abbrev main_v297 : Ref sig .tc := ⟨.hbm, 302, rfl⟩
abbrev main_v298 : Ref sig .tc := ⟨.hbm, 303, rfl⟩
abbrev main_v299 : Ref sig .tc := ⟨.hbm, 304, rfl⟩
abbrev main_v300 : Ref sig .tc := ⟨.hbm, 305, rfl⟩
abbrev main_v301 : Ref sig .tc := ⟨.hbm, 306, rfl⟩
abbrev main_v302 : Ref sig .tc := ⟨.hbm, 307, rfl⟩
abbrev main_v303 : Ref sig .tc := ⟨.hbm, 308, rfl⟩
abbrev main_v304 : Ref sig .tc := ⟨.hbm, 309, rfl⟩
abbrev main_v305 : Ref sig .tc := ⟨.hbm, 310, rfl⟩
abbrev main_v306 : Ref sig .tc := ⟨.hbm, 311, rfl⟩
abbrev main_v307 : Ref sig .tc := ⟨.hbm, 312, rfl⟩
abbrev main_v308 : Ref sig .tc := ⟨.hbm, 313, rfl⟩
abbrev main_v309 : Ref sig .tc := ⟨.hbm, 314, rfl⟩
abbrev main_v310 : Ref sig .tc := ⟨.hbm, 315, rfl⟩
abbrev main_v311 : Ref sig .tc := ⟨.hbm, 316, rfl⟩
abbrev main_v312 : Ref sig .tc := ⟨.hbm, 317, rfl⟩
abbrev main_v313 : Ref sig .tc := ⟨.hbm, 318, rfl⟩
abbrev main_v314 : Ref sig .tc := ⟨.hbm, 319, rfl⟩
abbrev main_v315 : Ref sig .tc := ⟨.hbm, 320, rfl⟩
abbrev main_v316 : Ref sig .tc := ⟨.hbm, 321, rfl⟩
abbrev main_v317 : Ref sig .tc := ⟨.hbm, 322, rfl⟩
abbrev main_v318 : Ref sig .tc := ⟨.hbm, 323, rfl⟩
abbrev main_v319 : Ref sig .tc := ⟨.hbm, 324, rfl⟩
abbrev main_v320 : Ref sig .tc := ⟨.hbm, 325, rfl⟩
abbrev main_v321 : Ref sig .tc := ⟨.hbm, 326, rfl⟩
abbrev main_v322 : Ref sig .tc := ⟨.hbm, 327, rfl⟩
abbrev main_v323 : Ref sig .tc := ⟨.hbm, 328, rfl⟩
abbrev main_v324 : Ref sig .tc := ⟨.hbm, 329, rfl⟩
abbrev main_v325 : Ref sig .tc := ⟨.hbm, 330, rfl⟩
abbrev main_v326 : Ref sig .tc := ⟨.hbm, 331, rfl⟩
abbrev main_v327 : Ref sig .tc := ⟨.hbm, 332, rfl⟩
abbrev main_v328 : Ref sig .tc := ⟨.hbm, 333, rfl⟩
abbrev main_v329 : Ref sig .tc := ⟨.hbm, 334, rfl⟩
abbrev main_v330 : Ref sig .tc := ⟨.hbm, 335, rfl⟩
abbrev main_v331 : Ref sig .tc := ⟨.hbm, 336, rfl⟩
abbrev main_v332 : Ref sig .tc := ⟨.hbm, 337, rfl⟩
abbrev main_v333 : Ref sig .tc := ⟨.hbm, 338, rfl⟩
abbrev main_v334 : Ref sig .tc := ⟨.hbm, 339, rfl⟩
abbrev main_v335 : Ref sig .tc := ⟨.hbm, 340, rfl⟩
abbrev main_v336 : Ref sig .tc := ⟨.hbm, 341, rfl⟩
abbrev main_v337 : Ref sig .tc := ⟨.hbm, 342, rfl⟩
abbrev main_v338 : Ref sig .tc := ⟨.hbm, 343, rfl⟩
abbrev main_v339 : Ref sig .tc := ⟨.hbm, 344, rfl⟩
abbrev main_v340 : Ref sig .tc := ⟨.hbm, 345, rfl⟩
abbrev main_v341 : Ref sig .tc := ⟨.hbm, 346, rfl⟩
abbrev main_v342 : Ref sig .tc := ⟨.hbm, 347, rfl⟩
abbrev main_v343 : Ref sig .tc := ⟨.hbm, 348, rfl⟩
abbrev main_v344 : Ref sig .tc := ⟨.hbm, 349, rfl⟩
abbrev main_v345 : Ref sig .tc := ⟨.hbm, 350, rfl⟩
abbrev main_v346 : Ref sig .tc := ⟨.hbm, 351, rfl⟩
abbrev main_v347 : Ref sig .tc := ⟨.hbm, 352, rfl⟩
abbrev main_v348 : Ref sig .tc := ⟨.hbm, 353, rfl⟩
abbrev main_v349 : Ref sig .tc := ⟨.hbm, 354, rfl⟩
abbrev main_v350 : Ref sig .tc := ⟨.hbm, 355, rfl⟩
abbrev main_v351 : Ref sig .tc := ⟨.hbm, 356, rfl⟩
abbrev main_v352 : Ref sig .tc := ⟨.hbm, 357, rfl⟩
abbrev main_v353 : Ref sig .tc := ⟨.hbm, 358, rfl⟩
abbrev main_v354 : Ref sig .tc := ⟨.hbm, 359, rfl⟩
abbrev main_v355 : Ref sig .tc := ⟨.hbm, 360, rfl⟩
abbrev main_v356 : Ref sig .tc := ⟨.hbm, 361, rfl⟩
abbrev main_v357 : Ref sig .tc := ⟨.hbm, 362, rfl⟩
abbrev main_v358 : Ref sig .tc := ⟨.hbm, 363, rfl⟩
abbrev main_v359 : Ref sig .tc := ⟨.hbm, 364, rfl⟩
abbrev main_v360 : Ref sig .tc := ⟨.hbm, 365, rfl⟩
abbrev main_v361 : Ref sig .tc := ⟨.hbm, 366, rfl⟩
abbrev main_v362 : Ref sig .tc := ⟨.hbm, 367, rfl⟩
abbrev main_v363 : Ref sig .tc := ⟨.hbm, 368, rfl⟩
abbrev main_v364 : Ref sig .tc := ⟨.hbm, 369, rfl⟩
abbrev main_v365 : Ref sig .tc := ⟨.hbm, 370, rfl⟩
abbrev main_v366 : Ref sig .tc := ⟨.hbm, 371, rfl⟩
abbrev main_v367 : Ref sig .tc := ⟨.hbm, 372, rfl⟩
abbrev main_v368 : Ref sig .tc := ⟨.hbm, 373, rfl⟩
abbrev main_v369 : Ref sig .tc := ⟨.hbm, 374, rfl⟩
abbrev main_v370 : Ref sig .tc := ⟨.hbm, 375, rfl⟩
abbrev main_v371 : Ref sig .tc := ⟨.hbm, 376, rfl⟩
abbrev main_v372 : Ref sig .tc := ⟨.hbm, 377, rfl⟩
abbrev main_v373 : Ref sig .tc := ⟨.hbm, 378, rfl⟩
abbrev main_v374 : Ref sig .tc := ⟨.hbm, 379, rfl⟩
abbrev main_v375 : Ref sig .tc := ⟨.hbm, 380, rfl⟩
abbrev main_v376 : Ref sig .tc := ⟨.hbm, 381, rfl⟩
abbrev main_v377 : Ref sig .tc := ⟨.hbm, 382, rfl⟩
abbrev main_v378 : Ref sig .tc := ⟨.hbm, 383, rfl⟩
abbrev main_v379 : Ref sig .tc := ⟨.hbm, 384, rfl⟩
abbrev main_v380 : Ref sig .tc := ⟨.hbm, 385, rfl⟩
abbrev main_v381 : Ref sig .tc := ⟨.hbm, 386, rfl⟩
abbrev main_v382 : Ref sig .tc := ⟨.hbm, 387, rfl⟩
abbrev main_v383 : Ref sig .tc := ⟨.hbm, 388, rfl⟩
abbrev main_v384 : Ref sig .tc := ⟨.hbm, 389, rfl⟩
abbrev main_v385 : Ref sig .tc := ⟨.hbm, 390, rfl⟩
abbrev main_v386 : Ref sig .tc := ⟨.hbm, 391, rfl⟩
abbrev main_v387 : Ref sig .tc := ⟨.hbm, 392, rfl⟩
abbrev main_v388 : Ref sig .tc := ⟨.hbm, 393, rfl⟩
abbrev main_v389 : Ref sig .tc := ⟨.hbm, 394, rfl⟩
abbrev main_v390 : Ref sig .tc := ⟨.hbm, 395, rfl⟩
abbrev main_v391 : Ref sig .tc := ⟨.hbm, 396, rfl⟩
abbrev main_v392 : Ref sig .tc := ⟨.hbm, 397, rfl⟩
abbrev main_v393 : Ref sig .tc := ⟨.hbm, 398, rfl⟩
abbrev main_v394 : Ref sig .tc := ⟨.hbm, 399, rfl⟩

abbrev nD : Nat := 1
abbrev τ : Topo := Topo.v7x

variable {F : FTy → Type} [FloatOps F]

class Facts₀ : Prop where
  pads_S8x512x64x64_S8x512x70x70_000_000_330_330 : S8x512x64x64.Pads (![0, 0, 3, 3] : Fin 4 → Nat) ![0, 0, 3, 3] ![0, 0, 0, 0] S8x512x70x70
  h_S_ : 0 < S_.numel
  bcast_S_S8x8x64x64x64 : S_.BroadcastsInDim S8x8x64x64x64 (![] : Fin 0 → Fin S8x8x64x64x64.rank)
  slices_S8x512x70x70_S8x512x64x64_0_0_0_0 : S8x512x70x70.Slices ![0, 0, 0, 0] S8x512x64x64
  slices_S8x8x7x7x64x64_S8x8x1x1x64x64_0_0_0_0_0_0 : S8x8x7x7x64x64.Slices ![0, 0, 0, 0, 0, 0] S8x8x1x1x64x64
  shapeCasts_S8x8x1x1x64x64_S8x8x64x64 : S8x8x1x1x64x64.ShapeCasts S8x8x64x64
  shapeCasts_S8x512x64x64_S8x8x64x64x64 : S8x512x64x64.ShapeCasts S8x8x64x64x64
  bcast_S8x8x64x64_S8x8x1x64x64_0_1_3_4 : S8x8x64x64.BroadcastsInDim S8x8x1x64x64 (![0, 1, 3, 4] : Fin 4 → Fin S8x8x1x64x64.rank)
  bcast_S8x8x1x64x64_S8x8x64x64x64_0_1_2_3_4 : S8x8x1x64x64.BroadcastsInDim S8x8x64x64x64 (![0, 1, 2, 3, 4] : Fin 5 → Fin S8x8x64x64x64.rank)
  slices_S8x512x70x70_S8x512x64x64_0_0_0_1 : S8x512x70x70.Slices ![0, 0, 0, 1] S8x512x64x64
  slices_S8x8x7x7x64x64_S8x8x1x1x64x64_0_0_0_1_0_0 : S8x8x7x7x64x64.Slices ![0, 0, 0, 1, 0, 0] S8x8x1x1x64x64
  slices_S8x512x70x70_S8x512x64x64_0_0_0_2 : S8x512x70x70.Slices ![0, 0, 0, 2] S8x512x64x64
  slices_S8x8x7x7x64x64_S8x8x1x1x64x64_0_0_0_2_0_0 : S8x8x7x7x64x64.Slices ![0, 0, 0, 2, 0, 0] S8x8x1x1x64x64
  slices_S8x512x70x70_S8x512x64x64_0_0_0_3 : S8x512x70x70.Slices ![0, 0, 0, 3] S8x512x64x64
  slices_S8x8x7x7x64x64_S8x8x1x1x64x64_0_0_0_3_0_0 : S8x8x7x7x64x64.Slices ![0, 0, 0, 3, 0, 0] S8x8x1x1x64x64
  slices_S8x512x70x70_S8x512x64x64_0_0_0_4 : S8x512x70x70.Slices ![0, 0, 0, 4] S8x512x64x64
  slices_S8x8x7x7x64x64_S8x8x1x1x64x64_0_0_0_4_0_0 : S8x8x7x7x64x64.Slices ![0, 0, 0, 4, 0, 0] S8x8x1x1x64x64
  slices_S8x512x70x70_S8x512x64x64_0_0_0_5 : S8x512x70x70.Slices ![0, 0, 0, 5] S8x512x64x64
  slices_S8x8x7x7x64x64_S8x8x1x1x64x64_0_0_0_5_0_0 : S8x8x7x7x64x64.Slices ![0, 0, 0, 5, 0, 0] S8x8x1x1x64x64
  slices_S8x512x70x70_S8x512x64x64_0_0_0_6 : S8x512x70x70.Slices ![0, 0, 0, 6] S8x512x64x64
  slices_S8x8x7x7x64x64_S8x8x1x1x64x64_0_0_0_6_0_0 : S8x8x7x7x64x64.Slices ![0, 0, 0, 6, 0, 0] S8x8x1x1x64x64
  slices_S8x512x70x70_S8x512x64x64_0_0_1_0 : S8x512x70x70.Slices ![0, 0, 1, 0] S8x512x64x64
  slices_S8x8x7x7x64x64_S8x8x1x1x64x64_0_0_1_0_0_0 : S8x8x7x7x64x64.Slices ![0, 0, 1, 0, 0, 0] S8x8x1x1x64x64
  slices_S8x512x70x70_S8x512x64x64_0_0_1_1 : S8x512x70x70.Slices ![0, 0, 1, 1] S8x512x64x64
  slices_S8x8x7x7x64x64_S8x8x1x1x64x64_0_0_1_1_0_0 : S8x8x7x7x64x64.Slices ![0, 0, 1, 1, 0, 0] S8x8x1x1x64x64
  slices_S8x512x70x70_S8x512x64x64_0_0_1_2 : S8x512x70x70.Slices ![0, 0, 1, 2] S8x512x64x64
  slices_S8x8x7x7x64x64_S8x8x1x1x64x64_0_0_1_2_0_0 : S8x8x7x7x64x64.Slices ![0, 0, 1, 2, 0, 0] S8x8x1x1x64x64
  slices_S8x512x70x70_S8x512x64x64_0_0_1_3 : S8x512x70x70.Slices ![0, 0, 1, 3] S8x512x64x64
  slices_S8x8x7x7x64x64_S8x8x1x1x64x64_0_0_1_3_0_0 : S8x8x7x7x64x64.Slices ![0, 0, 1, 3, 0, 0] S8x8x1x1x64x64
  slices_S8x512x70x70_S8x512x64x64_0_0_1_4 : S8x512x70x70.Slices ![0, 0, 1, 4] S8x512x64x64
  slices_S8x8x7x7x64x64_S8x8x1x1x64x64_0_0_1_4_0_0 : S8x8x7x7x64x64.Slices ![0, 0, 1, 4, 0, 0] S8x8x1x1x64x64
  slices_S8x512x70x70_S8x512x64x64_0_0_1_5 : S8x512x70x70.Slices ![0, 0, 1, 5] S8x512x64x64
  slices_S8x8x7x7x64x64_S8x8x1x1x64x64_0_0_1_5_0_0 : S8x8x7x7x64x64.Slices ![0, 0, 1, 5, 0, 0] S8x8x1x1x64x64
  slices_S8x512x70x70_S8x512x64x64_0_0_1_6 : S8x512x70x70.Slices ![0, 0, 1, 6] S8x512x64x64
  slices_S8x8x7x7x64x64_S8x8x1x1x64x64_0_0_1_6_0_0 : S8x8x7x7x64x64.Slices ![0, 0, 1, 6, 0, 0] S8x8x1x1x64x64
  slices_S8x512x70x70_S8x512x64x64_0_0_2_0 : S8x512x70x70.Slices ![0, 0, 2, 0] S8x512x64x64
  slices_S8x8x7x7x64x64_S8x8x1x1x64x64_0_0_2_0_0_0 : S8x8x7x7x64x64.Slices ![0, 0, 2, 0, 0, 0] S8x8x1x1x64x64
  slices_S8x512x70x70_S8x512x64x64_0_0_2_1 : S8x512x70x70.Slices ![0, 0, 2, 1] S8x512x64x64
  slices_S8x8x7x7x64x64_S8x8x1x1x64x64_0_0_2_1_0_0 : S8x8x7x7x64x64.Slices ![0, 0, 2, 1, 0, 0] S8x8x1x1x64x64
  slices_S8x512x70x70_S8x512x64x64_0_0_2_2 : S8x512x70x70.Slices ![0, 0, 2, 2] S8x512x64x64
  slices_S8x8x7x7x64x64_S8x8x1x1x64x64_0_0_2_2_0_0 : S8x8x7x7x64x64.Slices ![0, 0, 2, 2, 0, 0] S8x8x1x1x64x64
  slices_S8x512x70x70_S8x512x64x64_0_0_2_3 : S8x512x70x70.Slices ![0, 0, 2, 3] S8x512x64x64
  slices_S8x8x7x7x64x64_S8x8x1x1x64x64_0_0_2_3_0_0 : S8x8x7x7x64x64.Slices ![0, 0, 2, 3, 0, 0] S8x8x1x1x64x64
  slices_S8x512x70x70_S8x512x64x64_0_0_2_4 : S8x512x70x70.Slices ![0, 0, 2, 4] S8x512x64x64
  slices_S8x8x7x7x64x64_S8x8x1x1x64x64_0_0_2_4_0_0 : S8x8x7x7x64x64.Slices ![0, 0, 2, 4, 0, 0] S8x8x1x1x64x64
  slices_S8x512x70x70_S8x512x64x64_0_0_2_5 : S8x512x70x70.Slices ![0, 0, 2, 5] S8x512x64x64
  slices_S8x8x7x7x64x64_S8x8x1x1x64x64_0_0_2_5_0_0 : S8x8x7x7x64x64.Slices ![0, 0, 2, 5, 0, 0] S8x8x1x1x64x64
  slices_S8x512x70x70_S8x512x64x64_0_0_2_6 : S8x512x70x70.Slices ![0, 0, 2, 6] S8x512x64x64
  slices_S8x8x7x7x64x64_S8x8x1x1x64x64_0_0_2_6_0_0 : S8x8x7x7x64x64.Slices ![0, 0, 2, 6, 0, 0] S8x8x1x1x64x64
  slices_S8x512x70x70_S8x512x64x64_0_0_3_0 : S8x512x70x70.Slices ![0, 0, 3, 0] S8x512x64x64
  slices_S8x8x7x7x64x64_S8x8x1x1x64x64_0_0_3_0_0_0 : S8x8x7x7x64x64.Slices ![0, 0, 3, 0, 0, 0] S8x8x1x1x64x64
  slices_S8x512x70x70_S8x512x64x64_0_0_3_1 : S8x512x70x70.Slices ![0, 0, 3, 1] S8x512x64x64
  slices_S8x8x7x7x64x64_S8x8x1x1x64x64_0_0_3_1_0_0 : S8x8x7x7x64x64.Slices ![0, 0, 3, 1, 0, 0] S8x8x1x1x64x64
  slices_S8x512x70x70_S8x512x64x64_0_0_3_2 : S8x512x70x70.Slices ![0, 0, 3, 2] S8x512x64x64
  slices_S8x8x7x7x64x64_S8x8x1x1x64x64_0_0_3_2_0_0 : S8x8x7x7x64x64.Slices ![0, 0, 3, 2, 0, 0] S8x8x1x1x64x64
  slices_S8x512x70x70_S8x512x64x64_0_0_3_3 : S8x512x70x70.Slices ![0, 0, 3, 3] S8x512x64x64
  slices_S8x8x7x7x64x64_S8x8x1x1x64x64_0_0_3_3_0_0 : S8x8x7x7x64x64.Slices ![0, 0, 3, 3, 0, 0] S8x8x1x1x64x64
  slices_S8x512x70x70_S8x512x64x64_0_0_3_4 : S8x512x70x70.Slices ![0, 0, 3, 4] S8x512x64x64
  slices_S8x8x7x7x64x64_S8x8x1x1x64x64_0_0_3_4_0_0 : S8x8x7x7x64x64.Slices ![0, 0, 3, 4, 0, 0] S8x8x1x1x64x64
  slices_S8x512x70x70_S8x512x64x64_0_0_3_5 : S8x512x70x70.Slices ![0, 0, 3, 5] S8x512x64x64
  slices_S8x8x7x7x64x64_S8x8x1x1x64x64_0_0_3_5_0_0 : S8x8x7x7x64x64.Slices ![0, 0, 3, 5, 0, 0] S8x8x1x1x64x64
  slices_S8x512x70x70_S8x512x64x64_0_0_3_6 : S8x512x70x70.Slices ![0, 0, 3, 6] S8x512x64x64
  slices_S8x8x7x7x64x64_S8x8x1x1x64x64_0_0_3_6_0_0 : S8x8x7x7x64x64.Slices ![0, 0, 3, 6, 0, 0] S8x8x1x1x64x64
  slices_S8x512x70x70_S8x512x64x64_0_0_4_0 : S8x512x70x70.Slices ![0, 0, 4, 0] S8x512x64x64
  slices_S8x8x7x7x64x64_S8x8x1x1x64x64_0_0_4_0_0_0 : S8x8x7x7x64x64.Slices ![0, 0, 4, 0, 0, 0] S8x8x1x1x64x64
  slices_S8x512x70x70_S8x512x64x64_0_0_4_1 : S8x512x70x70.Slices ![0, 0, 4, 1] S8x512x64x64
  slices_S8x8x7x7x64x64_S8x8x1x1x64x64_0_0_4_1_0_0 : S8x8x7x7x64x64.Slices ![0, 0, 4, 1, 0, 0] S8x8x1x1x64x64
  slices_S8x512x70x70_S8x512x64x64_0_0_4_2 : S8x512x70x70.Slices ![0, 0, 4, 2] S8x512x64x64
  slices_S8x8x7x7x64x64_S8x8x1x1x64x64_0_0_4_2_0_0 : S8x8x7x7x64x64.Slices ![0, 0, 4, 2, 0, 0] S8x8x1x1x64x64
  slices_S8x512x70x70_S8x512x64x64_0_0_4_3 : S8x512x70x70.Slices ![0, 0, 4, 3] S8x512x64x64
  slices_S8x8x7x7x64x64_S8x8x1x1x64x64_0_0_4_3_0_0 : S8x8x7x7x64x64.Slices ![0, 0, 4, 3, 0, 0] S8x8x1x1x64x64
  slices_S8x512x70x70_S8x512x64x64_0_0_4_4 : S8x512x70x70.Slices ![0, 0, 4, 4] S8x512x64x64
  slices_S8x8x7x7x64x64_S8x8x1x1x64x64_0_0_4_4_0_0 : S8x8x7x7x64x64.Slices ![0, 0, 4, 4, 0, 0] S8x8x1x1x64x64
  slices_S8x512x70x70_S8x512x64x64_0_0_4_5 : S8x512x70x70.Slices ![0, 0, 4, 5] S8x512x64x64
  slices_S8x8x7x7x64x64_S8x8x1x1x64x64_0_0_4_5_0_0 : S8x8x7x7x64x64.Slices ![0, 0, 4, 5, 0, 0] S8x8x1x1x64x64
  slices_S8x512x70x70_S8x512x64x64_0_0_4_6 : S8x512x70x70.Slices ![0, 0, 4, 6] S8x512x64x64
  slices_S8x8x7x7x64x64_S8x8x1x1x64x64_0_0_4_6_0_0 : S8x8x7x7x64x64.Slices ![0, 0, 4, 6, 0, 0] S8x8x1x1x64x64
  slices_S8x512x70x70_S8x512x64x64_0_0_5_0 : S8x512x70x70.Slices ![0, 0, 5, 0] S8x512x64x64
  slices_S8x8x7x7x64x64_S8x8x1x1x64x64_0_0_5_0_0_0 : S8x8x7x7x64x64.Slices ![0, 0, 5, 0, 0, 0] S8x8x1x1x64x64
  slices_S8x512x70x70_S8x512x64x64_0_0_5_1 : S8x512x70x70.Slices ![0, 0, 5, 1] S8x512x64x64
  slices_S8x8x7x7x64x64_S8x8x1x1x64x64_0_0_5_1_0_0 : S8x8x7x7x64x64.Slices ![0, 0, 5, 1, 0, 0] S8x8x1x1x64x64
  slices_S8x512x70x70_S8x512x64x64_0_0_5_2 : S8x512x70x70.Slices ![0, 0, 5, 2] S8x512x64x64
  slices_S8x8x7x7x64x64_S8x8x1x1x64x64_0_0_5_2_0_0 : S8x8x7x7x64x64.Slices ![0, 0, 5, 2, 0, 0] S8x8x1x1x64x64
  slices_S8x512x70x70_S8x512x64x64_0_0_5_3 : S8x512x70x70.Slices ![0, 0, 5, 3] S8x512x64x64
  slices_S8x8x7x7x64x64_S8x8x1x1x64x64_0_0_5_3_0_0 : S8x8x7x7x64x64.Slices ![0, 0, 5, 3, 0, 0] S8x8x1x1x64x64
  slices_S8x512x70x70_S8x512x64x64_0_0_5_4 : S8x512x70x70.Slices ![0, 0, 5, 4] S8x512x64x64
  slices_S8x8x7x7x64x64_S8x8x1x1x64x64_0_0_5_4_0_0 : S8x8x7x7x64x64.Slices ![0, 0, 5, 4, 0, 0] S8x8x1x1x64x64
  slices_S8x512x70x70_S8x512x64x64_0_0_5_5 : S8x512x70x70.Slices ![0, 0, 5, 5] S8x512x64x64
  slices_S8x8x7x7x64x64_S8x8x1x1x64x64_0_0_5_5_0_0 : S8x8x7x7x64x64.Slices ![0, 0, 5, 5, 0, 0] S8x8x1x1x64x64
  slices_S8x512x70x70_S8x512x64x64_0_0_5_6 : S8x512x70x70.Slices ![0, 0, 5, 6] S8x512x64x64
  slices_S8x8x7x7x64x64_S8x8x1x1x64x64_0_0_5_6_0_0 : S8x8x7x7x64x64.Slices ![0, 0, 5, 6, 0, 0] S8x8x1x1x64x64
  slices_S8x512x70x70_S8x512x64x64_0_0_6_0 : S8x512x70x70.Slices ![0, 0, 6, 0] S8x512x64x64
  slices_S8x8x7x7x64x64_S8x8x1x1x64x64_0_0_6_0_0_0 : S8x8x7x7x64x64.Slices ![0, 0, 6, 0, 0, 0] S8x8x1x1x64x64
  slices_S8x512x70x70_S8x512x64x64_0_0_6_1 : S8x512x70x70.Slices ![0, 0, 6, 1] S8x512x64x64
  slices_S8x8x7x7x64x64_S8x8x1x1x64x64_0_0_6_1_0_0 : S8x8x7x7x64x64.Slices ![0, 0, 6, 1, 0, 0] S8x8x1x1x64x64
  slices_S8x512x70x70_S8x512x64x64_0_0_6_2 : S8x512x70x70.Slices ![0, 0, 6, 2] S8x512x64x64
  slices_S8x8x7x7x64x64_S8x8x1x1x64x64_0_0_6_2_0_0 : S8x8x7x7x64x64.Slices ![0, 0, 6, 2, 0, 0] S8x8x1x1x64x64
  slices_S8x512x70x70_S8x512x64x64_0_0_6_3 : S8x512x70x70.Slices ![0, 0, 6, 3] S8x512x64x64
  slices_S8x8x7x7x64x64_S8x8x1x1x64x64_0_0_6_3_0_0 : S8x8x7x7x64x64.Slices ![0, 0, 6, 3, 0, 0] S8x8x1x1x64x64
  slices_S8x512x70x70_S8x512x64x64_0_0_6_4 : S8x512x70x70.Slices ![0, 0, 6, 4] S8x512x64x64
  slices_S8x8x7x7x64x64_S8x8x1x1x64x64_0_0_6_4_0_0 : S8x8x7x7x64x64.Slices ![0, 0, 6, 4, 0, 0] S8x8x1x1x64x64
  slices_S8x512x70x70_S8x512x64x64_0_0_6_5 : S8x512x70x70.Slices ![0, 0, 6, 5] S8x512x64x64
  slices_S8x8x7x7x64x64_S8x8x1x1x64x64_0_0_6_5_0_0 : S8x8x7x7x64x64.Slices ![0, 0, 6, 5, 0, 0] S8x8x1x1x64x64
  slices_S8x512x70x70_S8x512x64x64_0_0_6_6 : S8x512x70x70.Slices ![0, 0, 6, 6] S8x512x64x64
  slices_S8x8x7x7x64x64_S8x8x1x1x64x64_0_0_6_6_0_0 : S8x8x7x7x64x64.Slices ![0, 0, 6, 6, 0, 0] S8x8x1x1x64x64
  shapeCasts_S8x8x64x64x64_S8x512x64x64 : S8x8x64x64x64.ShapeCasts S8x512x64x64

variable [Facts₀]

class Facts : Prop extends Facts₀ where

variable [Facts]
-- ==== Proof.Spec.lean ====
/-
  The function both programs compute (an involution: a per-pixel, per-group 7x7 kernel applied to the
  channels of a group).  With `P` the input padded by three zeros on each side of its two spatial axes,
  [8, 512, 70, 70], and `W` the per-pixel kernels, [8, 8, 7, 7, 64, 64], the output at batch `b`, group `g`,
  channel-in-group `c` and pixel (h, w) is

      ((z + P[b, 64 g + c, h + 0, w + 0] · W[b, g, 0, 0, h, w]) + P[b, 64 g + c, h + 0, w + 1] · W[b, g, 0, 1, h, w]) + …

  the 49 taps (kh, kw) added one after the other in row-major order of (kh, kw), onto the zero word `z`, left-nested.
  Both programs add the taps in exactly this order and grouping, so no law of the extended reals is needed to compare
  them: only where each tap reads its two factors.  `P` is a parameter here — the padding is the same operation of the
  same argument in both programs and is never opened.
-/
import Idealize.ShloMosaic.PureOps.Ideal
import Idealize.ShloMosaic.Lib.ValueIdx
import Idealize.ShloMosaic.Lib.ValueIdxRank6

noncomputable section

namespace Cert.Involution

open Idealize.ShloMosaic Idealize.ShloMosaic.ValueIdx

/-- The padded input's shape. -/
abbrev SPad : Shape := ⟨4, ![8, 512, 70, 70]⟩
/-- The per-pixel kernels' shape: batch, group, kh, kw, h, w. -/
abbrev SKer : Shape := ⟨6, ![8, 8, 7, 7, 64, 64]⟩
/-- The output's shape with the channel axis split into group and channel-in-group. -/
abbrev SOut : Shape := ⟨5, ![8, 8, 64, 64, 64]⟩

/-- Where tap (kh, kw) of output (b, g, c, h, w) reads the padded input: channel 64 g + c, pixel (h + kh, w + kw). -/
def padIdx (b g : Fin 8) (c h w : Fin 64) (kh kw : Fin 7) : SPad.Idx :=
  ix4 b
    (⟨g.val * 64 + c.val, by have := g.isLt; have := c.isLt; omega⟩ : Fin 512)
    (⟨h.val + kh.val, by have := h.isLt; have := kh.isLt; omega⟩ : Fin 70)
    (⟨w.val + kw.val, by have := w.isLt; have := kw.isLt; omega⟩ : Fin 70)

/-- Tap number `k` (= 7 kh + kw) of output (b, g, c, h, w): the padded input at the shifted pixel times the
    pixel's own kernel entry (kh, kw). -/
def tap (P : SPad.Idx → EReal) (W : SKer.Idx → EReal) (b g : Fin 8) (c h w : Fin 64) (k : Nat) : EReal :=
  P (padIdx b g c h w ⟨k / 7 % 7, Nat.mod_lt _ (by decide)⟩ ⟨k % 7, Nat.mod_lt _ (by decide)⟩)
    * W (ix6 b g (⟨k / 7 % 7, Nat.mod_lt _ (by decide)⟩ : Fin 7) (⟨k % 7, Nat.mod_lt _ (by decide)⟩ : Fin 7) h w)

/-- The first `n` terms of `t` added in order onto `z`, left-nested: ((z + t 0) + t 1) + … -/
def partialSum (z : EReal) (t : Nat → EReal) : Nat → EReal
  | 0 => z
  | n + 1 => partialSum z t n + t n

theorem partialSum_zero (z : EReal) (t : Nat → EReal) : partialSum z t 0 = z := rfl
theorem partialSum_succ (z : EReal) (t : Nat → EReal) (n : Nat) : partialSum z t (n + 1) = partialSum z t n + t n := rfl

/-- The involution: all 49 taps added in order onto the zero word. -/
def involution (P : SPad.Idx → EReal) (W : SKer.Idx → EReal) : SOut.Idx → EReal := fun i =>
  partialSum (Ideal.ofBits .f32 0x00000000#32) (tap P W (i 0) (i 1) (i 2) (i 3) (i 4)) 49

/-- The involution at the index with coordinates (b, g, c, h, w): that index's 49 taps added onto the zero word. -/
theorem involution_apply (P : SPad.Idx → EReal) (W : SKer.Idx → EReal) (b g : Fin 8) (c h w : Fin 64) :
    involution P W (ix5 b g c h w)
      = partialSum (Ideal.ofBits .f32 0x00000000#32) (tap P W b g c h w) 49 := rfl

end Cert.Involution

end
-- ==== Proof.KernelEntry.lean ====
/-
  The grid's first array as the grid finds it.

  Before the grid runs, the host pads the input `x` [8, 512, 64, 64] by three zeros on each side of its two spatial
  axes and splits the 512 channels of the result into 8 groups of 64: the grid's first array is [8, 8, 64, 70, 70], and
  its entry (b, g, c, y, z) is the padded input's entry (b, 64 g + c, y, z).
-/
import proofs.«119084_j49125835932189_1_alg».proof.Proof.Gen.KernelIdeal.Frame
import proofs.«119084_j49125835932189_1_alg».proof.Proof.Spec
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.Involution
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The input padded by three zeros on each side of its two spatial axes (the host's `pad`, with the padding value
    the converted integer zero).  It is never opened: the reference pads the same argument by the same operation. -/
def padded (x : FVec Ideal S8x512x64x64 .f32) : FVec Ideal S8x512x70x70 .f32 :=
  pad S8x512x70x70 ![0, 0, 3, 3] ![0, 0, 3, 3] ![0, 0, 0, 0] x (sitofp (F := Ideal) .f32 (constantI S_ 32 0#32))
    pads_S8x512x64x64_S8x512x70x70_000_000_330_330 h_S_

/-- The function the output array ends holding: the involution of the padded first argument and the second. -/
abbrev result (c : Dev nD) : S8x8x64x64x64.Idx → EReal :=
  involution (padded (m ((c : Thread nD τ).loc main_arg0))) (m ((c : Thread nD τ).loc main_arg1))

/-! ## The grid's first array, as the grid finds it -/

-- the equation holds whatever the padding computes: it is one opaque operation of its two operands here
attribute [local irreducible] pad in
/-- The array the host pads into holds the padded input when the grid is entered. -/
theorem entry_v0 (c : Dev nD) : V m c main_v0 = padded (m ((c : Thread nD τ).loc main_arg0)) := by
  dsimp only [Gen.V, Gen.V0]
  simp only [hostOps0, hostOps0_1, hostOps0_2, List.flatten_cons, List.flatten_nil, List.append_nil, List.cons_append,
    List.nil_append]
  after_results
  rfl

-- likewise here: only the re-shaping is read
attribute [local irreducible] pad in
/-- The grid's first array is that array with its channel axis split into (group, channel in group). -/
theorem entry_v1_of_v0 (c : Dev nD) :
    V m c main_v1 = shapeCast S8x8x64x70x70 (V m c main_v0) shapeCasts_S8x512x70x70_S8x8x64x70x70 := by
  dsimp only [Gen.V, Gen.V0]
  simp only [hostOps0, hostOps0_1, hostOps0_2, List.flatten_cons, List.flatten_nil, List.append_nil, List.cons_append,
    List.nil_append]
  after_results
  rfl

/-- So it is the padded input with its channel axis split into (group, channel in group). -/
theorem entry_v1 (c : Dev nD) :
    V m c main_v1 = shapeCast S8x8x64x70x70 (padded (m ((c : Thread nD τ).loc main_arg0))) shapeCasts_S8x512x70x70_S8x8x64x70x70 := by
  rw [entry_v1_of_v0, entry_v0]

/-- Its entry (b, g, c, y, z) is the padded input's entry (b, 64 g + c, y, z): both are at row-major position
    ((((b · 8 + g) · 64 + c) · 70 + y) · 70 + z. -/
theorem entry_v1_apply (c : Dev nD) (b g : Fin 8) (c' : Fin 64) (y z : Fin 70) :
    V m c main_v1 (ix5 b g c' y z)
      = padded (m ((c : Thread nD τ).loc main_arg0))
          (ix4 b (⟨g.val * 64 + c'.val, by have := g.isLt; have := c'.isLt; omega⟩ : Fin 512) y z) := by
  rw [entry_v1]
  refine shapeCast_apply _ _ (ix5 b g c' y z)
    (ix4 b (⟨g.val * 64 + c'.val, by have := g.isLt; have := c'.isLt; omega⟩ : Fin 512) y z) ?_
  rw [Shape.rowMajor_val_four, Shape.rowMajor_val_five]
  show ((b.val * 512 + (g.val * 64 + c'.val)) * 70 + y.val) * 70 + z.val
    = (((b.val * 8 + g.val) * 64 + c'.val) * 70 + y.val) * 70 + z.val
  omega

end Cert.KernelIdeal.Whole

end
-- ==== Proof.KernelTiles.lean ====
/-
  The grid's points and tiles.

  The grid has one point per (batch, group) pair.  At that point every one of the three arrays is cut into its (b, g)
  tile — index map (b, g, 0, …, 0), tile sizes [1, 1, …] — so coordinate (0, 0, c, …) inside a tile is coordinate
  (b, g, c, …) of the array, and the 64 output tiles cover the output array: an index lies in the tile of the point of
  its own batch and group.
-/
import proofs.«119084_j49125835932189_1_alg».proof.Proof.Gen.KernelIdeal.Frame
import proofs.«119084_j49125835932189_1_alg».proof.Proof.Spec
import Idealize.ShloMosaic.Lib.Pipeline.Value
import Idealize.ShloMosaic.Lib.ValueIdx
import Idealize.ShloMosaic.Lib.ValueIdxRank6

set_option maxRecDepth 16384

noncomputable section

namespace Cert.KernelIdeal.Whole

open Cert.KernelIdeal Cert.KernelIdeal.Gen Cert.Involution
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The grid points and the tiles -/

/-- The batch of grid point `t`. -/
def batchOf (t : Fin cfg0.N) : Fin 8 := grid0.coords t 0
/-- The group of grid point `t`. -/
def groupOf (t : Fin cfg0.N) : Fin 8 := grid0.coords t 1

/-- The three index maps, decided over the 64 grid points: each sends the point of (b, g) to tile (b, g, 0, …, 0). -/
theorem tile_index : ∀ t : Fin cfg0.N,
    (win0_0.index t (0 : Fin 5) = (batchOf t).val ∧ win0_0.index t (1 : Fin 5) = (groupOf t).val
      ∧ win0_0.index t (2 : Fin 5) = 0 ∧ win0_0.index t (3 : Fin 5) = 0 ∧ win0_0.index t (4 : Fin 5) = 0)
    ∧ (win0_1.index t (0 : Fin 6) = (batchOf t).val ∧ win0_1.index t (1 : Fin 6) = (groupOf t).val
      ∧ win0_1.index t (2 : Fin 6) = 0 ∧ win0_1.index t (3 : Fin 6) = 0 ∧ win0_1.index t (4 : Fin 6) = 0
      ∧ win0_1.index t (5 : Fin 6) = 0)
    ∧ (win0_2.index t (0 : Fin 5) = (batchOf t).val ∧ win0_2.index t (1 : Fin 5) = (groupOf t).val
      ∧ win0_2.index t (2 : Fin 5) = 0 ∧ win0_2.index t (3 : Fin 5) = 0 ∧ win0_2.index t (4 : Fin 5) = 0) :=
  (by decide +kernel : ∀ t : Fin grid0.N, _)

/-- Every (batch, group) pair is some grid point's. -/
theorem point_of : ∀ (b g : Fin 8), ∃ t : Fin cfg0.N, (batchOf t).val = b.val ∧ (groupOf t).val = g.val :=
  (by decide +kernel : ∀ (b g : Fin 8), ∃ t : Fin grid0.N, (batchOf t).val = b.val ∧ (groupOf t).val = g.val)

/-- Coordinate (0, 0, c, y, z) of point `t`'s tile of the first array is coordinate (b, g, c, y, z) of the array. -/
theorem tile0_emb (t : Fin cfg0.N) (c' : Fin 64) (y z : Fin 70) :
    ((cfg0.win 0).blk t).view.emb (ix5 (0 : Fin 1) (0 : Fin 1) c' y z) = ix5 (batchOf t) (groupOf t) c' y z := by
  obtain ⟨⟨e0, e1, e2, e3, e4⟩, -, -⟩ := tile_index t
  funext a; apply Fin.ext
  match a with
  | ⟨0, _⟩ => show win0_0.index t (0 : Fin 5) * 1 + 1 * 0 = (batchOf t).val; omega
  | ⟨1, _⟩ => show win0_0.index t (1 : Fin 5) * 1 + 1 * 0 = (groupOf t).val; omega
  | ⟨2, _⟩ => show win0_0.index t (2 : Fin 5) * 64 + 1 * c'.val = c'.val; omega
  | ⟨3, _⟩ => show win0_0.index t (3 : Fin 5) * 70 + 1 * y.val = y.val; omega
  | ⟨4, _⟩ => show win0_0.index t (4 : Fin 5) * 70 + 1 * z.val = z.val; omega

/-- Coordinate (0, 0, kh, kw, h, w) of point `t`'s tile of the kernels is coordinate (b, g, kh, kw, h, w) of the array. -/
theorem tile1_emb (t : Fin cfg0.N) (kh kw : Fin 7) (h w : Fin 64) :
    ((cfg0.win 1).blk t).view.emb (ix6 (0 : Fin 1) (0 : Fin 1) kh kw h w) = ix6 (batchOf t) (groupOf t) kh kw h w := by
  obtain ⟨-, ⟨e0, e1, e2, e3, e4, e5⟩, -⟩ := tile_index t
  funext a; apply Fin.ext
  match a with
  | ⟨0, _⟩ => show win0_1.index t (0 : Fin 6) * 1 + 1 * 0 = (batchOf t).val; omega
  | ⟨1, _⟩ => show win0_1.index t (1 : Fin 6) * 1 + 1 * 0 = (groupOf t).val; omega
  | ⟨2, _⟩ => show win0_1.index t (2 : Fin 6) * 7 + 1 * kh.val = kh.val; omega
  | ⟨3, _⟩ => show win0_1.index t (3 : Fin 6) * 7 + 1 * kw.val = kw.val; omega
  | ⟨4, _⟩ => show win0_1.index t (4 : Fin 6) * 64 + 1 * h.val = h.val; omega
  | ⟨5, _⟩ => show win0_1.index t (5 : Fin 6) * 64 + 1 * w.val = w.val; omega

/-- Coordinate (0, 0, c, h, w) of point `t`'s tile of the output is coordinate (b, g, c, h, w) of the array. -/
theorem tile2_emb (t : Fin cfg0.N) (c' h w : Fin 64) :
    ((cfg0.win 2).blk t).view.emb (ix5 (0 : Fin 1) (0 : Fin 1) c' h w) = ix5 (batchOf t) (groupOf t) c' h w := by
  obtain ⟨-, -, ⟨e0, e1, e2, e3, e4⟩⟩ := tile_index t
  funext a; apply Fin.ext
  match a with
  | ⟨0, _⟩ => show win0_2.index t (0 : Fin 5) * 1 + 1 * 0 = (batchOf t).val; omega
  | ⟨1, _⟩ => show win0_2.index t (1 : Fin 5) * 1 + 1 * 0 = (groupOf t).val; omega
  | ⟨2, _⟩ => show win0_2.index t (2 : Fin 5) * 64 + 1 * c'.val = c'.val; omega
  | ⟨3, _⟩ => show win0_2.index t (3 : Fin 5) * 64 + 1 * h.val = h.val; omega
  | ⟨4, _⟩ => show win0_2.index t (4 : Fin 5) * 64 + 1 * w.val = w.val; omega

/-- An index of the output array is in point `t`'s tile iff each coordinate is in the tile's range on its axis. -/
theorem mem_tile (t : Fin cfg0.N) (i : S8x8x64x64x64.Idx) :
    i ∈ ((cfg0.win 2).blk t).view.set ↔ ∀ a : Fin 5, win0_2.index t a * S1x1x64x64x64.size a ≤ (i a).val
      ∧ (i a).val < win0_2.index t a * S1x1x64x64x64.size a + S1x1x64x64x64.size a := by
  show i ∈ ((View.whole main_v2).slice (win0_2.rect t)).set ↔ _
  rw [View.set_slice_whole, Rect.mem_set_unit]
  exact Iff.rfl

/-- Every index of the output array is in the tile of the point of its own (batch, group). -/
theorem covered (i : S8x8x64x64x64.Idx) :
    ∃ t : Fin cfg0.N, (cfg0.win 2).flush t = true ∧ i ∈ ((cfg0.win 2).blk t).view.set := by
  obtain ⟨t, hb, hg⟩ := point_of (i 0) (i 1)
  obtain ⟨-, -, ⟨e0, e1, e2, e3, e4⟩⟩ := tile_index t
  refine ⟨t, flush0_2 t, ?_⟩
  rw [mem_tile]
  intro a
  have h2 : (i 2).val < 64 := (i 2).isLt
  have h3 : (i 3).val < 64 := (i 3).isLt
  have h4 : (i 4).val < 64 := (i 4).isLt
  match a with
  | ⟨0, _⟩ => show win0_2.index t (0 : Fin 5) * 1 ≤ (i 0).val ∧ (i 0).val < win0_2.index t (0 : Fin 5) * 1 + 1; omega
  | ⟨1, _⟩ => show win0_2.index t (1 : Fin 5) * 1 ≤ (i 1).val ∧ (i 1).val < win0_2.index t (1 : Fin 5) * 1 + 1; omega
  | ⟨2, _⟩ => show win0_2.index t (2 : Fin 5) * 64 ≤ (i 2).val ∧ (i 2).val < win0_2.index t (2 : Fin 5) * 64 + 64; omega
  | ⟨3, _⟩ => show win0_2.index t (3 : Fin 5) * 64 ≤ (i 3).val ∧ (i 3).val < win0_2.index t (3 : Fin 5) * 64 + 64; omega
  | ⟨4, _⟩ => show win0_2.index t (4 : Fin 5) * 64 ≤ (i 4).val ∧ (i 4).val < win0_2.index t (4 : Fin 5) * 64 + 64; omega

end Cert.KernelIdeal.Whole

end
-- ==== Proof.KernelTaps.lean ====
/-
  Where one tap of the kernel body reads its two factors.

  The body works on one (batch, group) tile: `x0`, the padded input's tile [1, 1, 64, 70, 70] (64 channels, 70 x 70
  padded pixels), and `x1`, the tile's per-pixel kernels [1, 1, 7, 7, 64, 64].  For tap (kh, kw) it loads the
  64 x 64 x 64 window of `x0` that starts at pixel (kh, kw) and the 64 x 64 plane (kh, kw) of `x1`, stretches the
  plane over the 64 channels, and multiplies.  Read at channel `c`, pixel (h, w):

    * the window is `x0` at channel `c`, pixel (h + kh, w + kw)          (`patch_apply`);
    * the stretched plane is `x1` at (kh, kw, h, w), whatever `c` is       (`plane_apply`);
    * the accumulator, re-shaped to the tile's [1, 1, 64, 64, 64] for the store, is itself at (c, h, w)  (`stored_apply`).

  The offsets (kh, kw) are variables: one lemma serves all 49 taps.  Their bounds come from the load's own
  in-range fact.
-/
import proofs.«119084_j49125835932189_1_alg».proof.KernelIdeal
import Idealize.ShloMosaic.Lib.ValueIdx
import Idealize.ShloMosaic.Lib.ValueIdxRank6
import Idealize.ShloMosaic.Lib.Pipeline.Value
import Idealize.ShloMosaic.Lib.Pipeline.FrameBody

noncomputable section

namespace Cert.KernelIdeal.Taps

open Cert.KernelIdeal Idealize.ShloMosaic Idealize.ShloMosaic.ValueIdx

variable {α : Type} {Val : EltTy → Type} {e : EltTy}

/-- A window of the padded tile that starts at pixel (kh, kw) and is 64 x 64 pixels lies inside the 70 x 70 tile
    only if kh, kw ≤ 6. -/
theorem patch_off_lt {kh kw : Nat}
    (inb : ∀ a, (![0, 0, 0, kh, kw] : Fin 5 → Nat) a + S1x1x64x64x64.size a ≤ S1x1x64x70x70.size a) :
    kh < 7 ∧ kw < 7 := by
  have h3 : kh + 64 ≤ 70 := inb 3
  have h4 : kw + 64 ≤ 70 := inb 4
  omega

/-- A plane (kh, kw) of the tile's kernels exists only if kh, kw ≤ 6. -/
theorem plane_off_lt {kh kw : Nat}
    (inb : ∀ a, (![0, 0, kh, kw, 0, 0] : Fin 6 → Nat) a + S1x1x1x1x64x64.size a ≤ S1x1x7x7x64x64.size a) :
    kh < 7 ∧ kw < 7 := by
  have h2 : kh + 1 ≤ 7 := inb 2
  have h3 : kw + 1 ≤ 7 := inb 3
  omega

/-- The window loaded at pixel offset (kh, kw), as a [64, 64, 64] vector, at channel `c` and pixel (h, w) is the
    tile at channel `c`, pixel (h + kh, w + kw). -/
theorem patch_apply (x0 : S1x1x64x70x70.Idx → Val e) (kh kw : Nat)
    (inb : ∀ a, (![0, 0, 0, kh, kw] : Fin 5 → Nat) a + S1x1x64x64x64.size a ≤ S1x1x64x70x70.size a)
    (hsc : S1x1x64x64x64.ShapeCasts S64x64x64) (c h w : Fin 64) :
    shapeCast S64x64x64
        (View.ld x0 (Rect.unit (s := S1x1x64x70x70) ![0, 0, 0, kh, kw] S1x1x64x64x64.size inb) : S1x1x64x64x64.Idx → Val e)
        hsc (ix3 c h w)
      = x0 (ix5 (0 : Fin 1) (0 : Fin 1) c
          (⟨h.val + kh, by have := (patch_off_lt inb).1; have := h.isLt; omega⟩ : Fin 70)
          (⟨w.val + kw, by have := (patch_off_lt inb).2; have := w.isLt; omega⟩ : Fin 70)) := by
  refine (shapeCast_apply _ hsc (ix3 c h w) (ix5 (0 : Fin 1) (0 : Fin 1) c h w) ?_).trans ?_
  · rw [Shape.rowMajor_val_five, Shape.rowMajor_val_three]
    show ((((0 : Nat) * 1 + 0) * 64 + c.val) * 64 + h.val) * 64 + w.val = (c.val * 64 + h.val) * 64 + w.val
    omega
  · show x0 _ = x0 _
    congr 1
    funext a
    apply Fin.ext
    match a with
    | ⟨0, _⟩ => show 0 + 1 * 0 = 0; rfl
    | ⟨1, _⟩ => show 0 + 1 * 0 = 0; rfl
    | ⟨2, _⟩ => show 0 + 1 * c.val = c.val; omega
    | ⟨3, _⟩ => show kh + 1 * h.val = h.val + kh; omega
    | ⟨4, _⟩ => show kw + 1 * w.val = w.val + kw; omega

/-- The plane (kh, kw) of the tile's kernels, stretched over the 64 channels, at channel `c` and pixel (h, w) is
    the tile's kernel entry (kh, kw) of that pixel: it does not depend on `c`. -/
theorem plane_apply (x1 : S1x1x7x7x64x64.Idx → Val e) (kh kw : Nat)
    (inb : ∀ a, (![0, 0, kh, kw, 0, 0] : Fin 6 → Nat) a + S1x1x1x1x64x64.size a ≤ S1x1x7x7x64x64.size a)
    (h1 : S1x1x1x1x64x64.ShapeCasts S64x64) (h2 : S64x64.ShapeCasts S1x64x64) (h3 : S1x64x64.Broadcasts S64x64x64)
    (c h w : Fin 64) :
    broadcastTo S64x64x64
        (shapeCast S1x64x64
          (shapeCast S64x64
            (View.ld x1 (Rect.unit (s := S1x1x7x7x64x64) ![0, 0, kh, kw, 0, 0] S1x1x1x1x64x64.size inb)
              : S1x1x1x1x64x64.Idx → Val e) h1) h2) h3 (ix3 c h w)
      = x1 (ix6 (0 : Fin 1) (0 : Fin 1) (⟨kh, (plane_off_lt inb).1⟩ : Fin 7) (⟨kw, (plane_off_lt inb).2⟩ : Fin 7) h w) := by
  refine (broadcastTo_apply _ h3 (ix3 c h w) (ix3 (0 : Fin 1) h w) (fun a => ?_)).trans ?_
  · match a with
    | ⟨0, _⟩ => show (0 : Nat) = if (1 : Nat) = 1 then 0 else c.val; rw [if_pos rfl]
    | ⟨1, _⟩ => show h.val = if (64 : Nat) = 1 then 0 else h.val; rw [if_neg (by decide)]
    | ⟨2, _⟩ => show w.val = if (64 : Nat) = 1 then 0 else w.val; rw [if_neg (by decide)]
  refine (shapeCast_apply _ h2 (ix3 (0 : Fin 1) h w) (ix2 h w) ?_).trans ?_
  · rw [Shape.rowMajor_val_two, Shape.rowMajor_val_three]
    show h.val * 64 + w.val = ((0 : Nat) * 64 + h.val) * 64 + w.val
    omega
  refine (shapeCast_apply _ h1 (ix2 h w) (ix6 (0 : Fin 1) (0 : Fin 1) (0 : Fin 1) (0 : Fin 1) h w) ?_).trans ?_
  · rw [Shape.rowMajor_val_six, Shape.rowMajor_val_two]
    show ((((((0 : Nat) * 1 + 0) * 1 + 0) * 1 + 0) * 64 + h.val) * 64 + w.val) = h.val * 64 + w.val
    omega
  · show x1 _ = x1 _
    congr 1
    funext a
    apply Fin.ext
    match a with
    | ⟨0, _⟩ => show 0 + 1 * 0 = 0; rfl
    | ⟨1, _⟩ => show 0 + 1 * 0 = 0; rfl
    | ⟨2, _⟩ => show kh + 1 * 0 = kh; omega
    | ⟨3, _⟩ => show kw + 1 * 0 = kw; omega
    | ⟨4, _⟩ => show 0 + 1 * h.val = h.val; omega
    | ⟨5, _⟩ => show 0 + 1 * w.val = w.val; omega

/-- The accumulator re-shaped to the tile's [1, 1, 64, 64, 64] for the store, read at (0, 0, c, h, w), is the
    accumulator at (c, h, w). -/
theorem stored_apply (acc : S64x64x64.Idx → α) (hsc : S64x64x64.ShapeCasts S1x1x64x64x64) (c h w : Fin 64) :
    shapeCast S1x1x64x64x64 acc hsc (ix5 (0 : Fin 1) (0 : Fin 1) c h w) = acc (ix3 c h w) := by
  refine shapeCast_apply _ hsc _ (ix3 c h w) ?_
  rw [Shape.rowMajor_val_five, Shape.rowMajor_val_three]
  show (c.val * 64 + h.val) * 64 + w.val = ((((0 : Nat) * 1 + 0) * 64 + c.val) * 64 + h.val) * 64 + w.val
  omega

end Cert.KernelIdeal.Taps

end
-- ==== Proof.KernelBody.lean ====
/-
  What the kernel body leaves in its output tile.

  At the grid point of batch `b` and group `g` the body is handed two tiles: `x0`, the 64 channels of group `g` of
  the padded input of batch `b` (so `x0` at channel `c`, padded pixel (y, z) is `P` at channel 64 g + c there), and
  `x1`, the 7 x 7 per-pixel kernels of (b, g).  It starts from the zero word and adds, for kh = 0..6 and inside that
  kw = 0..6, the window of `x0` at pixel offset (kh, kw) times plane (kh, kw) of `x1` stretched over the channels,
  each product onto the sum so far.  Read at channel `c` and pixel (h, w) this is the zero word plus the 49 taps
  P[b, 64 g + c, h + kh, w + kw] · W[b, g, kh, kw, h, w] in row-major order of (kh, kw), left-nested: the involution at
  (b, g, c, h, w).  No law of addition or multiplication is used: the two sides are the same nest of sums.
-/
import proofs.«119084_j49125835932189_1_alg».proof.Proof.Gen.KernelIdeal.Frame
import proofs.«119084_j49125835932189_1_alg».proof.Proof.KernelTaps
import proofs.«119084_j49125835932189_1_alg».proof.Proof.Spec

set_option maxRecDepth 16384

noncomputable section

namespace Cert.KernelIdeal.Body

open Cert.KernelIdeal Cert.KernelIdeal.Gen Cert.Involution Idealize.ShloMosaic Idealize.ShloMosaic.ValueIdx

/-- The offset of the body's one store: the tile's origin. -/
theorem origin5 : (![0, 0, 0, 0, 0] : Fin 5 → Nat) = fun _ => 0 := by
  funext a; fin_cases a <;> rfl

/-- The output tile of the grid point (b, g), at channel `c` and pixel (h, w), is the involution of the padded
    input and the kernels at (b, g, c, h, w), whenever the two input tiles are the (b, g) tiles of `P` and `W`. -/
theorem tile_apply (P : SPad.Idx → EReal) (W : SKer.Idx → EReal) (b g : Fin 8)
    (x0 : Vec Ideal S1x1x64x70x70 .f32) (x1 : Vec Ideal S1x1x7x7x64x64 .f32)
    (h0 : ∀ (c : Fin 64) (y z : Fin 70), x0 (ix5 (0 : Fin 1) (0 : Fin 1) c y z)
      = P (ix4 b (⟨g.val * 64 + c.val, by have := g.isLt; have := c.isLt; omega⟩ : Fin 512) y z))
    (h1 : ∀ (kh kw : Fin 7) (h w : Fin 64), x1 (ix6 (0 : Fin 1) (0 : Fin 1) kh kw h w) = W (ix6 b g kh kw h w))
    (c h w : Fin 64) :
    out0_2 (F := Ideal) x0 x1 (ix5 (0 : Fin 1) (0 : Fin 1) c h w) = involution P W (ix5 b g c h w) := by
  unfold out0_2
  rw [View.canon_unit_zero origin5]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  rw [Taps.stored_apply]
  simp only [addf_apply, mulf_apply, Taps.patch_apply, Taps.plane_apply, broadcast_apply]
  simp only [h0, h1]
  rw [involution_apply]
  simp only [partialSum_succ, partialSum_zero, tap, Nat.reduceDiv, Nat.reduceMod]
  rfl

end Cert.KernelIdeal.Body

end
-- ==== Proof.KernelArray.lean ====
/-
  From tiles to the whole output array.

  Point (b, g)'s tile of the first array is the padded input's channels 64 g … 64 g + 63 of batch b, and its tile of the
  kernels is the (b, g) kernels; so the body's result on the tile is the involution at (b, g, c, h, w), and what the point
  writes back is the (b, g) tile of the involution of the padded input and the kernels.  The tiles cover the output
  array, so the array ends holding the involution.
-/
import proofs.«119084_j49125835932189_1_alg».proof.Proof.KernelEntry
import proofs.«119084_j49125835932189_1_alg».proof.Proof.KernelTiles
import proofs.«119084_j49125835932189_1_alg».proof.Proof.KernelBody

set_option maxRecDepth 16384

noncomputable section

namespace Cert.KernelIdeal.Whole

open Cert.KernelIdeal Cert.KernelIdeal.Gen Cert.Involution
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- Point `t`'s tile of the first array, at (0, 0, c, y, z), is the padded input at (b, 64 g + c, y, z). -/
theorem tile0_apply (c : Dev nD) (t : Fin cfg0.N) (c' : Fin 64) (y z : Fin 70) :
    iblk m c 0 t (ix5 (0 : Fin 1) (0 : Fin 1) c' y z)
      = padded (m ((c : Thread nD τ).loc main_arg0))
          (ix4 (batchOf t) (⟨(groupOf t).val * 64 + c'.val, by have := (groupOf t).isLt; have := c'.isLt; omega⟩ : Fin 512) y z) := by
  unfold iblk
  rw [View.read_apply, tile0_emb]
  exact (cast_eq _ _).trans (entry_v1_apply m c (batchOf t) (groupOf t) c' y z)

/-- Point `t`'s tile of the kernels, at (0, 0, kh, kw, h, w), is the second argument at (b, g, kh, kw, h, w). -/
theorem tile1_apply (c : Dev nD) (t : Fin cfg0.N) (kh kw : Fin 7) (h w : Fin 64) :
    iblk m c 1 t (ix6 (0 : Fin 1) (0 : Fin 1) kh kw h w)
      = m ((c : Thread nD τ).loc main_arg1) (ix6 (batchOf t) (groupOf t) kh kw h w) := by
  unfold iblk
  rw [View.read_apply, tile1_emb]
  exact (cast_eq _ _).trans (congrFun (V_main_arg1 m c) (ix6 (batchOf t) (groupOf t) kh kw h w))

/-- Grid point `t` writes back the (b, g) tile of the involution. -/
theorem written_back (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  funext j
  obtain ⟨c', h, w, rfl⟩ : ∃ (c' h w : Fin 64), j = ix5 (0 : Fin 1) (0 : Fin 1) c' h w :=
    ⟨j 2, j 3, j 4, by
      funext a
      match a with
      | ⟨0, _⟩ => apply Fin.ext; have h0 : (j 0).val < 1 := (j 0).isLt; show (j 0).val = 0; omega
      | ⟨1, _⟩ => apply Fin.ext; have h1 : (j 1).val < 1 := (j 1).isLt; show (j 1).val = 0; omega
      | ⟨2, _⟩ => rfl
      | ⟨3, _⟩ => rfl
      | ⟨4, _⟩ => rfl⟩
  show out0_2 (iblk m c 0 t) (iblk m c 1 t) (ix5 (0 : Fin 1) (0 : Fin 1) c' h w)
    = result m c (((cfg0.win 2).blk t).view.emb (ix5 (0 : Fin 1) (0 : Fin 1) c' h w))
  rw [tile2_emb]
  exact Body.tile_apply (padded (m ((c : Thread nD τ).loc main_arg0))) (m ((c : Thread nD τ).loc main_arg1))
    (batchOf t) (groupOf t) (iblk m c 0 t) (iblk m c 1 t) (tile0_apply m c t) (tile1_apply m c t) c' h w

/-- The output array after the grid has run: the involution of the padded first argument and the second. -/
theorem whole (c : Dev nD) : (dats m 0 c).arrAt 2 cfg0.N = result m c :=
  (dats m 0 c).arrAt_eq_of_cover 2 (result m c) (fun t _ => written_back m c t) covered

end Cert.KernelIdeal.Whole

end
-- ==== Proof.KernelRun.lean ====
/-
  The idealized kernel's run, read back.

  After the grid the host re-shapes the output array [8, 8, 64, 64, 64] to [8, 512, 64, 64] (the group and
  channel-in-group axes merged back into one channel axis); nothing else follows.  So every execution ends with the
  result buffer at that re-shaping of the involution of the padded first argument and the second, and with both
  arguments as they were launched.
-/
import proofs.«119084_j49125835932189_1_alg».proof.Proof.KernelArray
import Idealize.ShloMosaic.Lib.Pipeline.FrameSuffix

set_option maxRecDepth 16384

noncomputable section

namespace Cert.KernelIdeal.Whole

open Cert.KernelIdeal Cert.KernelIdeal.Gen Cert.Involution
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- What the result buffer holds once the host has re-shaped the grid's output array. -/
abbrev reshaped (c : Dev nD) : S8x512x64x64.Idx → EReal :=
  shapeCast S8x512x64x64 (result m c) shapeCasts_S8x8x64x64x64_S8x512x64x64

/-- The one host operation after the grid re-shapes the grid's output array, which holds the involution. -/
theorem tail_v3 (c : Dev nD) :
    Pipeline.afterTail₀ cfgs (dats m) 0 (V0 m) [hostOps1] c main_v3 = reshaped m c := by
  have e := (Pipeline.withArrays_arr spec0 launch0.win.arr_inj c (V0 m c)
    (fun w => (dats m 0 c).arrAt w cfg0.N) 2).trans (whole m c)
  unfold Pipeline.afterTail₀
  show StableHlo.after hostOps1 _ (Proc.devRef .tc main_v3) = _
  after_results
  exact congrArg (fun X => shapeCast S8x512x64x64 X shapeCasts_S8x8x64x64x64_S8x512x64x64) e

/-- Every weakly fair execution of the idealized kernel terminates with the result at the re-shaped involution and
    the arguments unchanged. -/
theorem run : θ_run defs (onTc (τ := τ) (main (F := Ideal))) ⟨m, fun _ => 0, ρ⟩ fun r => ∀ c : Dev nD,
      r.2.mem ((c.tc : Thread nD τ).loc main_v3) = reshaped m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (tail_v3 m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Whole

end
-- ==== Proof.RefOps.lean ====
/-
  The reference's @main as a list of its 398 host operations, cut where the mathematics cuts it.

  The reference pads its input, sets an accumulator to the zero word, and then adds 49 products onto the
  accumulator, one per offset (kh, kw) of a 7 x 7 stencil, kh outer; a last reshape merges the group axis and the
  channel-in-group axis of the accumulator.  The list is cut accordingly:

    * `opsPre`  — 5 operations: the integer zero, its conversion, the padding (into `main_v0`), the float zero word,
                   and its stretching to the whole accumulator (into `main_v1`);
    * `opsRow r` — the 56 operations of stencil row kh = r, seven taps of eight operations each: the window of the padded
                   input at pixel offset (r, kw); plane (r, kw) of the kernels; the plane's two unit axes dropped; the window's
                   channels split into groups; the plane stretched over a unit channel axis and then over the 64 channels of a
                   group; the product; the sum with the accumulator so far.  Row r starts from the accumulator
                   `main_v(56 r + 1)` and ends in `main_v(56 r + 57)`;
    * `opsPost` — the final reshape of `main_v393` into `main_v394`.

  Every tap reads the padded input `main_v0` and the kernels `main_arg1` afresh, which is why the run is taken row
  by row over an unspecified valuation (the next modules): nothing a row reads is ever written out in full.

  This module only states the list and the facts about it that hold by computation: that @main is this list run in
  order, that the signature scopes no buffer and no semaphore, that every operation touches TensorCore references
  only, and that every operation determines its results.
-/
import proofs.«119084_j49125835932189_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The padding of the input and the zero accumulator. -/
abbrev opsPre : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x512x64x64, .f32⟩) main_arg0) (TRef.of (T := ⟨S_, .f32⟩) main_call0_v0) (TRef.of (T := ⟨S8x512x70x70, .f32⟩) main_v0) (fun x v => pad S8x512x70x70 ![0, 0, 3, 3] ![0, 0, 3, 3] ![0, 0, 0, 0] x v pads_S8x512x64x64_S8x512x70x70_000_000_330_330 h_S_),
    nullary main_cst (constant S_ .f32 0x00000000#32),
    unary main_cst main_v1 (broadcastInDim S8x8x64x64x64 ![] bcast_S_S8x8x64x64x64 : (⟨S_, .f32⟩ : BufTy).Contents (Elt F) → (⟨S8x8x64x64x64, .f32⟩ : BufTy).Contents (Elt F)) ]

/-- Stencil row kh = 0: the seven taps (0, 0) … (0, 6), each added onto the accumulator. -/
abbrev opsRow0 : List (HloOp τ sig (Elt F)) :=
  [ unary main_v0 main_v2 ((extractStridedSlice S8x512x64x64 ![0, 0, 0, 0] · slices_S8x512x70x70_S8x512x64x64_0_0_0_0) : (⟨S8x512x70x70, .f32⟩ : BufTy).Contents (Elt F) → (⟨S8x512x64x64, .f32⟩ : BufTy).Contents (Elt F)),
    unary main_arg1 main_v3 ((extractStridedSlice S8x8x1x1x64x64 ![0, 0, 0, 0, 0, 0] · slices_S8x8x7x7x64x64_S8x8x1x1x64x64_0_0_0_0_0_0) : (⟨S8x8x7x7x64x64, .f32⟩ : BufTy).Contents (Elt F) → (⟨S8x8x1x1x64x64, .f32⟩ : BufTy).Contents (Elt F)),
    reshape main_v3 main_v4 rfl shapeCasts_S8x8x1x1x64x64_S8x8x64x64,
    reshape main_v2 main_v5 rfl shapeCasts_S8x512x64x64_S8x8x64x64x64,
    unary main_v4 main_v6 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v6 main_v7 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v5 main_v7 main_v8 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v1 main_v8 main_v9 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v10 ((extractStridedSlice S8x512x64x64 ![0, 0, 0, 1] · slices_S8x512x70x70_S8x512x64x64_0_0_0_1) : (⟨S8x512x70x70, .f32⟩ : BufTy).Contents (Elt F) → (⟨S8x512x64x64, .f32⟩ : BufTy).Contents (Elt F)),
    unary main_arg1 main_v11 ((extractStridedSlice S8x8x1x1x64x64 ![0, 0, 0, 1, 0, 0] · slices_S8x8x7x7x64x64_S8x8x1x1x64x64_0_0_0_1_0_0) : (⟨S8x8x7x7x64x64, .f32⟩ : BufTy).Contents (Elt F) → (⟨S8x8x1x1x64x64, .f32⟩ : BufTy).Contents (Elt F)),
    reshape main_v11 main_v12 rfl shapeCasts_S8x8x1x1x64x64_S8x8x64x64,
    reshape main_v10 main_v13 rfl shapeCasts_S8x512x64x64_S8x8x64x64x64,
    unary main_v12 main_v14 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v14 main_v15 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v13 main_v15 main_v16 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v9 main_v16 main_v17 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v18 ((extractStridedSlice S8x512x64x64 ![0, 0, 0, 2] · slices_S8x512x70x70_S8x512x64x64_0_0_0_2) : (⟨S8x512x70x70, .f32⟩ : BufTy).Contents (Elt F) → (⟨S8x512x64x64, .f32⟩ : BufTy).Contents (Elt F)),
    unary main_arg1 main_v19 ((extractStridedSlice S8x8x1x1x64x64 ![0, 0, 0, 2, 0, 0] · slices_S8x8x7x7x64x64_S8x8x1x1x64x64_0_0_0_2_0_0) : (⟨S8x8x7x7x64x64, .f32⟩ : BufTy).Contents (Elt F) → (⟨S8x8x1x1x64x64, .f32⟩ : BufTy).Contents (Elt F)),
    reshape main_v19 main_v20 rfl shapeCasts_S8x8x1x1x64x64_S8x8x64x64,
    reshape main_v18 main_v21 rfl shapeCasts_S8x512x64x64_S8x8x64x64x64,
    unary main_v20 main_v22 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v22 main_v23 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v21 main_v23 main_v24 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v17 main_v24 main_v25 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v26 ((extractStridedSlice S8x512x64x64 ![0, 0, 0, 3] · slices_S8x512x70x70_S8x512x64x64_0_0_0_3) : (⟨S8x512x70x70, .f32⟩ : BufTy).Contents (Elt F) → (⟨S8x512x64x64, .f32⟩ : BufTy).Contents (Elt F)),
    unary main_arg1 main_v27 ((extractStridedSlice S8x8x1x1x64x64 ![0, 0, 0, 3, 0, 0] · slices_S8x8x7x7x64x64_S8x8x1x1x64x64_0_0_0_3_0_0) : (⟨S8x8x7x7x64x64, .f32⟩ : BufTy).Contents (Elt F) → (⟨S8x8x1x1x64x64, .f32⟩ : BufTy).Contents (Elt F)),
    reshape main_v27 main_v28 rfl shapeCasts_S8x8x1x1x64x64_S8x8x64x64,
    reshape main_v26 main_v29 rfl shapeCasts_S8x512x64x64_S8x8x64x64x64,
    unary main_v28 main_v30 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v30 main_v31 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v29 main_v31 main_v32 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v25 main_v32 main_v33 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v34 ((extractStridedSlice S8x512x64x64 ![0, 0, 0, 4] · slices_S8x512x70x70_S8x512x64x64_0_0_0_4) : (⟨S8x512x70x70, .f32⟩ : BufTy).Contents (Elt F) → (⟨S8x512x64x64, .f32⟩ : BufTy).Contents (Elt F)),
    unary main_arg1 main_v35 ((extractStridedSlice S8x8x1x1x64x64 ![0, 0, 0, 4, 0, 0] · slices_S8x8x7x7x64x64_S8x8x1x1x64x64_0_0_0_4_0_0) : (⟨S8x8x7x7x64x64, .f32⟩ : BufTy).Contents (Elt F) → (⟨S8x8x1x1x64x64, .f32⟩ : BufTy).Contents (Elt F)),
    reshape main_v35 main_v36 rfl shapeCasts_S8x8x1x1x64x64_S8x8x64x64,
    reshape main_v34 main_v37 rfl shapeCasts_S8x512x64x64_S8x8x64x64x64,
    unary main_v36 main_v38 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v38 main_v39 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v37 main_v39 main_v40 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v33 main_v40 main_v41 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v42 ((extractStridedSlice S8x512x64x64 ![0, 0, 0, 5] · slices_S8x512x70x70_S8x512x64x64_0_0_0_5) : (⟨S8x512x70x70, .f32⟩ : BufTy).Contents (Elt F) → (⟨S8x512x64x64, .f32⟩ : BufTy).Contents (Elt F)),
    unary main_arg1 main_v43 ((extractStridedSlice S8x8x1x1x64x64 ![0, 0, 0, 5, 0, 0] · slices_S8x8x7x7x64x64_S8x8x1x1x64x64_0_0_0_5_0_0) : (⟨S8x8x7x7x64x64, .f32⟩ : BufTy).Contents (Elt F) → (⟨S8x8x1x1x64x64, .f32⟩ : BufTy).Contents (Elt F)),
    reshape main_v43 main_v44 rfl shapeCasts_S8x8x1x1x64x64_S8x8x64x64,
    reshape main_v42 main_v45 rfl shapeCasts_S8x512x64x64_S8x8x64x64x64,
    unary main_v44 main_v46 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v46 main_v47 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v45 main_v47 main_v48 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v41 main_v48 main_v49 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v50 ((extractStridedSlice S8x512x64x64 ![0, 0, 0, 6] · slices_S8x512x70x70_S8x512x64x64_0_0_0_6) : (⟨S8x512x70x70, .f32⟩ : BufTy).Contents (Elt F) → (⟨S8x512x64x64, .f32⟩ : BufTy).Contents (Elt F)),
    unary main_arg1 main_v51 ((extractStridedSlice S8x8x1x1x64x64 ![0, 0, 0, 6, 0, 0] · slices_S8x8x7x7x64x64_S8x8x1x1x64x64_0_0_0_6_0_0) : (⟨S8x8x7x7x64x64, .f32⟩ : BufTy).Contents (Elt F) → (⟨S8x8x1x1x64x64, .f32⟩ : BufTy).Contents (Elt F)),
    reshape main_v51 main_v52 rfl shapeCasts_S8x8x1x1x64x64_S8x8x64x64,
    reshape main_v50 main_v53 rfl shapeCasts_S8x512x64x64_S8x8x64x64x64,
    unary main_v52 main_v54 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v54 main_v55 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v53 main_v55 main_v56 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v49 main_v56 main_v57 (addf : (⟨S8x8x64x64x64, .f32⟩ : BufTy).Contents (Elt F) → (⟨S8x8x64x64x64, .f32⟩ : BufTy).Contents (Elt F) → (⟨S8x8x64x64x64, .f32⟩ : BufTy).Contents (Elt F)) ]

/-- Stencil row kh = 1: the seven taps (1, 0) … (1, 6), each added onto the accumulator. -/
abbrev opsRow1 : List (HloOp τ sig (Elt F)) :=
  [ unary main_v0 main_v58 ((extractStridedSlice S8x512x64x64 ![0, 0, 1, 0] · slices_S8x512x70x70_S8x512x64x64_0_0_1_0) : (⟨S8x512x70x70, .f32⟩ : BufTy).Contents (Elt F) → (⟨S8x512x64x64, .f32⟩ : BufTy).Contents (Elt F)),
    unary main_arg1 main_v59 ((extractStridedSlice S8x8x1x1x64x64 ![0, 0, 1, 0, 0, 0] · slices_S8x8x7x7x64x64_S8x8x1x1x64x64_0_0_1_0_0_0) : (⟨S8x8x7x7x64x64, .f32⟩ : BufTy).Contents (Elt F) → (⟨S8x8x1x1x64x64, .f32⟩ : BufTy).Contents (Elt F)),
    reshape main_v59 main_v60 rfl shapeCasts_S8x8x1x1x64x64_S8x8x64x64,
    reshape main_v58 main_v61 rfl shapeCasts_S8x512x64x64_S8x8x64x64x64,
    unary main_v60 main_v62 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v62 main_v63 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v61 main_v63 main_v64 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v57 main_v64 main_v65 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v66 ((extractStridedSlice S8x512x64x64 ![0, 0, 1, 1] · slices_S8x512x70x70_S8x512x64x64_0_0_1_1) : (⟨S8x512x70x70, .f32⟩ : BufTy).Contents (Elt F) → (⟨S8x512x64x64, .f32⟩ : BufTy).Contents (Elt F)),
    unary main_arg1 main_v67 ((extractStridedSlice S8x8x1x1x64x64 ![0, 0, 1, 1, 0, 0] · slices_S8x8x7x7x64x64_S8x8x1x1x64x64_0_0_1_1_0_0) : (⟨S8x8x7x7x64x64, .f32⟩ : BufTy).Contents (Elt F) → (⟨S8x8x1x1x64x64, .f32⟩ : BufTy).Contents (Elt F)),
    reshape main_v67 main_v68 rfl shapeCasts_S8x8x1x1x64x64_S8x8x64x64,
    reshape main_v66 main_v69 rfl shapeCasts_S8x512x64x64_S8x8x64x64x64,
    unary main_v68 main_v70 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v70 main_v71 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v69 main_v71 main_v72 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v65 main_v72 main_v73 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v74 ((extractStridedSlice S8x512x64x64 ![0, 0, 1, 2] · slices_S8x512x70x70_S8x512x64x64_0_0_1_2) : (⟨S8x512x70x70, .f32⟩ : BufTy).Contents (Elt F) → (⟨S8x512x64x64, .f32⟩ : BufTy).Contents (Elt F)),
    unary main_arg1 main_v75 ((extractStridedSlice S8x8x1x1x64x64 ![0, 0, 1, 2, 0, 0] · slices_S8x8x7x7x64x64_S8x8x1x1x64x64_0_0_1_2_0_0) : (⟨S8x8x7x7x64x64, .f32⟩ : BufTy).Contents (Elt F) → (⟨S8x8x1x1x64x64, .f32⟩ : BufTy).Contents (Elt F)),
    reshape main_v75 main_v76 rfl shapeCasts_S8x8x1x1x64x64_S8x8x64x64,
    reshape main_v74 main_v77 rfl shapeCasts_S8x512x64x64_S8x8x64x64x64,
    unary main_v76 main_v78 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v78 main_v79 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v77 main_v79 main_v80 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v73 main_v80 main_v81 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v82 ((extractStridedSlice S8x512x64x64 ![0, 0, 1, 3] · slices_S8x512x70x70_S8x512x64x64_0_0_1_3) : (⟨S8x512x70x70, .f32⟩ : BufTy).Contents (Elt F) → (⟨S8x512x64x64, .f32⟩ : BufTy).Contents (Elt F)),
    unary main_arg1 main_v83 ((extractStridedSlice S8x8x1x1x64x64 ![0, 0, 1, 3, 0, 0] · slices_S8x8x7x7x64x64_S8x8x1x1x64x64_0_0_1_3_0_0) : (⟨S8x8x7x7x64x64, .f32⟩ : BufTy).Contents (Elt F) → (⟨S8x8x1x1x64x64, .f32⟩ : BufTy).Contents (Elt F)),
    reshape main_v83 main_v84 rfl shapeCasts_S8x8x1x1x64x64_S8x8x64x64,
    reshape main_v82 main_v85 rfl shapeCasts_S8x512x64x64_S8x8x64x64x64,
    unary main_v84 main_v86 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v86 main_v87 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v85 main_v87 main_v88 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v81 main_v88 main_v89 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v90 ((extractStridedSlice S8x512x64x64 ![0, 0, 1, 4] · slices_S8x512x70x70_S8x512x64x64_0_0_1_4) : (⟨S8x512x70x70, .f32⟩ : BufTy).Contents (Elt F) → (⟨S8x512x64x64, .f32⟩ : BufTy).Contents (Elt F)),
    unary main_arg1 main_v91 ((extractStridedSlice S8x8x1x1x64x64 ![0, 0, 1, 4, 0, 0] · slices_S8x8x7x7x64x64_S8x8x1x1x64x64_0_0_1_4_0_0) : (⟨S8x8x7x7x64x64, .f32⟩ : BufTy).Contents (Elt F) → (⟨S8x8x1x1x64x64, .f32⟩ : BufTy).Contents (Elt F)),
    reshape main_v91 main_v92 rfl shapeCasts_S8x8x1x1x64x64_S8x8x64x64,
    reshape main_v90 main_v93 rfl shapeCasts_S8x512x64x64_S8x8x64x64x64,
    unary main_v92 main_v94 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v94 main_v95 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v93 main_v95 main_v96 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v89 main_v96 main_v97 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v98 ((extractStridedSlice S8x512x64x64 ![0, 0, 1, 5] · slices_S8x512x70x70_S8x512x64x64_0_0_1_5) : (⟨S8x512x70x70, .f32⟩ : BufTy).Contents (Elt F) → (⟨S8x512x64x64, .f32⟩ : BufTy).Contents (Elt F)),
    unary main_arg1 main_v99 ((extractStridedSlice S8x8x1x1x64x64 ![0, 0, 1, 5, 0, 0] · slices_S8x8x7x7x64x64_S8x8x1x1x64x64_0_0_1_5_0_0) : (⟨S8x8x7x7x64x64, .f32⟩ : BufTy).Contents (Elt F) → (⟨S8x8x1x1x64x64, .f32⟩ : BufTy).Contents (Elt F)),
    reshape main_v99 main_v100 rfl shapeCasts_S8x8x1x1x64x64_S8x8x64x64,
    reshape main_v98 main_v101 rfl shapeCasts_S8x512x64x64_S8x8x64x64x64,
    unary main_v100 main_v102 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v102 main_v103 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v101 main_v103 main_v104 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v97 main_v104 main_v105 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v106 ((extractStridedSlice S8x512x64x64 ![0, 0, 1, 6] · slices_S8x512x70x70_S8x512x64x64_0_0_1_6) : (⟨S8x512x70x70, .f32⟩ : BufTy).Contents (Elt F) → (⟨S8x512x64x64, .f32⟩ : BufTy).Contents (Elt F)),
    unary main_arg1 main_v107 ((extractStridedSlice S8x8x1x1x64x64 ![0, 0, 1, 6, 0, 0] · slices_S8x8x7x7x64x64_S8x8x1x1x64x64_0_0_1_6_0_0) : (⟨S8x8x7x7x64x64, .f32⟩ : BufTy).Contents (Elt F) → (⟨S8x8x1x1x64x64, .f32⟩ : BufTy).Contents (Elt F)),
    reshape main_v107 main_v108 rfl shapeCasts_S8x8x1x1x64x64_S8x8x64x64,
    reshape main_v106 main_v109 rfl shapeCasts_S8x512x64x64_S8x8x64x64x64,
    unary main_v108 main_v110 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v110 main_v111 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v109 main_v111 main_v112 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v105 main_v112 main_v113 (addf : (⟨S8x8x64x64x64, .f32⟩ : BufTy).Contents (Elt F) → (⟨S8x8x64x64x64, .f32⟩ : BufTy).Contents (Elt F) → (⟨S8x8x64x64x64, .f32⟩ : BufTy).Contents (Elt F)) ]

/-- Stencil row kh = 2: the seven taps (2, 0) … (2, 6), each added onto the accumulator. -/
abbrev opsRow2 : List (HloOp τ sig (Elt F)) :=
  [ unary main_v0 main_v114 ((extractStridedSlice S8x512x64x64 ![0, 0, 2, 0] · slices_S8x512x70x70_S8x512x64x64_0_0_2_0) : (⟨S8x512x70x70, .f32⟩ : BufTy).Contents (Elt F) → (⟨S8x512x64x64, .f32⟩ : BufTy).Contents (Elt F)),
    unary main_arg1 main_v115 ((extractStridedSlice S8x8x1x1x64x64 ![0, 0, 2, 0, 0, 0] · slices_S8x8x7x7x64x64_S8x8x1x1x64x64_0_0_2_0_0_0) : (⟨S8x8x7x7x64x64, .f32⟩ : BufTy).Contents (Elt F) → (⟨S8x8x1x1x64x64, .f32⟩ : BufTy).Contents (Elt F)),
    reshape main_v115 main_v116 rfl shapeCasts_S8x8x1x1x64x64_S8x8x64x64,
    reshape main_v114 main_v117 rfl shapeCasts_S8x512x64x64_S8x8x64x64x64,
    unary main_v116 main_v118 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v118 main_v119 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v117 main_v119 main_v120 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v113 main_v120 main_v121 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v122 ((extractStridedSlice S8x512x64x64 ![0, 0, 2, 1] · slices_S8x512x70x70_S8x512x64x64_0_0_2_1) : (⟨S8x512x70x70, .f32⟩ : BufTy).Contents (Elt F) → (⟨S8x512x64x64, .f32⟩ : BufTy).Contents (Elt F)),
    unary main_arg1 main_v123 ((extractStridedSlice S8x8x1x1x64x64 ![0, 0, 2, 1, 0, 0] · slices_S8x8x7x7x64x64_S8x8x1x1x64x64_0_0_2_1_0_0) : (⟨S8x8x7x7x64x64, .f32⟩ : BufTy).Contents (Elt F) → (⟨S8x8x1x1x64x64, .f32⟩ : BufTy).Contents (Elt F)),
    reshape main_v123 main_v124 rfl shapeCasts_S8x8x1x1x64x64_S8x8x64x64,
    reshape main_v122 main_v125 rfl shapeCasts_S8x512x64x64_S8x8x64x64x64,
    unary main_v124 main_v126 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v126 main_v127 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v125 main_v127 main_v128 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v121 main_v128 main_v129 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v130 ((extractStridedSlice S8x512x64x64 ![0, 0, 2, 2] · slices_S8x512x70x70_S8x512x64x64_0_0_2_2) : (⟨S8x512x70x70, .f32⟩ : BufTy).Contents (Elt F) → (⟨S8x512x64x64, .f32⟩ : BufTy).Contents (Elt F)),
    unary main_arg1 main_v131 ((extractStridedSlice S8x8x1x1x64x64 ![0, 0, 2, 2, 0, 0] · slices_S8x8x7x7x64x64_S8x8x1x1x64x64_0_0_2_2_0_0) : (⟨S8x8x7x7x64x64, .f32⟩ : BufTy).Contents (Elt F) → (⟨S8x8x1x1x64x64, .f32⟩ : BufTy).Contents (Elt F)),
    reshape main_v131 main_v132 rfl shapeCasts_S8x8x1x1x64x64_S8x8x64x64,
    reshape main_v130 main_v133 rfl shapeCasts_S8x512x64x64_S8x8x64x64x64,
    unary main_v132 main_v134 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v134 main_v135 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v133 main_v135 main_v136 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v129 main_v136 main_v137 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v138 ((extractStridedSlice S8x512x64x64 ![0, 0, 2, 3] · slices_S8x512x70x70_S8x512x64x64_0_0_2_3) : (⟨S8x512x70x70, .f32⟩ : BufTy).Contents (Elt F) → (⟨S8x512x64x64, .f32⟩ : BufTy).Contents (Elt F)),
    unary main_arg1 main_v139 ((extractStridedSlice S8x8x1x1x64x64 ![0, 0, 2, 3, 0, 0] · slices_S8x8x7x7x64x64_S8x8x1x1x64x64_0_0_2_3_0_0) : (⟨S8x8x7x7x64x64, .f32⟩ : BufTy).Contents (Elt F) → (⟨S8x8x1x1x64x64, .f32⟩ : BufTy).Contents (Elt F)),
    reshape main_v139 main_v140 rfl shapeCasts_S8x8x1x1x64x64_S8x8x64x64,
    reshape main_v138 main_v141 rfl shapeCasts_S8x512x64x64_S8x8x64x64x64,
    unary main_v140 main_v142 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v142 main_v143 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v141 main_v143 main_v144 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v137 main_v144 main_v145 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v146 ((extractStridedSlice S8x512x64x64 ![0, 0, 2, 4] · slices_S8x512x70x70_S8x512x64x64_0_0_2_4) : (⟨S8x512x70x70, .f32⟩ : BufTy).Contents (Elt F) → (⟨S8x512x64x64, .f32⟩ : BufTy).Contents (Elt F)),
    unary main_arg1 main_v147 ((extractStridedSlice S8x8x1x1x64x64 ![0, 0, 2, 4, 0, 0] · slices_S8x8x7x7x64x64_S8x8x1x1x64x64_0_0_2_4_0_0) : (⟨S8x8x7x7x64x64, .f32⟩ : BufTy).Contents (Elt F) → (⟨S8x8x1x1x64x64, .f32⟩ : BufTy).Contents (Elt F)),
    reshape main_v147 main_v148 rfl shapeCasts_S8x8x1x1x64x64_S8x8x64x64,
    reshape main_v146 main_v149 rfl shapeCasts_S8x512x64x64_S8x8x64x64x64,
    unary main_v148 main_v150 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v150 main_v151 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v149 main_v151 main_v152 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v145 main_v152 main_v153 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v154 ((extractStridedSlice S8x512x64x64 ![0, 0, 2, 5] · slices_S8x512x70x70_S8x512x64x64_0_0_2_5) : (⟨S8x512x70x70, .f32⟩ : BufTy).Contents (Elt F) → (⟨S8x512x64x64, .f32⟩ : BufTy).Contents (Elt F)),
    unary main_arg1 main_v155 ((extractStridedSlice S8x8x1x1x64x64 ![0, 0, 2, 5, 0, 0] · slices_S8x8x7x7x64x64_S8x8x1x1x64x64_0_0_2_5_0_0) : (⟨S8x8x7x7x64x64, .f32⟩ : BufTy).Contents (Elt F) → (⟨S8x8x1x1x64x64, .f32⟩ : BufTy).Contents (Elt F)),
    reshape main_v155 main_v156 rfl shapeCasts_S8x8x1x1x64x64_S8x8x64x64,
    reshape main_v154 main_v157 rfl shapeCasts_S8x512x64x64_S8x8x64x64x64,
    unary main_v156 main_v158 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v158 main_v159 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v157 main_v159 main_v160 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v153 main_v160 main_v161 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v162 ((extractStridedSlice S8x512x64x64 ![0, 0, 2, 6] · slices_S8x512x70x70_S8x512x64x64_0_0_2_6) : (⟨S8x512x70x70, .f32⟩ : BufTy).Contents (Elt F) → (⟨S8x512x64x64, .f32⟩ : BufTy).Contents (Elt F)),
    unary main_arg1 main_v163 ((extractStridedSlice S8x8x1x1x64x64 ![0, 0, 2, 6, 0, 0] · slices_S8x8x7x7x64x64_S8x8x1x1x64x64_0_0_2_6_0_0) : (⟨S8x8x7x7x64x64, .f32⟩ : BufTy).Contents (Elt F) → (⟨S8x8x1x1x64x64, .f32⟩ : BufTy).Contents (Elt F)),
    reshape main_v163 main_v164 rfl shapeCasts_S8x8x1x1x64x64_S8x8x64x64,
    reshape main_v162 main_v165 rfl shapeCasts_S8x512x64x64_S8x8x64x64x64,
    unary main_v164 main_v166 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v166 main_v167 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v165 main_v167 main_v168 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v161 main_v168 main_v169 (addf : (⟨S8x8x64x64x64, .f32⟩ : BufTy).Contents (Elt F) → (⟨S8x8x64x64x64, .f32⟩ : BufTy).Contents (Elt F) → (⟨S8x8x64x64x64, .f32⟩ : BufTy).Contents (Elt F)) ]

/-- Stencil row kh = 3: the seven taps (3, 0) … (3, 6), each added onto the accumulator. -/
abbrev opsRow3 : List (HloOp τ sig (Elt F)) :=
  [ unary main_v0 main_v170 ((extractStridedSlice S8x512x64x64 ![0, 0, 3, 0] · slices_S8x512x70x70_S8x512x64x64_0_0_3_0) : (⟨S8x512x70x70, .f32⟩ : BufTy).Contents (Elt F) → (⟨S8x512x64x64, .f32⟩ : BufTy).Contents (Elt F)),
    unary main_arg1 main_v171 ((extractStridedSlice S8x8x1x1x64x64 ![0, 0, 3, 0, 0, 0] · slices_S8x8x7x7x64x64_S8x8x1x1x64x64_0_0_3_0_0_0) : (⟨S8x8x7x7x64x64, .f32⟩ : BufTy).Contents (Elt F) → (⟨S8x8x1x1x64x64, .f32⟩ : BufTy).Contents (Elt F)),
    reshape main_v171 main_v172 rfl shapeCasts_S8x8x1x1x64x64_S8x8x64x64,
    reshape main_v170 main_v173 rfl shapeCasts_S8x512x64x64_S8x8x64x64x64,
    unary main_v172 main_v174 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v174 main_v175 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v173 main_v175 main_v176 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v169 main_v176 main_v177 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v178 ((extractStridedSlice S8x512x64x64 ![0, 0, 3, 1] · slices_S8x512x70x70_S8x512x64x64_0_0_3_1) : (⟨S8x512x70x70, .f32⟩ : BufTy).Contents (Elt F) → (⟨S8x512x64x64, .f32⟩ : BufTy).Contents (Elt F)),
    unary main_arg1 main_v179 ((extractStridedSlice S8x8x1x1x64x64 ![0, 0, 3, 1, 0, 0] · slices_S8x8x7x7x64x64_S8x8x1x1x64x64_0_0_3_1_0_0) : (⟨S8x8x7x7x64x64, .f32⟩ : BufTy).Contents (Elt F) → (⟨S8x8x1x1x64x64, .f32⟩ : BufTy).Contents (Elt F)),
    reshape main_v179 main_v180 rfl shapeCasts_S8x8x1x1x64x64_S8x8x64x64,
    reshape main_v178 main_v181 rfl shapeCasts_S8x512x64x64_S8x8x64x64x64,
    unary main_v180 main_v182 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v182 main_v183 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v181 main_v183 main_v184 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v177 main_v184 main_v185 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v186 ((extractStridedSlice S8x512x64x64 ![0, 0, 3, 2] · slices_S8x512x70x70_S8x512x64x64_0_0_3_2) : (⟨S8x512x70x70, .f32⟩ : BufTy).Contents (Elt F) → (⟨S8x512x64x64, .f32⟩ : BufTy).Contents (Elt F)),
    unary main_arg1 main_v187 ((extractStridedSlice S8x8x1x1x64x64 ![0, 0, 3, 2, 0, 0] · slices_S8x8x7x7x64x64_S8x8x1x1x64x64_0_0_3_2_0_0) : (⟨S8x8x7x7x64x64, .f32⟩ : BufTy).Contents (Elt F) → (⟨S8x8x1x1x64x64, .f32⟩ : BufTy).Contents (Elt F)),
    reshape main_v187 main_v188 rfl shapeCasts_S8x8x1x1x64x64_S8x8x64x64,
    reshape main_v186 main_v189 rfl shapeCasts_S8x512x64x64_S8x8x64x64x64,
    unary main_v188 main_v190 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v190 main_v191 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v189 main_v191 main_v192 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v185 main_v192 main_v193 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v194 ((extractStridedSlice S8x512x64x64 ![0, 0, 3, 3] · slices_S8x512x70x70_S8x512x64x64_0_0_3_3) : (⟨S8x512x70x70, .f32⟩ : BufTy).Contents (Elt F) → (⟨S8x512x64x64, .f32⟩ : BufTy).Contents (Elt F)),
    unary main_arg1 main_v195 ((extractStridedSlice S8x8x1x1x64x64 ![0, 0, 3, 3, 0, 0] · slices_S8x8x7x7x64x64_S8x8x1x1x64x64_0_0_3_3_0_0) : (⟨S8x8x7x7x64x64, .f32⟩ : BufTy).Contents (Elt F) → (⟨S8x8x1x1x64x64, .f32⟩ : BufTy).Contents (Elt F)),
    reshape main_v195 main_v196 rfl shapeCasts_S8x8x1x1x64x64_S8x8x64x64,
    reshape main_v194 main_v197 rfl shapeCasts_S8x512x64x64_S8x8x64x64x64,
    unary main_v196 main_v198 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v198 main_v199 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v197 main_v199 main_v200 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v193 main_v200 main_v201 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v202 ((extractStridedSlice S8x512x64x64 ![0, 0, 3, 4] · slices_S8x512x70x70_S8x512x64x64_0_0_3_4) : (⟨S8x512x70x70, .f32⟩ : BufTy).Contents (Elt F) → (⟨S8x512x64x64, .f32⟩ : BufTy).Contents (Elt F)),
    unary main_arg1 main_v203 ((extractStridedSlice S8x8x1x1x64x64 ![0, 0, 3, 4, 0, 0] · slices_S8x8x7x7x64x64_S8x8x1x1x64x64_0_0_3_4_0_0) : (⟨S8x8x7x7x64x64, .f32⟩ : BufTy).Contents (Elt F) → (⟨S8x8x1x1x64x64, .f32⟩ : BufTy).Contents (Elt F)),
    reshape main_v203 main_v204 rfl shapeCasts_S8x8x1x1x64x64_S8x8x64x64,
    reshape main_v202 main_v205 rfl shapeCasts_S8x512x64x64_S8x8x64x64x64,
    unary main_v204 main_v206 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v206 main_v207 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v205 main_v207 main_v208 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v201 main_v208 main_v209 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v210 ((extractStridedSlice S8x512x64x64 ![0, 0, 3, 5] · slices_S8x512x70x70_S8x512x64x64_0_0_3_5) : (⟨S8x512x70x70, .f32⟩ : BufTy).Contents (Elt F) → (⟨S8x512x64x64, .f32⟩ : BufTy).Contents (Elt F)),
    unary main_arg1 main_v211 ((extractStridedSlice S8x8x1x1x64x64 ![0, 0, 3, 5, 0, 0] · slices_S8x8x7x7x64x64_S8x8x1x1x64x64_0_0_3_5_0_0) : (⟨S8x8x7x7x64x64, .f32⟩ : BufTy).Contents (Elt F) → (⟨S8x8x1x1x64x64, .f32⟩ : BufTy).Contents (Elt F)),
    reshape main_v211 main_v212 rfl shapeCasts_S8x8x1x1x64x64_S8x8x64x64,
    reshape main_v210 main_v213 rfl shapeCasts_S8x512x64x64_S8x8x64x64x64,
    unary main_v212 main_v214 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v214 main_v215 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v213 main_v215 main_v216 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v209 main_v216 main_v217 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v218 ((extractStridedSlice S8x512x64x64 ![0, 0, 3, 6] · slices_S8x512x70x70_S8x512x64x64_0_0_3_6) : (⟨S8x512x70x70, .f32⟩ : BufTy).Contents (Elt F) → (⟨S8x512x64x64, .f32⟩ : BufTy).Contents (Elt F)),
    unary main_arg1 main_v219 ((extractStridedSlice S8x8x1x1x64x64 ![0, 0, 3, 6, 0, 0] · slices_S8x8x7x7x64x64_S8x8x1x1x64x64_0_0_3_6_0_0) : (⟨S8x8x7x7x64x64, .f32⟩ : BufTy).Contents (Elt F) → (⟨S8x8x1x1x64x64, .f32⟩ : BufTy).Contents (Elt F)),
    reshape main_v219 main_v220 rfl shapeCasts_S8x8x1x1x64x64_S8x8x64x64,
    reshape main_v218 main_v221 rfl shapeCasts_S8x512x64x64_S8x8x64x64x64,
    unary main_v220 main_v222 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v222 main_v223 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v221 main_v223 main_v224 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v217 main_v224 main_v225 (addf : (⟨S8x8x64x64x64, .f32⟩ : BufTy).Contents (Elt F) → (⟨S8x8x64x64x64, .f32⟩ : BufTy).Contents (Elt F) → (⟨S8x8x64x64x64, .f32⟩ : BufTy).Contents (Elt F)) ]

/-- Stencil row kh = 4: the seven taps (4, 0) … (4, 6), each added onto the accumulator. -/
abbrev opsRow4 : List (HloOp τ sig (Elt F)) :=
  [ unary main_v0 main_v226 ((extractStridedSlice S8x512x64x64 ![0, 0, 4, 0] · slices_S8x512x70x70_S8x512x64x64_0_0_4_0) : (⟨S8x512x70x70, .f32⟩ : BufTy).Contents (Elt F) → (⟨S8x512x64x64, .f32⟩ : BufTy).Contents (Elt F)),
    unary main_arg1 main_v227 ((extractStridedSlice S8x8x1x1x64x64 ![0, 0, 4, 0, 0, 0] · slices_S8x8x7x7x64x64_S8x8x1x1x64x64_0_0_4_0_0_0) : (⟨S8x8x7x7x64x64, .f32⟩ : BufTy).Contents (Elt F) → (⟨S8x8x1x1x64x64, .f32⟩ : BufTy).Contents (Elt F)),
    reshape main_v227 main_v228 rfl shapeCasts_S8x8x1x1x64x64_S8x8x64x64,
    reshape main_v226 main_v229 rfl shapeCasts_S8x512x64x64_S8x8x64x64x64,
    unary main_v228 main_v230 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v230 main_v231 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v229 main_v231 main_v232 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v225 main_v232 main_v233 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v234 ((extractStridedSlice S8x512x64x64 ![0, 0, 4, 1] · slices_S8x512x70x70_S8x512x64x64_0_0_4_1) : (⟨S8x512x70x70, .f32⟩ : BufTy).Contents (Elt F) → (⟨S8x512x64x64, .f32⟩ : BufTy).Contents (Elt F)),
    unary main_arg1 main_v235 ((extractStridedSlice S8x8x1x1x64x64 ![0, 0, 4, 1, 0, 0] · slices_S8x8x7x7x64x64_S8x8x1x1x64x64_0_0_4_1_0_0) : (⟨S8x8x7x7x64x64, .f32⟩ : BufTy).Contents (Elt F) → (⟨S8x8x1x1x64x64, .f32⟩ : BufTy).Contents (Elt F)),
    reshape main_v235 main_v236 rfl shapeCasts_S8x8x1x1x64x64_S8x8x64x64,
    reshape main_v234 main_v237 rfl shapeCasts_S8x512x64x64_S8x8x64x64x64,
    unary main_v236 main_v238 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v238 main_v239 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v237 main_v239 main_v240 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v233 main_v240 main_v241 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v242 ((extractStridedSlice S8x512x64x64 ![0, 0, 4, 2] · slices_S8x512x70x70_S8x512x64x64_0_0_4_2) : (⟨S8x512x70x70, .f32⟩ : BufTy).Contents (Elt F) → (⟨S8x512x64x64, .f32⟩ : BufTy).Contents (Elt F)),
    unary main_arg1 main_v243 ((extractStridedSlice S8x8x1x1x64x64 ![0, 0, 4, 2, 0, 0] · slices_S8x8x7x7x64x64_S8x8x1x1x64x64_0_0_4_2_0_0) : (⟨S8x8x7x7x64x64, .f32⟩ : BufTy).Contents (Elt F) → (⟨S8x8x1x1x64x64, .f32⟩ : BufTy).Contents (Elt F)),
    reshape main_v243 main_v244 rfl shapeCasts_S8x8x1x1x64x64_S8x8x64x64,
    reshape main_v242 main_v245 rfl shapeCasts_S8x512x64x64_S8x8x64x64x64,
    unary main_v244 main_v246 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v246 main_v247 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v245 main_v247 main_v248 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v241 main_v248 main_v249 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v250 ((extractStridedSlice S8x512x64x64 ![0, 0, 4, 3] · slices_S8x512x70x70_S8x512x64x64_0_0_4_3) : (⟨S8x512x70x70, .f32⟩ : BufTy).Contents (Elt F) → (⟨S8x512x64x64, .f32⟩ : BufTy).Contents (Elt F)),
    unary main_arg1 main_v251 ((extractStridedSlice S8x8x1x1x64x64 ![0, 0, 4, 3, 0, 0] · slices_S8x8x7x7x64x64_S8x8x1x1x64x64_0_0_4_3_0_0) : (⟨S8x8x7x7x64x64, .f32⟩ : BufTy).Contents (Elt F) → (⟨S8x8x1x1x64x64, .f32⟩ : BufTy).Contents (Elt F)),
    reshape main_v251 main_v252 rfl shapeCasts_S8x8x1x1x64x64_S8x8x64x64,
    reshape main_v250 main_v253 rfl shapeCasts_S8x512x64x64_S8x8x64x64x64,
    unary main_v252 main_v254 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v254 main_v255 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v253 main_v255 main_v256 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v249 main_v256 main_v257 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v258 ((extractStridedSlice S8x512x64x64 ![0, 0, 4, 4] · slices_S8x512x70x70_S8x512x64x64_0_0_4_4) : (⟨S8x512x70x70, .f32⟩ : BufTy).Contents (Elt F) → (⟨S8x512x64x64, .f32⟩ : BufTy).Contents (Elt F)),
    unary main_arg1 main_v259 ((extractStridedSlice S8x8x1x1x64x64 ![0, 0, 4, 4, 0, 0] · slices_S8x8x7x7x64x64_S8x8x1x1x64x64_0_0_4_4_0_0) : (⟨S8x8x7x7x64x64, .f32⟩ : BufTy).Contents (Elt F) → (⟨S8x8x1x1x64x64, .f32⟩ : BufTy).Contents (Elt F)),
    reshape main_v259 main_v260 rfl shapeCasts_S8x8x1x1x64x64_S8x8x64x64,
    reshape main_v258 main_v261 rfl shapeCasts_S8x512x64x64_S8x8x64x64x64,
    unary main_v260 main_v262 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v262 main_v263 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v261 main_v263 main_v264 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v257 main_v264 main_v265 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v266 ((extractStridedSlice S8x512x64x64 ![0, 0, 4, 5] · slices_S8x512x70x70_S8x512x64x64_0_0_4_5) : (⟨S8x512x70x70, .f32⟩ : BufTy).Contents (Elt F) → (⟨S8x512x64x64, .f32⟩ : BufTy).Contents (Elt F)),
    unary main_arg1 main_v267 ((extractStridedSlice S8x8x1x1x64x64 ![0, 0, 4, 5, 0, 0] · slices_S8x8x7x7x64x64_S8x8x1x1x64x64_0_0_4_5_0_0) : (⟨S8x8x7x7x64x64, .f32⟩ : BufTy).Contents (Elt F) → (⟨S8x8x1x1x64x64, .f32⟩ : BufTy).Contents (Elt F)),
    reshape main_v267 main_v268 rfl shapeCasts_S8x8x1x1x64x64_S8x8x64x64,
    reshape main_v266 main_v269 rfl shapeCasts_S8x512x64x64_S8x8x64x64x64,
    unary main_v268 main_v270 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v270 main_v271 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v269 main_v271 main_v272 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v265 main_v272 main_v273 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v274 ((extractStridedSlice S8x512x64x64 ![0, 0, 4, 6] · slices_S8x512x70x70_S8x512x64x64_0_0_4_6) : (⟨S8x512x70x70, .f32⟩ : BufTy).Contents (Elt F) → (⟨S8x512x64x64, .f32⟩ : BufTy).Contents (Elt F)),
    unary main_arg1 main_v275 ((extractStridedSlice S8x8x1x1x64x64 ![0, 0, 4, 6, 0, 0] · slices_S8x8x7x7x64x64_S8x8x1x1x64x64_0_0_4_6_0_0) : (⟨S8x8x7x7x64x64, .f32⟩ : BufTy).Contents (Elt F) → (⟨S8x8x1x1x64x64, .f32⟩ : BufTy).Contents (Elt F)),
    reshape main_v275 main_v276 rfl shapeCasts_S8x8x1x1x64x64_S8x8x64x64,
    reshape main_v274 main_v277 rfl shapeCasts_S8x512x64x64_S8x8x64x64x64,
    unary main_v276 main_v278 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v278 main_v279 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v277 main_v279 main_v280 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v273 main_v280 main_v281 (addf : (⟨S8x8x64x64x64, .f32⟩ : BufTy).Contents (Elt F) → (⟨S8x8x64x64x64, .f32⟩ : BufTy).Contents (Elt F) → (⟨S8x8x64x64x64, .f32⟩ : BufTy).Contents (Elt F)) ]

/-- Stencil row kh = 5: the seven taps (5, 0) … (5, 6), each added onto the accumulator. -/
abbrev opsRow5 : List (HloOp τ sig (Elt F)) :=
  [ unary main_v0 main_v282 ((extractStridedSlice S8x512x64x64 ![0, 0, 5, 0] · slices_S8x512x70x70_S8x512x64x64_0_0_5_0) : (⟨S8x512x70x70, .f32⟩ : BufTy).Contents (Elt F) → (⟨S8x512x64x64, .f32⟩ : BufTy).Contents (Elt F)),
    unary main_arg1 main_v283 ((extractStridedSlice S8x8x1x1x64x64 ![0, 0, 5, 0, 0, 0] · slices_S8x8x7x7x64x64_S8x8x1x1x64x64_0_0_5_0_0_0) : (⟨S8x8x7x7x64x64, .f32⟩ : BufTy).Contents (Elt F) → (⟨S8x8x1x1x64x64, .f32⟩ : BufTy).Contents (Elt F)),
    reshape main_v283 main_v284 rfl shapeCasts_S8x8x1x1x64x64_S8x8x64x64,
    reshape main_v282 main_v285 rfl shapeCasts_S8x512x64x64_S8x8x64x64x64,
    unary main_v284 main_v286 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v286 main_v287 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v285 main_v287 main_v288 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v281 main_v288 main_v289 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v290 ((extractStridedSlice S8x512x64x64 ![0, 0, 5, 1] · slices_S8x512x70x70_S8x512x64x64_0_0_5_1) : (⟨S8x512x70x70, .f32⟩ : BufTy).Contents (Elt F) → (⟨S8x512x64x64, .f32⟩ : BufTy).Contents (Elt F)),
    unary main_arg1 main_v291 ((extractStridedSlice S8x8x1x1x64x64 ![0, 0, 5, 1, 0, 0] · slices_S8x8x7x7x64x64_S8x8x1x1x64x64_0_0_5_1_0_0) : (⟨S8x8x7x7x64x64, .f32⟩ : BufTy).Contents (Elt F) → (⟨S8x8x1x1x64x64, .f32⟩ : BufTy).Contents (Elt F)),
    reshape main_v291 main_v292 rfl shapeCasts_S8x8x1x1x64x64_S8x8x64x64,
    reshape main_v290 main_v293 rfl shapeCasts_S8x512x64x64_S8x8x64x64x64,
    unary main_v292 main_v294 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v294 main_v295 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v293 main_v295 main_v296 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v289 main_v296 main_v297 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v298 ((extractStridedSlice S8x512x64x64 ![0, 0, 5, 2] · slices_S8x512x70x70_S8x512x64x64_0_0_5_2) : (⟨S8x512x70x70, .f32⟩ : BufTy).Contents (Elt F) → (⟨S8x512x64x64, .f32⟩ : BufTy).Contents (Elt F)),
    unary main_arg1 main_v299 ((extractStridedSlice S8x8x1x1x64x64 ![0, 0, 5, 2, 0, 0] · slices_S8x8x7x7x64x64_S8x8x1x1x64x64_0_0_5_2_0_0) : (⟨S8x8x7x7x64x64, .f32⟩ : BufTy).Contents (Elt F) → (⟨S8x8x1x1x64x64, .f32⟩ : BufTy).Contents (Elt F)),
    reshape main_v299 main_v300 rfl shapeCasts_S8x8x1x1x64x64_S8x8x64x64,
    reshape main_v298 main_v301 rfl shapeCasts_S8x512x64x64_S8x8x64x64x64,
    unary main_v300 main_v302 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v302 main_v303 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v301 main_v303 main_v304 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v297 main_v304 main_v305 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v306 ((extractStridedSlice S8x512x64x64 ![0, 0, 5, 3] · slices_S8x512x70x70_S8x512x64x64_0_0_5_3) : (⟨S8x512x70x70, .f32⟩ : BufTy).Contents (Elt F) → (⟨S8x512x64x64, .f32⟩ : BufTy).Contents (Elt F)),
    unary main_arg1 main_v307 ((extractStridedSlice S8x8x1x1x64x64 ![0, 0, 5, 3, 0, 0] · slices_S8x8x7x7x64x64_S8x8x1x1x64x64_0_0_5_3_0_0) : (⟨S8x8x7x7x64x64, .f32⟩ : BufTy).Contents (Elt F) → (⟨S8x8x1x1x64x64, .f32⟩ : BufTy).Contents (Elt F)),
    reshape main_v307 main_v308 rfl shapeCasts_S8x8x1x1x64x64_S8x8x64x64,
    reshape main_v306 main_v309 rfl shapeCasts_S8x512x64x64_S8x8x64x64x64,
    unary main_v308 main_v310 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v310 main_v311 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v309 main_v311 main_v312 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v305 main_v312 main_v313 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v314 ((extractStridedSlice S8x512x64x64 ![0, 0, 5, 4] · slices_S8x512x70x70_S8x512x64x64_0_0_5_4) : (⟨S8x512x70x70, .f32⟩ : BufTy).Contents (Elt F) → (⟨S8x512x64x64, .f32⟩ : BufTy).Contents (Elt F)),
    unary main_arg1 main_v315 ((extractStridedSlice S8x8x1x1x64x64 ![0, 0, 5, 4, 0, 0] · slices_S8x8x7x7x64x64_S8x8x1x1x64x64_0_0_5_4_0_0) : (⟨S8x8x7x7x64x64, .f32⟩ : BufTy).Contents (Elt F) → (⟨S8x8x1x1x64x64, .f32⟩ : BufTy).Contents (Elt F)),
    reshape main_v315 main_v316 rfl shapeCasts_S8x8x1x1x64x64_S8x8x64x64,
    reshape main_v314 main_v317 rfl shapeCasts_S8x512x64x64_S8x8x64x64x64,
    unary main_v316 main_v318 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v318 main_v319 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v317 main_v319 main_v320 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v313 main_v320 main_v321 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v322 ((extractStridedSlice S8x512x64x64 ![0, 0, 5, 5] · slices_S8x512x70x70_S8x512x64x64_0_0_5_5) : (⟨S8x512x70x70, .f32⟩ : BufTy).Contents (Elt F) → (⟨S8x512x64x64, .f32⟩ : BufTy).Contents (Elt F)),
    unary main_arg1 main_v323 ((extractStridedSlice S8x8x1x1x64x64 ![0, 0, 5, 5, 0, 0] · slices_S8x8x7x7x64x64_S8x8x1x1x64x64_0_0_5_5_0_0) : (⟨S8x8x7x7x64x64, .f32⟩ : BufTy).Contents (Elt F) → (⟨S8x8x1x1x64x64, .f32⟩ : BufTy).Contents (Elt F)),
    reshape main_v323 main_v324 rfl shapeCasts_S8x8x1x1x64x64_S8x8x64x64,
    reshape main_v322 main_v325 rfl shapeCasts_S8x512x64x64_S8x8x64x64x64,
    unary main_v324 main_v326 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v326 main_v327 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v325 main_v327 main_v328 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v321 main_v328 main_v329 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v330 ((extractStridedSlice S8x512x64x64 ![0, 0, 5, 6] · slices_S8x512x70x70_S8x512x64x64_0_0_5_6) : (⟨S8x512x70x70, .f32⟩ : BufTy).Contents (Elt F) → (⟨S8x512x64x64, .f32⟩ : BufTy).Contents (Elt F)),
    unary main_arg1 main_v331 ((extractStridedSlice S8x8x1x1x64x64 ![0, 0, 5, 6, 0, 0] · slices_S8x8x7x7x64x64_S8x8x1x1x64x64_0_0_5_6_0_0) : (⟨S8x8x7x7x64x64, .f32⟩ : BufTy).Contents (Elt F) → (⟨S8x8x1x1x64x64, .f32⟩ : BufTy).Contents (Elt F)),
    reshape main_v331 main_v332 rfl shapeCasts_S8x8x1x1x64x64_S8x8x64x64,
    reshape main_v330 main_v333 rfl shapeCasts_S8x512x64x64_S8x8x64x64x64,
    unary main_v332 main_v334 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v334 main_v335 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v333 main_v335 main_v336 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v329 main_v336 main_v337 (addf : (⟨S8x8x64x64x64, .f32⟩ : BufTy).Contents (Elt F) → (⟨S8x8x64x64x64, .f32⟩ : BufTy).Contents (Elt F) → (⟨S8x8x64x64x64, .f32⟩ : BufTy).Contents (Elt F)) ]

/-- Stencil row kh = 6: the seven taps (6, 0) … (6, 6), each added onto the accumulator. -/
abbrev opsRow6 : List (HloOp τ sig (Elt F)) :=
  [ unary main_v0 main_v338 ((extractStridedSlice S8x512x64x64 ![0, 0, 6, 0] · slices_S8x512x70x70_S8x512x64x64_0_0_6_0) : (⟨S8x512x70x70, .f32⟩ : BufTy).Contents (Elt F) → (⟨S8x512x64x64, .f32⟩ : BufTy).Contents (Elt F)),
    unary main_arg1 main_v339 ((extractStridedSlice S8x8x1x1x64x64 ![0, 0, 6, 0, 0, 0] · slices_S8x8x7x7x64x64_S8x8x1x1x64x64_0_0_6_0_0_0) : (⟨S8x8x7x7x64x64, .f32⟩ : BufTy).Contents (Elt F) → (⟨S8x8x1x1x64x64, .f32⟩ : BufTy).Contents (Elt F)),
    reshape main_v339 main_v340 rfl shapeCasts_S8x8x1x1x64x64_S8x8x64x64,
    reshape main_v338 main_v341 rfl shapeCasts_S8x512x64x64_S8x8x64x64x64,
    unary main_v340 main_v342 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v342 main_v343 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v341 main_v343 main_v344 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v337 main_v344 main_v345 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v346 ((extractStridedSlice S8x512x64x64 ![0, 0, 6, 1] · slices_S8x512x70x70_S8x512x64x64_0_0_6_1) : (⟨S8x512x70x70, .f32⟩ : BufTy).Contents (Elt F) → (⟨S8x512x64x64, .f32⟩ : BufTy).Contents (Elt F)),
    unary main_arg1 main_v347 ((extractStridedSlice S8x8x1x1x64x64 ![0, 0, 6, 1, 0, 0] · slices_S8x8x7x7x64x64_S8x8x1x1x64x64_0_0_6_1_0_0) : (⟨S8x8x7x7x64x64, .f32⟩ : BufTy).Contents (Elt F) → (⟨S8x8x1x1x64x64, .f32⟩ : BufTy).Contents (Elt F)),
    reshape main_v347 main_v348 rfl shapeCasts_S8x8x1x1x64x64_S8x8x64x64,
    reshape main_v346 main_v349 rfl shapeCasts_S8x512x64x64_S8x8x64x64x64,
    unary main_v348 main_v350 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v350 main_v351 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v349 main_v351 main_v352 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v345 main_v352 main_v353 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v354 ((extractStridedSlice S8x512x64x64 ![0, 0, 6, 2] · slices_S8x512x70x70_S8x512x64x64_0_0_6_2) : (⟨S8x512x70x70, .f32⟩ : BufTy).Contents (Elt F) → (⟨S8x512x64x64, .f32⟩ : BufTy).Contents (Elt F)),
    unary main_arg1 main_v355 ((extractStridedSlice S8x8x1x1x64x64 ![0, 0, 6, 2, 0, 0] · slices_S8x8x7x7x64x64_S8x8x1x1x64x64_0_0_6_2_0_0) : (⟨S8x8x7x7x64x64, .f32⟩ : BufTy).Contents (Elt F) → (⟨S8x8x1x1x64x64, .f32⟩ : BufTy).Contents (Elt F)),
    reshape main_v355 main_v356 rfl shapeCasts_S8x8x1x1x64x64_S8x8x64x64,
    reshape main_v354 main_v357 rfl shapeCasts_S8x512x64x64_S8x8x64x64x64,
    unary main_v356 main_v358 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v358 main_v359 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v357 main_v359 main_v360 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v353 main_v360 main_v361 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v362 ((extractStridedSlice S8x512x64x64 ![0, 0, 6, 3] · slices_S8x512x70x70_S8x512x64x64_0_0_6_3) : (⟨S8x512x70x70, .f32⟩ : BufTy).Contents (Elt F) → (⟨S8x512x64x64, .f32⟩ : BufTy).Contents (Elt F)),
    unary main_arg1 main_v363 ((extractStridedSlice S8x8x1x1x64x64 ![0, 0, 6, 3, 0, 0] · slices_S8x8x7x7x64x64_S8x8x1x1x64x64_0_0_6_3_0_0) : (⟨S8x8x7x7x64x64, .f32⟩ : BufTy).Contents (Elt F) → (⟨S8x8x1x1x64x64, .f32⟩ : BufTy).Contents (Elt F)),
    reshape main_v363 main_v364 rfl shapeCasts_S8x8x1x1x64x64_S8x8x64x64,
    reshape main_v362 main_v365 rfl shapeCasts_S8x512x64x64_S8x8x64x64x64,
    unary main_v364 main_v366 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v366 main_v367 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v365 main_v367 main_v368 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v361 main_v368 main_v369 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v370 ((extractStridedSlice S8x512x64x64 ![0, 0, 6, 4] · slices_S8x512x70x70_S8x512x64x64_0_0_6_4) : (⟨S8x512x70x70, .f32⟩ : BufTy).Contents (Elt F) → (⟨S8x512x64x64, .f32⟩ : BufTy).Contents (Elt F)),
    unary main_arg1 main_v371 ((extractStridedSlice S8x8x1x1x64x64 ![0, 0, 6, 4, 0, 0] · slices_S8x8x7x7x64x64_S8x8x1x1x64x64_0_0_6_4_0_0) : (⟨S8x8x7x7x64x64, .f32⟩ : BufTy).Contents (Elt F) → (⟨S8x8x1x1x64x64, .f32⟩ : BufTy).Contents (Elt F)),
    reshape main_v371 main_v372 rfl shapeCasts_S8x8x1x1x64x64_S8x8x64x64,
    reshape main_v370 main_v373 rfl shapeCasts_S8x512x64x64_S8x8x64x64x64,
    unary main_v372 main_v374 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v374 main_v375 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v373 main_v375 main_v376 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v369 main_v376 main_v377 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v378 ((extractStridedSlice S8x512x64x64 ![0, 0, 6, 5] · slices_S8x512x70x70_S8x512x64x64_0_0_6_5) : (⟨S8x512x70x70, .f32⟩ : BufTy).Contents (Elt F) → (⟨S8x512x64x64, .f32⟩ : BufTy).Contents (Elt F)),
    unary main_arg1 main_v379 ((extractStridedSlice S8x8x1x1x64x64 ![0, 0, 6, 5, 0, 0] · slices_S8x8x7x7x64x64_S8x8x1x1x64x64_0_0_6_5_0_0) : (⟨S8x8x7x7x64x64, .f32⟩ : BufTy).Contents (Elt F) → (⟨S8x8x1x1x64x64, .f32⟩ : BufTy).Contents (Elt F)),
    reshape main_v379 main_v380 rfl shapeCasts_S8x8x1x1x64x64_S8x8x64x64,
    reshape main_v378 main_v381 rfl shapeCasts_S8x512x64x64_S8x8x64x64x64,
    unary main_v380 main_v382 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v382 main_v383 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v381 main_v383 main_v384 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v377 main_v384 main_v385 (addf : (⟨S8x8x64x64x64, .f32⟩ : BufTy).Contents (Elt F) → (⟨S8x8x64x64x64, .f32⟩ : BufTy).Contents (Elt F) → (⟨S8x8x64x64x64, .f32⟩ : BufTy).Contents (Elt F)),
    unary main_v0 main_v386 ((extractStridedSlice S8x512x64x64 ![0, 0, 6, 6] · slices_S8x512x70x70_S8x512x64x64_0_0_6_6) : (⟨S8x512x70x70, .f32⟩ : BufTy).Contents (Elt F) → (⟨S8x512x64x64, .f32⟩ : BufTy).Contents (Elt F)),
    unary main_arg1 main_v387 ((extractStridedSlice S8x8x1x1x64x64 ![0, 0, 6, 6, 0, 0] · slices_S8x8x7x7x64x64_S8x8x1x1x64x64_0_0_6_6_0_0) : (⟨S8x8x7x7x64x64, .f32⟩ : BufTy).Contents (Elt F) → (⟨S8x8x1x1x64x64, .f32⟩ : BufTy).Contents (Elt F)),
    reshape main_v387 main_v388 rfl shapeCasts_S8x8x1x1x64x64_S8x8x64x64,
    reshape main_v386 main_v389 rfl shapeCasts_S8x512x64x64_S8x8x64x64x64,
    unary main_v388 main_v390 (broadcastInDim S8x8x1x64x64 ![0, 1, 3, 4] bcast_S8x8x64x64_S8x8x1x64x64_0_1_3_4 : (⟨S8x8x64x64, .f32⟩ : BufTy).Contents (Elt F) → (⟨S8x8x1x64x64, .f32⟩ : BufTy).Contents (Elt F)),
    unary main_v390 main_v391 (broadcastInDim S8x8x64x64x64 ![0, 1, 2, 3, 4] bcast_S8x8x1x64x64_S8x8x64x64x64_0_1_2_3_4 : (⟨S8x8x1x64x64, .f32⟩ : BufTy).Contents (Elt F) → (⟨S8x8x64x64x64, .f32⟩ : BufTy).Contents (Elt F)),
    binary main_v389 main_v391 main_v392 (mulf : (⟨S8x8x64x64x64, .f32⟩ : BufTy).Contents (Elt F) → (⟨S8x8x64x64x64, .f32⟩ : BufTy).Contents (Elt F) → (⟨S8x8x64x64x64, .f32⟩ : BufTy).Contents (Elt F)),
    binary main_v385 main_v392 main_v393 (addf : (⟨S8x8x64x64x64, .f32⟩ : BufTy).Contents (Elt F) → (⟨S8x8x64x64x64, .f32⟩ : BufTy).Contents (Elt F) → (⟨S8x8x64x64x64, .f32⟩ : BufTy).Contents (Elt F)) ]

/-- The final reshape: group and channel-in-group merged into one channel axis. -/
abbrev opsPost : List (HloOp τ sig (Elt F)) :=
  [ reshape main_v393 main_v394 rfl shapeCasts_S8x8x64x64x64_S8x512x64x64 ]

/-- @main's 398 operations, in order. -/
abbrev ops : List (HloOp τ sig (Elt F)) :=
  opsPre ++ (opsRow0 ++ (opsRow1 ++ (opsRow2 ++ (opsRow3 ++ (opsRow4 ++ (opsRow5 ++ (opsRow6 ++ opsPost)))))))

set_option maxRecDepth 8192 in
set_option maxHeartbeats 4000000 in
/-- @main is its operations run in order. -/
theorem main_eq (c : Dev nD) : main (F := F) c = seq ops := rfl

/-- The signature scopes no TensorCore buffer … -/
theorem scopedRefs_eq : (Finset.univ.filter fun b : Ref sig .tc => b.isScoped) = ∅ := by decide
/-- … and no semaphore. -/
theorem scopedSems_eq : (Finset.univ.filter fun sm : SemLoc sig => sm.isScoped .tc) = ∅ := by decide

/-! Every operation touches TensorCore references only: piece by piece, then for the whole list. -/

theorem opsPre_sub : (opsPre : List (HloOp τ sig (Elt F))).Forall fun op => op.bufs ⊆ tcRefs τ sig :=
  ⟨nullary_bufs_sub .., unary_bufs_sub .., binary_bufs_sub .., nullary_bufs_sub .., unary_bufs_sub ..⟩
theorem opsRow0_sub : (opsRow0 : List (HloOp τ sig (Elt F))).Forall fun op => op.bufs ⊆ tcRefs τ sig :=
  ⟨unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub ..⟩
theorem opsRow1_sub : (opsRow1 : List (HloOp τ sig (Elt F))).Forall fun op => op.bufs ⊆ tcRefs τ sig :=
  ⟨unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub ..⟩
theorem opsRow2_sub : (opsRow2 : List (HloOp τ sig (Elt F))).Forall fun op => op.bufs ⊆ tcRefs τ sig :=
  ⟨unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub ..⟩
theorem opsRow3_sub : (opsRow3 : List (HloOp τ sig (Elt F))).Forall fun op => op.bufs ⊆ tcRefs τ sig :=
  ⟨unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub ..⟩
theorem opsRow4_sub : (opsRow4 : List (HloOp τ sig (Elt F))).Forall fun op => op.bufs ⊆ tcRefs τ sig :=
  ⟨unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub ..⟩
theorem opsRow5_sub : (opsRow5 : List (HloOp τ sig (Elt F))).Forall fun op => op.bufs ⊆ tcRefs τ sig :=
  ⟨unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub ..⟩
theorem opsRow6_sub : (opsRow6 : List (HloOp τ sig (Elt F))).Forall fun op => op.bufs ⊆ tcRefs τ sig :=
  ⟨unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub .., unary_bufs_sub .., unary_bufs_sub .., reshape_bufs_sub .., reshape_bufs_sub .., unary_bufs_sub .., unary_bufs_sub .., binary_bufs_sub .., binary_bufs_sub ..⟩
theorem opsPost_sub : (opsPost : List (HloOp τ sig (Elt F))).Forall fun op => op.bufs ⊆ tcRefs τ sig :=
  reshape_bufs_sub ..

theorem ops_sub : (ops : List (HloOp τ sig (Elt F))).Forall fun op => op.bufs ⊆ tcRefs τ sig :=
  List.forall_append.mpr ⟨opsPre_sub, List.forall_append.mpr ⟨opsRow0_sub, List.forall_append.mpr ⟨opsRow1_sub,
    List.forall_append.mpr ⟨opsRow2_sub, List.forall_append.mpr ⟨opsRow3_sub, List.forall_append.mpr ⟨opsRow4_sub,
    List.forall_append.mpr ⟨opsRow5_sub, List.forall_append.mpr ⟨opsRow6_sub, opsPost_sub⟩⟩⟩⟩⟩⟩⟩⟩

/-! Every operation determines its results (none only allocates): by cases over each literal piece. -/

theorem opsPre_fresh : ∀ op ∈ (opsPre : List (HloOp τ sig (Elt F))), op.fresh = ∅ := by
  intro _ h; (repeat (cases h with | head => rfl | tail _ h => ?_)); exact nomatch h
theorem opsRow0_fresh : ∀ op ∈ (opsRow0 : List (HloOp τ sig (Elt F))), op.fresh = ∅ := by
  intro _ h; (repeat (cases h with | head => rfl | tail _ h => ?_)); exact nomatch h
theorem opsRow1_fresh : ∀ op ∈ (opsRow1 : List (HloOp τ sig (Elt F))), op.fresh = ∅ := by
  intro _ h; (repeat (cases h with | head => rfl | tail _ h => ?_)); exact nomatch h
theorem opsRow2_fresh : ∀ op ∈ (opsRow2 : List (HloOp τ sig (Elt F))), op.fresh = ∅ := by
  intro _ h; (repeat (cases h with | head => rfl | tail _ h => ?_)); exact nomatch h
theorem opsRow3_fresh : ∀ op ∈ (opsRow3 : List (HloOp τ sig (Elt F))), op.fresh = ∅ := by
  intro _ h; (repeat (cases h with | head => rfl | tail _ h => ?_)); exact nomatch h
theorem opsRow4_fresh : ∀ op ∈ (opsRow4 : List (HloOp τ sig (Elt F))), op.fresh = ∅ := by
  intro _ h; (repeat (cases h with | head => rfl | tail _ h => ?_)); exact nomatch h
theorem opsRow5_fresh : ∀ op ∈ (opsRow5 : List (HloOp τ sig (Elt F))), op.fresh = ∅ := by
  intro _ h; (repeat (cases h with | head => rfl | tail _ h => ?_)); exact nomatch h
theorem opsRow6_fresh : ∀ op ∈ (opsRow6 : List (HloOp τ sig (Elt F))), op.fresh = ∅ := by
  intro _ h; (repeat (cases h with | head => rfl | tail _ h => ?_)); exact nomatch h
theorem opsPost_fresh : ∀ op ∈ (opsPost : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h; · exact opsPre_fresh op h
  rcases List.mem_append.mp h with h | h; · exact opsRow0_fresh op h
  rcases List.mem_append.mp h with h | h; · exact opsRow1_fresh op h
  rcases List.mem_append.mp h with h | h; · exact opsRow2_fresh op h
  rcases List.mem_append.mp h with h | h; · exact opsRow3_fresh op h
  rcases List.mem_append.mp h with h | h; · exact opsRow4_fresh op h
  rcases List.mem_append.mp h with h | h; · exact opsRow5_fresh op h
  rcases List.mem_append.mp h with h | h; · exact opsRow6_fresh op h
  exact opsPost_fresh op h

end Cert.ReferenceIdeal.RefOps

end
-- ==== Proof.RefTaps.lean ====
/-
  Where one tap of the reference reads its two factors.

  The reference works on whole arrays.  For tap (kh, kw) it cuts the 64 x 64 window at pixel offset (kh, kw) out of the
  padded input `P` [8, 512, 70, 70] and splits its 512 channels into 8 groups of 64; it cuts plane (kh, kw) out of
  the kernels `W` [8, 8, 7, 7, 64, 64], drops the two unit axes, and stretches the plane over the 64 channels of a
  group; and multiplies.  Read at batch `b`, group `g`, channel-in-group `c`, pixel (h, w):

    * the window is `P` at batch `b`, channel 64 g + c, pixel (h + kh, w + kw)   (`patch_apply`);
    * the stretched plane is `W` at (b, g, kh, kw, h, w), whatever `c` is          (`plane_apply`);
    * the accumulator starts from the zero word at every index                       (`zero_apply`).

  The offsets (kh, kw) are variables: one lemma serves all 49 taps.  Their bounds come from the slice's own
  in-range fact.
-/
import proofs.«119084_j49125835932189_1_alg».proof.ReferenceIdeal
import Idealize.ShloMosaic.Lib.ValueIdx
import Idealize.ShloMosaic.Lib.ValueIdxRank6
import Idealize.ShloMosaic.Lib.Pipeline.Value

noncomputable section

namespace Cert.ReferenceIdeal.Taps

open Cert.ReferenceIdeal Idealize.ShloMosaic Idealize.ShloMosaic.ValueIdx

variable {α : Type}

/-- A 64 x 64 window at pixel offset (kh, kw) lies inside the 70 x 70 padded image only if kh, kw ≤ 6. -/
theorem patch_off_lt {kh kw : Nat} (hs : S8x512x70x70.Slices (![0, 0, kh, kw] : Fin 4 → Nat) S8x512x64x64) :
    kh < 7 ∧ kw < 7 := by
  have h2 : kh + 64 ≤ 70 := hs.2 2
  have h3 : kw + 64 ≤ 70 := hs.2 3
  omega

/-- Plane (kh, kw) of the kernels exists only if kh, kw ≤ 6. -/
theorem plane_off_lt {kh kw : Nat}
    (hs : S8x8x7x7x64x64.Slices (![0, 0, kh, kw, 0, 0] : Fin 6 → Nat) S8x8x1x1x64x64) : kh < 7 ∧ kw < 7 := by
  have h2 : kh + 1 ≤ 7 := hs.2 2
  have h3 : kw + 1 ≤ 7 := hs.2 3
  omega

/-- The window at pixel offset (kh, kw), its channels split into groups, at (b, g, c, h, w) is the padded input at
    batch `b`, channel 64 g + c, pixel (h + kh, w + kw). -/
theorem patch_apply (P : S8x512x70x70.Idx → α) (kh kw : Nat)
    (hs : S8x512x70x70.Slices (![0, 0, kh, kw] : Fin 4 → Nat) S8x512x64x64)
    (hsc : S8x512x64x64.ShapeCasts S8x8x64x64x64) (b g : Fin 8) (c h w : Fin 64) :
    shapeCast S8x8x64x64x64 (extractStridedSlice S8x512x64x64 ![0, 0, kh, kw] P hs) hsc (ix5 b g c h w)
      = P (ix4 b
          (⟨g.val * 64 + c.val, by have := g.isLt; have := c.isLt; omega⟩ : Fin 512)
          (⟨h.val + kh, by have := (patch_off_lt hs).1; have := h.isLt; omega⟩ : Fin 70)
          (⟨w.val + kw, by have := (patch_off_lt hs).2; have := w.isLt; omega⟩ : Fin 70)) := by
  refine (shapeCast_apply _ hsc (ix5 b g c h w)
    (ix4 b (⟨g.val * 64 + c.val, by have := g.isLt; have := c.isLt; omega⟩ : Fin 512) h w) ?_).trans ?_
  · rw [Shape.rowMajor_val_four, Shape.rowMajor_val_five]
    show ((b.val * 512 + (g.val * 64 + c.val)) * 64 + h.val) * 64 + w.val
      = (((b.val * 8 + g.val) * 64 + c.val) * 64 + h.val) * 64 + w.val
    omega
  · refine extractStridedSlice_apply _ P hs _ _ (fun a => ?_)
    match a with
    | ⟨0, _⟩ => show b.val = 0 + b.val; omega
    | ⟨1, _⟩ => show g.val * 64 + c.val = 0 + (g.val * 64 + c.val); omega
    | ⟨2, _⟩ => show h.val + kh = kh + h.val; omega
    | ⟨3, _⟩ => show w.val + kw = kw + w.val; omega

/-- Plane (kh, kw) of the kernels, its unit axes dropped and stretched over the 64 channels of a group, at
    (b, g, c, h, w) is the kernel entry (kh, kw) of pixel (h, w) in group `g` of batch `b`: it does not depend on `c`. -/
theorem plane_apply (W : S8x8x7x7x64x64.Idx → α) (kh kw : Nat)
    (hs : S8x8x7x7x64x64.Slices (![0, 0, kh, kw, 0, 0] : Fin 6 → Nat) S8x8x1x1x64x64)
    (hsc : S8x8x1x1x64x64.ShapeCasts S8x8x64x64)
    (hb1 : S8x8x64x64.BroadcastsInDim S8x8x1x64x64 ![0, 1, 3, 4])
    (hb2 : S8x8x1x64x64.BroadcastsInDim S8x8x64x64x64 ![0, 1, 2, 3, 4])
    (b g : Fin 8) (c h w : Fin 64) :
    broadcastInDim S8x8x64x64x64 ![0, 1, 2, 3, 4] hb2
        (broadcastInDim S8x8x1x64x64 ![0, 1, 3, 4] hb1
          (shapeCast S8x8x64x64 (extractStridedSlice S8x8x1x1x64x64 ![0, 0, kh, kw, 0, 0] W hs) hsc)) (ix5 b g c h w)
      = W (ix6 b g (⟨kh, (plane_off_lt hs).1⟩ : Fin 7) (⟨kw, (plane_off_lt hs).2⟩ : Fin 7) h w) := by
  refine (broadcastInDim_apply _ hb2 _ (ix5 b g c h w) (ix5 b g (0 : Fin 1) h w) (fun a => ?_)).trans ?_
  · match a with
    | ⟨0, _⟩ => show b.val = if (8 : Nat) = 1 then 0 else b.val; rw [if_neg (by decide)]
    | ⟨1, _⟩ => show g.val = if (8 : Nat) = 1 then 0 else g.val; rw [if_neg (by decide)]
    | ⟨2, _⟩ => show (0 : Nat) = if (1 : Nat) = 1 then 0 else c.val; rw [if_pos rfl]
    | ⟨3, _⟩ => show h.val = if (64 : Nat) = 1 then 0 else h.val; rw [if_neg (by decide)]
    | ⟨4, _⟩ => show w.val = if (64 : Nat) = 1 then 0 else w.val; rw [if_neg (by decide)]
  refine (broadcastInDim_apply _ hb1 _ (ix5 b g (0 : Fin 1) h w) (ix4 b g h w) (fun a => ?_)).trans ?_
  · match a with
    | ⟨0, _⟩ => show b.val = if (8 : Nat) = 1 then 0 else b.val; rw [if_neg (by decide)]
    | ⟨1, _⟩ => show g.val = if (8 : Nat) = 1 then 0 else g.val; rw [if_neg (by decide)]
    | ⟨2, _⟩ => show h.val = if (64 : Nat) = 1 then 0 else h.val; rw [if_neg (by decide)]
    | ⟨3, _⟩ => show w.val = if (64 : Nat) = 1 then 0 else w.val; rw [if_neg (by decide)]
  refine (shapeCast_apply _ hsc (ix4 b g h w) (ix6 b g (0 : Fin 1) (0 : Fin 1) h w) ?_).trans ?_
  · rw [Shape.rowMajor_val_six, Shape.rowMajor_val_four]
    show ((((b.val * 8 + g.val) * 1 + 0) * 1 + 0) * 64 + h.val) * 64 + w.val = ((b.val * 8 + g.val) * 64 + h.val) * 64 + w.val
    omega
  · refine extractStridedSlice_apply _ W hs _ _ (fun a => ?_)
    match a with
    | ⟨0, _⟩ => show b.val = 0 + b.val; omega
    | ⟨1, _⟩ => show g.val = 0 + g.val; omega
    | ⟨2, _⟩ => show kh = kh + 0; omega
    | ⟨3, _⟩ => show kw = kw + 0; omega
    | ⟨4, _⟩ => show h.val = 0 + h.val; omega
    | ⟨5, _⟩ => show w.val = 0 + w.val; omega

/-- The accumulator's start: the zero word stretched to the whole array is the zero word at every index. -/
theorem zero_apply (hb : S_.BroadcastsInDim S8x8x64x64x64 ![]) (i : S8x8x64x64x64.Idx) :
    broadcastInDim S8x8x64x64x64 ![] hb (constant (F := Ideal) S_ .f32 0x00000000#32) i
      = Ideal.ofBits .f32 0x00000000#32 := rfl

end Cert.ReferenceIdeal.Taps

end
-- ==== Proof.RefFold.lean ====
/-
  The 49 taps of the reference as one recursive term, and its value at an index.

  One tap of the reference, number k = 7 kh + kw, is the product of two whole arrays: the 64 x 64 window of the padded
  input `P` at pixel offset (kh, kw) = (k / 7 mod 7, k mod 7), its 512 channels split into 8 groups of 64; and plane
  (kh, kw) of the kernels `W`, its two unit axes dropped, stretched over the 64 channels of a group.  `tapTerm P W k`
  is that product, written with the offsets as functions of k, so that one definition serves all 49 taps.

  `foldTaps A P W s n` adds taps s, s + 1, …, s + n - 1 onto an accumulator `A`, one after the other, left-nested:
  what n consecutive taps of the program do to the accumulator they start from.  Two facts about it are all that the
  run of the program needs:

    * consecutive folds compose: taps s … s + m - 1 and then taps s + m … s + m + n - 1 are taps s … s + m + n - 1
      (`foldTaps_append`), so seven rows of seven taps are the 49 taps (`sevenRows`);
    * read at the index (b, g, c, h, w), the fold from tap 0 is the left-nested sum of the numbers
      P[b, 64 g + c, h + kh, w + kw] · W[b, g, kh, kw, h, w] onto A[b, g, c, h, w], in the order of k
      (`foldTaps_apply`), because a sum and a product of arrays are taken element by element and each factor of a tap is
      read where the two lemmas on one tap's factors say.
-/
import proofs.«119084_j49125835932189_1_alg».proof.Proof.Gen.ReferenceIdeal
import proofs.«119084_j49125835932189_1_alg».proof.Proof.RefTaps
import proofs.«119084_j49125835932189_1_alg».proof.Proof.Spec
import Idealize.ShloMosaic.PureOps.Ideal
import Idealize.ShloMosaic.Lib.ValueIdx

noncomputable section

namespace Cert.ReferenceIdeal.RefFold

open Cert.ReferenceIdeal Cert.ReferenceIdeal.Gen Idealize.ShloMosaic Idealize.ShloMosaic.ValueIdx Cert.Involution

/-- The reference's padding of its first argument: three zeros on each side of the two spatial axes. -/
def padded (x : S8x512x64x64.Idx → EReal) : S8x512x70x70.Idx → EReal :=
  pad S8x512x70x70 ![0, 0, 3, 3] ![0, 0, 3, 3] ![0, 0, 0, 0] x (sitofp (F := Ideal) .f32 (constantI S_ 32 0#32))
    pads_S8x512x64x64_S8x512x70x70_000_000_330_330 h_S_

/-- The window of tap k lies inside the padded image: its pixel offset is at most (6, 6) and 6 + 64 = 70. -/
theorem patchSlices (k : Nat) :
    S8x512x70x70.Slices (![0, 0, k / 7 % 7, k % 7] : Fin 4 → Nat) S8x512x64x64 :=
  ⟨rfl, fun a => by
    have h1 : k / 7 % 7 < 7 := Nat.mod_lt _ (by decide)
    have h2 : k % 7 < 7 := Nat.mod_lt _ (by decide)
    match a with
    | ⟨0, _⟩ => show 0 + 8 ≤ 8; omega
    | ⟨1, _⟩ => show 0 + 512 ≤ 512; omega
    | ⟨2, _⟩ => show k / 7 % 7 + 64 ≤ 70; omega
    | ⟨3, _⟩ => show k % 7 + 64 ≤ 70; omega⟩

/-- Plane (kh, kw) of tap k exists among the 7 x 7 planes of the kernels. -/
theorem planeSlices (k : Nat) :
    S8x8x7x7x64x64.Slices (![0, 0, k / 7 % 7, k % 7, 0, 0] : Fin 6 → Nat) S8x8x1x1x64x64 :=
  ⟨rfl, fun a => by
    have h1 : k / 7 % 7 < 7 := Nat.mod_lt _ (by decide)
    have h2 : k % 7 < 7 := Nat.mod_lt _ (by decide)
    match a with
    | ⟨0, _⟩ => show 0 + 8 ≤ 8; omega
    | ⟨1, _⟩ => show 0 + 8 ≤ 8; omega
    | ⟨2, _⟩ => show k / 7 % 7 + 1 ≤ 7; omega
    | ⟨3, _⟩ => show k % 7 + 1 ≤ 7; omega
    | ⟨4, _⟩ => show 0 + 64 ≤ 64; omega
    | ⟨5, _⟩ => show 0 + 64 ≤ 64; omega⟩

/-- Tap number k as the program computes it: the window of `P` at pixel offset (k / 7 mod 7, k mod 7) with its channels
    split into groups, times plane (k / 7 mod 7, k mod 7) of `W` stretched over the channels of a group. -/
def tapTerm (P : S8x512x70x70.Idx → EReal) (W : S8x8x7x7x64x64.Idx → EReal) (k : Nat) : S8x8x64x64x64.Idx → EReal :=
  mulf (F := Ideal) (φ := .f32)
    (shapeCast S8x8x64x64x64 (extractStridedSlice S8x512x64x64 ![0, 0, k / 7 % 7, k % 7] P (patchSlices k))
      shapeCasts_S8x512x64x64_S8x8x64x64x64)
    (broadcastInDim S8x8x64x64x64 ![0, 1, 2, 3, 4] bcast_S8x8x1x64x64_S8x8x64x64x64_0_1_2_3_4
      (broadcastInDim S8x8x1x64x64 ![0, 1, 3, 4] bcast_S8x8x64x64_S8x8x1x64x64_0_1_3_4
        (shapeCast S8x8x64x64 (extractStridedSlice S8x8x1x1x64x64 ![0, 0, k / 7 % 7, k % 7, 0, 0] W (planeSlices k))
          shapeCasts_S8x8x1x1x64x64_S8x8x64x64)))

/-- Taps s, s + 1, …, s + n - 1 added in order onto the accumulator `A`. -/
def foldTaps (A : S8x8x64x64x64.Idx → EReal) (P : S8x512x70x70.Idx → EReal) (W : S8x8x7x7x64x64.Idx → EReal) (s : Nat) :
    Nat → (S8x8x64x64x64.Idx → EReal)
  | 0 => A
  | n + 1 => addf (F := Ideal) (φ := .f32) (foldTaps A P W s n) (tapTerm P W (s + n))

variable (A : S8x8x64x64x64.Idx → EReal) (P : S8x512x70x70.Idx → EReal) (W : S8x8x7x7x64x64.Idx → EReal)

theorem foldTaps_zero (s : Nat) : foldTaps A P W s 0 = A := rfl
theorem foldTaps_succ (s n : Nat) :
    foldTaps A P W s (n + 1) = addf (F := Ideal) (φ := .f32) (foldTaps A P W s n) (tapTerm P W (s + n)) := rfl

/-- Taps s … s + m - 1 and then taps s + m … s + m + n - 1 are taps s … s + m + n - 1. -/
theorem foldTaps_append (s m n : Nat) :
    foldTaps (foldTaps A P W s m) P W (s + m) n = foldTaps A P W s (m + n) := by
  induction n with
  | zero => rfl
  | succ n ih =>
    show addf (F := Ideal) (φ := .f32) (foldTaps (foldTaps A P W s m) P W (s + m) n) (tapTerm P W (s + m + n))
      = addf (F := Ideal) (φ := .f32) (foldTaps A P W s (m + n)) (tapTerm P W (s + (m + n)))
    rw [ih, Nat.add_assoc]

/-- Seven rows of seven taps, each row starting from the accumulator the row before it left, are the 49 taps. -/
theorem sevenRows :
    foldTaps (foldTaps (foldTaps (foldTaps (foldTaps (foldTaps (foldTaps A P W 0 7) P W 7 7) P W 14 7) P W 21 7) P W 28 7)
      P W 35 7) P W 42 7 = foldTaps A P W 0 49 := by
  have e1 : foldTaps (foldTaps A P W 0 7) P W 7 7 = foldTaps A P W 0 14 := foldTaps_append A P W 0 7 7
  have e2 : foldTaps (foldTaps A P W 0 14) P W 14 7 = foldTaps A P W 0 21 := foldTaps_append A P W 0 14 7
  have e3 : foldTaps (foldTaps A P W 0 21) P W 21 7 = foldTaps A P W 0 28 := foldTaps_append A P W 0 21 7
  have e4 : foldTaps (foldTaps A P W 0 28) P W 28 7 = foldTaps A P W 0 35 := foldTaps_append A P W 0 28 7
  have e5 : foldTaps (foldTaps A P W 0 35) P W 35 7 = foldTaps A P W 0 42 := foldTaps_append A P W 0 35 7
  have e6 : foldTaps (foldTaps A P W 0 42) P W 42 7 = foldTaps A P W 0 49 := foldTaps_append A P W 0 42 7
  rw [e1, e2, e3, e4, e5, e6]

/-- One tap at the index (b, g, c, h, w): the padded input at channel 64 g + c, pixel (h + kh, w + kw), times the
    kernel entry (kh, kw) of pixel (h, w) — the tap of the specification. -/
theorem tapTerm_apply (k : Nat) (b g : Fin 8) (c h w : Fin 64) :
    tapTerm P W k (ix5 b g c h w) = tap P W b g c h w k := by
  show mulf (F := Ideal) (φ := .f32) _ _ (ix5 b g c h w) = _
  rw [mulf_apply, Taps.patch_apply, Taps.plane_apply]
  rfl

/-- The fold from tap s at the index (b, g, c, h, w): that index's taps s, s + 1, … added in order onto the
    accumulator's element. -/
theorem foldTaps_apply (s n : Nat) (b g : Fin 8) (c h w : Fin 64) :
    foldTaps A P W s n (ix5 b g c h w)
      = partialSum (A (ix5 b g c h w)) (fun j => tap P W b g c h w (s + j)) n := by
  induction n with
  | zero => rfl
  | succ n ih =>
    show addf (F := Ideal) (φ := .f32) (foldTaps A P W s n) (tapTerm P W (s + n)) (ix5 b g c h w)
      = partialSum (A (ix5 b g c h w)) (fun j => tap P W b g c h w (s + j)) n + tap P W b g c h w (s + n)
    rw [addf_apply, ih, tapTerm_apply]

/-- All 49 taps from tap 0, at any index of the accumulator: the index's 49 taps added in order onto the accumulator's
    element there. -/
theorem foldTaps_all_apply (i : S8x8x64x64x64.Idx) :
    foldTaps A P W 0 49 i = partialSum (A i) (tap P W (i 0) (i 1) (i 2) (i 3) (i 4)) 49 := by
  obtain ⟨b, g, c, h, w, rfl⟩ : ∃ b g c h w, i = ix5 b g c h w := ⟨_, _, _, _, _, eq_ix5 i⟩
  rw [foldTaps_apply]
  simp only [Nat.zero_add]

end Cert.ReferenceIdeal.RefFold

end
-- ==== Proof.RefRows.lean ====
/-
  What each piece of the reference's operation list leaves in the buffers, for ANY contents `V` the piece starts from.

  A stencil row reads three buffers it does not write — the accumulator it starts from, the padded input `main_v0`
  and the kernels `main_arg1` — and its last operation writes the accumulator it ends in.  So, whatever `V` holds,
  after row r the buffer `main_v(56 r + 57)` holds taps 7 r … 7 r + 6 folded onto what `V` held at `main_v(56 r + 1)`,
  the taps cut from what `V` held at `main_v0` and `main_arg1`; and the padded input and the two arguments are as
  `V` had them.  Since `V` is a variable, the padded input is never written out: each row's statement is a term
  of 56 operations over three unknown arrays.

  The prefix leaves the padded first argument in `main_v0` and the zero word everywhere in `main_v1`; the last
  operation reshapes `main_v393` into `main_v394`.  The next module chains these statements.
-/
import proofs.«119084_j49125835932189_1_alg».proof.Proof.RefOps
import proofs.«119084_j49125835932189_1_alg».proof.Proof.RefFold

noncomputable section

namespace Cert.ReferenceIdeal.RefRows

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefFold Cert.Involution

/-- The accumulator's start: the zero word at every index. -/
def zeroAcc : S8x8x64x64x64.Idx → EReal :=
  broadcastInDim S8x8x64x64x64 ![] bcast_S_S8x8x64x64x64 (constant (F := Ideal) S_ .f32 0x00000000#32)

variable (V : Valuation τ sig (Elt Ideal))

/-! ## The prefix -/

theorem pre_v0 : after (opsPre (F := Ideal)) V (Proc.devRef .tc main_v0) = padded (V (Proc.devRef .tc main_arg0)) := by
  after_results_simp <;> rfl
theorem pre_v1 : after (opsPre (F := Ideal)) V (Proc.devRef .tc main_v1) = zeroAcc := by
  after_results_simp <;> rfl
theorem pre_arg0 : after (opsPre (F := Ideal)) V (Proc.devRef .tc main_arg0) = V (Proc.devRef .tc main_arg0) := by
  after_results_simp <;> rfl
theorem pre_arg1 : after (opsPre (F := Ideal)) V (Proc.devRef .tc main_arg1) = V (Proc.devRef .tc main_arg1) := by
  after_results_simp <;> rfl

/-! ## Stencil row kh = 0: taps 0 … 6 -/

theorem row0_acc : after (opsRow0 (F := Ideal)) V (Proc.devRef .tc main_v57)
    = foldTaps (V (Proc.devRef .tc main_v1)) (V (Proc.devRef .tc main_v0)) (V (Proc.devRef .tc main_arg1)) 0 7 := by
  after_results_simp <;> rfl
theorem row0_v0 : after (opsRow0 (F := Ideal)) V (Proc.devRef .tc main_v0) = V (Proc.devRef .tc main_v0) := by
  after_results_simp <;> rfl
theorem row0_arg0 : after (opsRow0 (F := Ideal)) V (Proc.devRef .tc main_arg0) = V (Proc.devRef .tc main_arg0) := by
  after_results_simp <;> rfl
theorem row0_arg1 : after (opsRow0 (F := Ideal)) V (Proc.devRef .tc main_arg1) = V (Proc.devRef .tc main_arg1) := by
  after_results_simp <;> rfl

/-! ## Stencil row kh = 1: taps 7 … 13 -/

theorem row1_acc : after (opsRow1 (F := Ideal)) V (Proc.devRef .tc main_v113)
    = foldTaps (V (Proc.devRef .tc main_v57)) (V (Proc.devRef .tc main_v0)) (V (Proc.devRef .tc main_arg1)) 7 7 := by
  after_results_simp <;> rfl
theorem row1_v0 : after (opsRow1 (F := Ideal)) V (Proc.devRef .tc main_v0) = V (Proc.devRef .tc main_v0) := by
  after_results_simp <;> rfl
theorem row1_arg0 : after (opsRow1 (F := Ideal)) V (Proc.devRef .tc main_arg0) = V (Proc.devRef .tc main_arg0) := by
  after_results_simp <;> rfl
theorem row1_arg1 : after (opsRow1 (F := Ideal)) V (Proc.devRef .tc main_arg1) = V (Proc.devRef .tc main_arg1) := by
  after_results_simp <;> rfl

/-! ## Stencil row kh = 2: taps 14 … 20 -/

theorem row2_acc : after (opsRow2 (F := Ideal)) V (Proc.devRef .tc main_v169)
    = foldTaps (V (Proc.devRef .tc main_v113)) (V (Proc.devRef .tc main_v0)) (V (Proc.devRef .tc main_arg1)) 14 7 := by
  after_results_simp <;> rfl
theorem row2_v0 : after (opsRow2 (F := Ideal)) V (Proc.devRef .tc main_v0) = V (Proc.devRef .tc main_v0) := by
  after_results_simp <;> rfl
theorem row2_arg0 : after (opsRow2 (F := Ideal)) V (Proc.devRef .tc main_arg0) = V (Proc.devRef .tc main_arg0) := by
  after_results_simp <;> rfl
theorem row2_arg1 : after (opsRow2 (F := Ideal)) V (Proc.devRef .tc main_arg1) = V (Proc.devRef .tc main_arg1) := by
  after_results_simp <;> rfl

/-! ## Stencil row kh = 3: taps 21 … 27 -/

theorem row3_acc : after (opsRow3 (F := Ideal)) V (Proc.devRef .tc main_v225)
    = foldTaps (V (Proc.devRef .tc main_v169)) (V (Proc.devRef .tc main_v0)) (V (Proc.devRef .tc main_arg1)) 21 7 := by
  after_results_simp <;> rfl
theorem row3_v0 : after (opsRow3 (F := Ideal)) V (Proc.devRef .tc main_v0) = V (Proc.devRef .tc main_v0) := by
  after_results_simp <;> rfl
theorem row3_arg0 : after (opsRow3 (F := Ideal)) V (Proc.devRef .tc main_arg0) = V (Proc.devRef .tc main_arg0) := by
  after_results_simp <;> rfl
theorem row3_arg1 : after (opsRow3 (F := Ideal)) V (Proc.devRef .tc main_arg1) = V (Proc.devRef .tc main_arg1) := by
  after_results_simp <;> rfl

/-! ## Stencil row kh = 4: taps 28 … 34 -/

theorem row4_acc : after (opsRow4 (F := Ideal)) V (Proc.devRef .tc main_v281)
    = foldTaps (V (Proc.devRef .tc main_v225)) (V (Proc.devRef .tc main_v0)) (V (Proc.devRef .tc main_arg1)) 28 7 := by
  after_results_simp <;> rfl
theorem row4_v0 : after (opsRow4 (F := Ideal)) V (Proc.devRef .tc main_v0) = V (Proc.devRef .tc main_v0) := by
  after_results_simp <;> rfl
theorem row4_arg0 : after (opsRow4 (F := Ideal)) V (Proc.devRef .tc main_arg0) = V (Proc.devRef .tc main_arg0) := by
  after_results_simp <;> rfl
theorem row4_arg1 : after (opsRow4 (F := Ideal)) V (Proc.devRef .tc main_arg1) = V (Proc.devRef .tc main_arg1) := by
  after_results_simp <;> rfl

/-! ## Stencil row kh = 5: taps 35 … 41 -/

theorem row5_acc : after (opsRow5 (F := Ideal)) V (Proc.devRef .tc main_v337)
    = foldTaps (V (Proc.devRef .tc main_v281)) (V (Proc.devRef .tc main_v0)) (V (Proc.devRef .tc main_arg1)) 35 7 := by
  after_results_simp <;> rfl
theorem row5_v0 : after (opsRow5 (F := Ideal)) V (Proc.devRef .tc main_v0) = V (Proc.devRef .tc main_v0) := by
  after_results_simp <;> rfl
theorem row5_arg0 : after (opsRow5 (F := Ideal)) V (Proc.devRef .tc main_arg0) = V (Proc.devRef .tc main_arg0) := by
  after_results_simp <;> rfl
theorem row5_arg1 : after (opsRow5 (F := Ideal)) V (Proc.devRef .tc main_arg1) = V (Proc.devRef .tc main_arg1) := by
  after_results_simp <;> rfl

/-! ## Stencil row kh = 6: taps 42 … 48 -/

theorem row6_acc : after (opsRow6 (F := Ideal)) V (Proc.devRef .tc main_v393)
    = foldTaps (V (Proc.devRef .tc main_v337)) (V (Proc.devRef .tc main_v0)) (V (Proc.devRef .tc main_arg1)) 42 7 := by
  after_results_simp <;> rfl
theorem row6_arg0 : after (opsRow6 (F := Ideal)) V (Proc.devRef .tc main_arg0) = V (Proc.devRef .tc main_arg0) := by
  after_results_simp <;> rfl
theorem row6_arg1 : after (opsRow6 (F := Ideal)) V (Proc.devRef .tc main_arg1) = V (Proc.devRef .tc main_arg1) := by
  after_results_simp <;> rfl

/-! ## The final reshape -/

theorem post_v394 : after (opsPost (F := Ideal)) V (Proc.devRef .tc main_v394)
    = shapeCast S8x512x64x64 (V (Proc.devRef .tc main_v393)) shapeCasts_S8x8x64x64x64_S8x512x64x64 := by
  after_results_simp <;> rfl
theorem post_arg0 : after (opsPost (F := Ideal)) V (Proc.devRef .tc main_arg0) = V (Proc.devRef .tc main_arg0) := by
  after_results_simp <;> rfl
theorem post_arg1 : after (opsPost (F := Ideal)) V (Proc.devRef .tc main_arg1) = V (Proc.devRef .tc main_arg1) := by
  after_results_simp <;> rfl

/-- The zero accumulator at an index: the zero word. -/
theorem zeroAcc_apply (i : S8x8x64x64x64.Idx) : zeroAcc i = Ideal.ofBits .f32 0x00000000#32 :=
  Taps.zero_apply bcast_S_S8x8x64x64x64 i

end Cert.ReferenceIdeal.RefRows

end
-- ==== Proof.RefChain.lean ====
/-
  The pieces of the reference's operation list chained: what the whole list leaves in the result buffer and in the
  two arguments, for any contents `V` it starts from.

  The buffers after two lists run one after the other are the second list's after the first's (the library's
  `StableHlo.after_append`).  So the result buffer
  holds the reshape of row 6's accumulator; row 6 folds its taps onto row 5's accumulator, cutting them from the padded
  input and the kernels as row 5 left them, which is as row 4 left them, …, which is as the prefix left them: the padded
  first argument, and the second argument untouched.  Seven rows of seven taps folded onto the zero accumulator are the
  49 taps, and at each index that is the specification's sum.
-/
import proofs.«119084_j49125835932189_1_alg».proof.Proof.RefRows

noncomputable section

namespace Cert.ReferenceIdeal.RefChain

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefFold Cert.ReferenceIdeal.RefRows Cert.Involution

variable (V : Valuation τ sig (Elt Ideal))

/-- The whole list as its pieces run one after the other. -/
theorem after_ops (b : DevRef τ sig) : after (ops (F := Ideal)) V b
    = after opsPost (after opsRow6 (after opsRow5 (after opsRow4 (after opsRow3 (after opsRow2 (after opsRow1
        (after opsRow0 (after opsPre V)))))))) b := by
  show after (opsPre ++ (opsRow0 ++ (opsRow1 ++ (opsRow2 ++ (opsRow3 ++ (opsRow4 ++ (opsRow5 ++ (opsRow6 ++ opsPost)))))))) V b = _
  rw [StableHlo.after_append, StableHlo.after_append, StableHlo.after_append, StableHlo.after_append, StableHlo.after_append,
    StableHlo.after_append, StableHlo.after_append, StableHlo.after_append]

/-- The two arguments end as they started. -/
theorem ops_arg0 : after (ops (F := Ideal)) V (Proc.devRef .tc main_arg0) = V (Proc.devRef .tc main_arg0) := by
  rw [after_ops, post_arg0, row6_arg0, row5_arg0, row4_arg0, row3_arg0, row2_arg0, row1_arg0, row0_arg0, pre_arg0]
theorem ops_arg1 : after (ops (F := Ideal)) V (Proc.devRef .tc main_arg1) = V (Proc.devRef .tc main_arg1) := by
  rw [after_ops, post_arg1, row6_arg1, row5_arg1, row4_arg1, row3_arg1, row2_arg1, row1_arg1, row0_arg1, pre_arg1]

/-- The result buffer ends holding the specification's involution of the padded first argument and the second
    argument, its group and channel-in-group axes merged. -/
theorem ops_v394 : after (ops (F := Ideal)) V (Proc.devRef .tc main_v394)
    = shapeCast S8x512x64x64 (involution (padded (V (Proc.devRef .tc main_arg0))) (V (Proc.devRef .tc main_arg1)))
        shapeCasts_S8x8x64x64x64_S8x512x64x64 := by
  rw [after_ops, post_v394, row6_acc, row5_acc, row4_acc, row3_acc, row2_acc, row1_acc, row0_acc]
  rw [row5_v0, row4_v0, row3_v0, row2_v0, row1_v0, row0_v0]
  rw [row5_arg1, row4_arg1, row3_arg1, row2_arg1, row1_arg1, row0_arg1]
  rw [pre_v0, pre_v1, pre_arg1, sevenRows]
  refine congrArg (fun x => shapeCast S8x512x64x64 x shapeCasts_S8x8x64x64x64_S8x512x64x64) (funext fun i => ?_)
  rw [foldTaps_all_apply, zeroAcc_apply]
  rfl

end Cert.ReferenceIdeal.RefChain

end
-- ==== Proof.RefRun.lean ====
/-
  The run of the reference.

  The reference's @main is a straight line of host operations, so every weakly fair execution of it ends, without a
  fault, with each buffer holding what the operations, folded in order over the launch contents, leave there.  For the
  result buffer that is the reshape of the 49 taps folded onto the zero accumulator, which is, index by index, the
  specification's sum over the padded first argument and the second argument; the two arguments are read and never
  written, so they end as they started.
-/
import proofs.«119084_j49125835932189_1_alg».proof.Proof.RefChain

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.RefFold Cert.ReferenceIdeal.RefRows Cert.ReferenceIdeal.RefChain

/-- On every device, from any memory with zero counters: every weakly fair execution of the reference terminates with
    the result buffer at the involution of the padded first argument and the second argument (group and
    channel-in-group axes merged), and the two arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v394)
          = shapeCast S8x512x64x64
              (Cert.Involution.involution (padded (m ((c.tc : Thread nD τ).loc main_arg0))) (m ((c.tc : Thread nD τ).loc main_arg1)))
              shapeCasts_S8x8x64x64x64_S8x512x64x64
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c main_v394).trans (ops_v394 (launchContents m c)),
      (h c main_arg0).trans (ops_arg0 (launchContents m c)),
      (h c main_arg1).trans (ops_arg1 (launchContents m c))⟩)
    (run_seq scopedRefs_eq scopedSems_eq defs main (fun _ => ops) main_eq (fun _ => ops_sub) m ρ (fun _ => ops_fresh))

end Cert.ReferenceIdeal.RefRun

end
-- ==== Proof.lean ====
/-
  The kernel and its reference compute the same involution.

  Both programs pad the input `x` [8, 512, 64, 64] by three zeros on each side of its two spatial axes and, with `W`
  the per-pixel kernels [8, 8, 7, 7, 64, 64], produce at batch b, channel 64 g + c and pixel (h, w) the zero word plus
  the 49 taps  P[b, 64 g + c, h + kh, w + kw] · W[b, g, kh, kw, h, w],  added one after the other in row-major order
  of (kh, kw), left-nested (Proof/Spec.lean).  The kernel does it tile by tile on a grid of (batch, group) points
  (Proof/KernelBody.lean for one tile, Proof/KernelTiles.lean and Proof/KernelArray.lean for the whole array,
  Proof/KernelRun.lean for the run); the reference on whole arrays, one tap after the other (Proof/RefFold.lean for the
  taps at an index, Proof/RefRows.lean and Proof/RefChain.lean for the operations row by row, Proof/RefRun.lean for
  the run).  The two sums have the same terms in the same order and grouping, so no law of the extended reals and no
  finiteness of the inputs is needed: the precondition is never opened.  The idealization rewrote no operation, so
  there is nothing to preserve; the three programs' frames are their runs with the result dropped.
-/
import proofs.«119084_j49125835932189_1_alg».proof.Defs
import proofs.«119084_j49125835932189_1_alg».proof.Proof.Gen.Kernel
import proofs.«119084_j49125835932189_1_alg».proof.Proof.Gen.Kernel.Skeleton
import proofs.«119084_j49125835932189_1_alg».proof.Proof.Gen.Kernel.Launch
import proofs.«119084_j49125835932189_1_alg».proof.Proof.Gen.Kernel.Points
import proofs.«119084_j49125835932189_1_alg».proof.Proof.Gen.Kernel.Frame
import proofs.«119084_j49125835932189_1_alg».proof.Proof.Gen.KernelIdeal
import proofs.«119084_j49125835932189_1_alg».proof.Proof.Gen.KernelIdeal.Skeleton
import proofs.«119084_j49125835932189_1_alg».proof.Proof.Gen.KernelIdeal.Launch
import proofs.«119084_j49125835932189_1_alg».proof.Proof.Gen.KernelIdeal.Points
import proofs.«119084_j49125835932189_1_alg».proof.Proof.Gen.KernelIdeal.Frame
import proofs.«119084_j49125835932189_1_alg».proof.Proof.Gen.ReferenceIdeal
import proofs.«119084_j49125835932189_1_alg».proof.Proof.Gen.Pre_finite_inputs
import proofs.«119084_j49125835932189_1_alg».proof.Proof.KernelRun
import proofs.«119084_j49125835932189_1_alg».proof.Proof.RefRun
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories that agree on the two arguments, both idealized programs end with the result at the involution of
    the padded first argument and the second, its group and channel-in-group axes merged: the kernel's run and the
    reference's run state the same function, and the two paddings are one operation of one argument. -/
theorem algebraic : Cert.algebraic_KernelIdeal_ReferenceIdeal := by
  intro m ρ m' ρ' _ hagree
  refine ⟨fun c => Cert.KernelIdeal.Whole.reshaped m c, Cert.KernelIdeal.Whole.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
